-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S1023x3072 : Shape := ⟨2, ![1023, 3072]⟩
abbrev S1023 : Shape := ⟨1, ![1023]⟩
abbrev S1024x1000 : Shape := ⟨2, ![1024, 1000]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1023x3072 : S_.BroadcastsInDim S1023x3072 (![] : Fin 0 → Fin S1023x3072.rank)
  reducesTo_S1023x3072_S_d0_1 : S1023x3072.ReducesTo [0, 1] S_
  bcast_S_S1023 : S_.BroadcastsInDim S1023 (![] : Fin 0 → Fin S1023.rank)
  reducesTo_S1023_S_d0 : S1023.ReducesTo [0] S_
  bcast_S_S1024x1000 : S_.BroadcastsInDim S1024x1000 (![] : Fin 0 → Fin S1024x1000.rank)
  reducesTo_S1024x1000_S_d0_1 : S1024x1000.ReducesTo [0, 1] S_

variable [Facts]

def fn_part1 {F : FTy → Type} [FloatOps F] (main_v13 : IVec S_ 1) (main_v16 : IVec S1024x1000 1) : IVec S_ 1 :=
  let main_c_5 : IVec S_ 1 := constantI S_ 1 1#1
  let main_v17 : IVec S_ 1 := (fun x v => Host.reduce IntOp.andi x v reducesTo_S1024x1000_S_d0_1 h_S_) main_v16 main_c_5
  let main_v18 : IVec S_ 1 := andi main_v13 main_v17
  main_v18

def fn {F : FTy → Type} [FloatOps F] (main_arg0 : FVec F S8192x3072 .f32) (main_arg1 : FVec F S1023x3072 .f32) (main_arg2 : FVec F S1023 .f32) (main_arg3 : FVec F S1024x1000 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S1023x3072 .f32 := Host.absf main_arg1
  let main_cst_0 : FVec F S_ .f32 := constant S_ .f32 0x7F800000#32
  let main_v5 : FVec F S1023x3072 .f32 := broadcastInDim S1023x3072 ![] bcast_S_S1023x3072 main_cst_0
  let main_v6 : IVec S1023x3072 1 := cmpf .olt main_v4 main_v5
  let main_c_1 : IVec S_ 1 := constantI S_ 1 1#1
  let main_v7 : IVec S_ 1 := (fun x v => Host.reduce IntOp.andi x v reducesTo_S1023x3072_S_d0_1 h_S_) main_v6 main_c_1
  let main_v8 : IVec S_ 1 := andi main_v3 main_v7
  let main_v9 : FVec F S1023 .f32 := Host.absf main_arg2
  let main_cst_2 : FVec F S_ .f32 := constant S_ .f32 0x7F800000#32
  let main_v10 : FVec F S1023 .f32 := broadcastInDim S1023 ![] bcast_S_S1023 main_cst_2
  let main_v11 : IVec S1023 1 := cmpf .olt main_v9 main_v10
  let main_c_3 : IVec S_ 1 := constantI S_ 1 1#1
  let main_v12 : IVec S_ 1 := (fun x v => Host.reduce IntOp.andi x v reducesTo_S1023_S_d0 h_S_) main_v11 main_c_3
  let main_v13 : IVec S_ 1 := andi main_v8 main_v12
  let main_v14 : FVec F S1024x1000 .f32 := Host.absf main_arg3
  let main_cst_4 : FVec F S_ .f32 := constant S_ .f32 0x7F800000#32
  let main_v15 : FVec F S1024x1000 .f32 := broadcastInDim S1024x1000 ![] bcast_S_S1024x1000 main_cst_4
  let main_v16 : IVec S1024x1000 1 := cmpf .olt main_v14 main_v15
  fn_part1 (F := F) main_v13 main_v16
-- ==== Kernel.lean ====
abbrev S8192x3072 : Shape := ⟨2, ![8192, 3072]⟩
abbrev S1023x3072 : Shape := ⟨2, ![1023, 3072]⟩
abbrev S1023 : Shape := ⟨1, ![1023]⟩
abbrev S1024x1000 : Shape := ⟨2, ![1024, 1000]⟩
abbrev S1024 : Shape := ⟨1, ![1024]⟩
abbrev S_ : Shape := ⟨0, ![]⟩
abbrev S1023x1 : Shape := ⟨2, ![1023, 1]⟩
abbrev S1024x1 : Shape := ⟨2, ![1024, 1]⟩
abbrev S1024x3072 : Shape := ⟨2, ![1024, 3072]⟩
abbrev S1x1024 : Shape := ⟨2, ![1, 1024]⟩
abbrev S1024x1024 : Shape := ⟨2, ![1024, 1024]⟩
abbrev S8192x1024 : Shape := ⟨2, ![8192, 1024]⟩
abbrev S256x3072 : Shape := ⟨2, ![256, 3072]⟩
abbrev S256x1024 : Shape := ⟨2, ![256, 1024]⟩
abbrev S256x1 : Shape := ⟨2, ![256, 1]⟩
abbrev S256x2 : Shape := ⟨2, ![256, 2]⟩
abbrev S256x4 : Shape := ⟨2, ![256, 4]⟩
abbrev S256x8 : Shape := ⟨2, ![256, 8]⟩
abbrev S256x16 : Shape := ⟨2, ![256, 16]⟩
abbrev S256x32 : Shape := ⟨2, ![256, 32]⟩
abbrev S256x64 : Shape := ⟨2, ![256, 64]⟩
abbrev S256x128 : Shape := ⟨2, ![256, 128]⟩
abbrev S256x256 : Shape := ⟨2, ![256, 256]⟩
abbrev S256x512 : Shape := ⟨2, ![256, 512]⟩
abbrev S8192x1000 : Shape := ⟨2, ![8192, 1000]⟩

abbrev nBuf : Space → Nat
  | .hbm => 55
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S1023x3072, .f32⟩
  | .hbm, ⟨2, _⟩ => ⟨S1023, .f32⟩
  | .hbm, ⟨3, _⟩ => ⟨S1024x1000, .f32⟩
  | .hbm, ⟨4, _⟩ => ⟨S1023, .i32⟩
  | .hbm, ⟨5, _⟩ => ⟨S1023, .i1⟩
  | .hbm, ⟨6, _⟩ => ⟨S1023, .i1⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1023, .i32⟩
  | .hbm, ⟨11, _⟩ => ⟨S1023, .i32⟩
  | .hbm, ⟨12, _⟩ => ⟨S1023, .i32⟩
  | .hbm, ⟨13, _⟩ => ⟨S1023x1, .i32⟩
  | .hbm, ⟨14, _⟩ => ⟨S1023x3072, .f32⟩
  | .hbm, ⟨15, _⟩ => ⟨S_, .i32⟩
  | .hbm, ⟨16, _⟩ => ⟨S1023, .i32⟩
  | .hbm, ⟨17, _⟩ => ⟨S1023, .i32⟩
  | .hbm, ⟨18, _⟩ => ⟨S1023, .i32⟩
  | .hbm, ⟨19, _⟩ => ⟨S1023x1, .i32⟩
  | .hbm, ⟨20, _⟩ => ⟨S1023, .f32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1000, .f32⟩
  | .hbm, ⟨27, _⟩ => ⟨S_, .i32⟩
  | .hbm, ⟨28, _⟩ => ⟨S_, .f32⟩
  | .hbm, ⟨29, _⟩ => ⟨S1024x3072, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1024x3072, .bf16⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024x1, .f32⟩
  | .hbm, ⟨41, _⟩ => ⟨S1024x1000, .f32⟩
  | .hbm, ⟨42, _⟩ => ⟨S1024x1000, .f32⟩
  | .hbm, ⟨43, _⟩ => ⟨S1024x1000, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S1024x1000, .f32⟩
  | .hbm, ⟨48, _⟩ => ⟨S1024x1000, .f32⟩
  | .hbm, ⟨49, _⟩ => ⟨S_, .i32⟩
  | .hbm, ⟨50, _⟩ => ⟨S_, .f32⟩
  | .hbm, ⟨51, _⟩ => ⟨S1024x1024, .f32⟩
  | .hbm, ⟨52, _⟩ => ⟨S1024x1024, .bf16⟩
  | .hbm, ⟨53, _⟩ => ⟨S8192x1024, .f32⟩
  | .hbm, ⟨54, _⟩ => ⟨S8192x1000, .f32⟩
  | .local _ .vmem, ⟨0, _⟩ => ⟨S256x3072, .f32⟩
  | .local _ .vmem, ⟨1, _⟩ => ⟨S256x3072, .f32⟩
  | .local _ .vmem, ⟨2, _⟩ => ⟨S1024x3072, .bf16⟩
  | .local _ .vmem, ⟨3, _⟩ => ⟨S1x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_7 : Ref sig .tc := ⟨.hbm, 27, rfl⟩
abbrev main_call0_v0 : Ref sig .tc := ⟨.hbm, 28, rfl⟩
abbrev main_v15 : Ref sig .tc := ⟨.hbm, 29, rfl⟩
abbrev main_c_8 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_9 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_11 : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1023 : S_.BroadcastsInDim S1023 (![] : Fin 0 → Fin S1023.rank)
  bcast_S1023_S1023x1_0 : S1023.BroadcastsInDim S1023x1 (![0] : Fin 1 → Fin S1023x1.rank)
  bcast_S_S1024 : S_.BroadcastsInDim S1024 (![] : Fin 0 → Fin S1024.rank)
  bcast_S1024_S1024x1_0 : S1024.BroadcastsInDim S1024x1 (![0] : Fin 1 → Fin S1024x1.rank)
  pads_S1023x3072_S1024x3072_010_000 : S1023x3072.Pads (![0, 0] : Fin 2 → Nat) ![1, 0] ![0, 0] S1024x3072
  h_S_ : 0 < S_.numel
  pads_S1023_S1024_010 : S1023.Pads (![0] : Fin 1 → Nat) ![1] ![0] S1024
  shapeCasts_S1024_S1x1024 : S1024.ShapeCasts S1x1024
  bitsLt_bf16_f32 : FTy.bits .bf16 < FTy.bits .f32
  reducesTo_S1024x1000_S1024_d1 : S1024x1000.ReducesTo [1] S1024
  bcast_S1024x1_S1024x1000_0_1 : S1024x1.BroadcastsInDim S1024x1000 (![0, 1] : Fin 2 → Fin S1024x1000.rank)
  pads_S1024x1000_S1024x1024_000_0240 : S1024x1000.Pads (![0, 0] : Fin 2 → Nat) ![0, 24] ![0, 0] S1024x1024
  inb_S256x3072_S256x3072_0_0 : ∀ a, (![0, 0] : Fin 2 → Nat) a + S256x3072.size a ≤ S256x3072.size a
  h_S256x3072 : 0 < S256x3072.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x1 : S256x1024.Slices ![0, 0] S256x1
  concatenates_S256x1_S256x1_S256x2_d1 : Shape.Concatenates [S256x1, S256x1] S256x2 1
  slices_S256x1024_o0_1_S256x2 : S256x1024.Slices ![0, 1] S256x2
  concatenates_S256x2_S256x2_S256x4_d1 : Shape.Concatenates [S256x2, S256x2] S256x4 1
  slices_S256x1024_o0_3_S256x4 : S256x1024.Slices ![0, 3] S256x4
  concatenates_S256x4_S256x4_S256x8_d1 : Shape.Concatenates [S256x4, S256x4] S256x8 1
  slices_S256x1024_o0_7_S256x8 : S256x1024.Slices ![0, 7] S256x8
  concatenates_S256x8_S256x8_S256x16_d1 : Shape.Concatenates [S256x8, S256x8] S256x16 1
  slices_S256x1024_o0_15_S256x16 : S256x1024.Slices ![0, 15] S256x16
  concatenates_S256x16_S256x16_S256x32_d1 : Shape.Concatenates [S256x16, S256x16] S256x32 1
  slices_S256x1024_o0_31_S256x32 : S256x1024.Slices ![0, 31] S256x32
  concatenates_S256x32_S256x32_S256x64_d1 : Shape.Concatenates [S256x32, S256x32] S256x64 1
  slices_S256x1024_o0_63_S256x64 : S256x1024.Slices ![0, 63] S256x64
  concatenates_S256x64_S256x64_S256x128_d1 : Shape.Concatenates [S256x64, S256x64] S256x128 1
  slices_S256x1024_o0_127_S256x128 : S256x1024.Slices ![0, 127] S256x128
  concatenates_S256x128_S256x128_S256x256_d1 : Shape.Concatenates [S256x128, S256x128] S256x256 1
  slices_S256x1024_o0_255_S256x256 : S256x1024.Slices ![0, 255] S256x256
  concatenates_S256x256_S256x256_S256x512_d1 : Shape.Concatenates [S256x256, S256x256] S256x512 1
  slices_S256x1024_o0_511_S256x512 : S256x1024.Slices ![0, 511] S256x512
  concatenates_S256x512_S256x512_S256x1024_d1 : Shape.Concatenates [S256x512, S256x512] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  slices_S8192x1024_S8192x1000_0_0 : S8192x1024.Slices ![0, 0] S8192x1000
  gather_S1023x3072_S1023x1_S1023x3072_1_0_n_n_0_1_13072_wf : GatherDims.WF S1023x3072 S1023x1 S1023x3072 [1] [0] [] [0] [] 1 ![1, 3072]
  gather_S1023_S1023x1_S1023_n_0_n_n_0_1_1_wf : GatherDims.WF S1023 S1023x1 S1023 [] [0] [] [0] [] 1 ![1]
  gather_S1024x1000_S1024x1_S1024x1000_1_0_n_n_0_1_11000_wf : GatherDims.WF S1024x1000 S1024x1 S1024x1000 [1] [0] [] [0] [] 1 ![1, 1000]
  dot_S256x3072_S1024x3072_S256x1024_1_1_0_0_n_n_wf : DotDims.WF S256x3072 S1024x3072 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S8192x3072.size a
  hwx0_0 : ∀ i : grid0.Coords, EltTy.bits .f32 = 32 ∨ (Rect.block (s := S8192x3072) S256x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)

variable [Facts₀]

def gather_S1023x3072_S1023x1_S1023x3072_1_0_n_n_0_1_13072 : GatherDims S1023x3072 S1023x1 S1023x3072 where
  offsetDims := [1]
  collapsedSliceDims := [0]
  operandBatchingDims := []
  startIndicesBatchingDims := []
  startIndexMap := [0]
  indexVectorDim := 1
  sliceSizes := ![1, 3072]
  wf := gather_S1023x3072_S1023x1_S1023x3072_1_0_n_n_0_1_13072_wf
def gather_S1023_S1023x1_S1023_n_0_n_n_0_1_1 : GatherDims S1023 S1023x1 S1023 where
  offsetDims := []
  collapsedSliceDims := [0]
  operandBatchingDims := []
  startIndicesBatchingDims := []
  startIndexMap := [0]
  indexVectorDim := 1
  sliceSizes := ![1]
  wf := gather_S1023_S1023x1_S1023_n_0_n_n_0_1_1_wf
def gather_S1024x1000_S1024x1_S1024x1000_1_0_n_n_0_1_11000 : GatherDims S1024x1000 S1024x1 S1024x1000 where
  offsetDims := [1]
  collapsedSliceDims := [0]
  operandBatchingDims := []
  startIndicesBatchingDims := []
  startIndexMap := [0]
  indexVectorDim := 1
  sliceSizes := ![1, 1000]
  wf := gather_S1024x1000_S1024x1_S1024x1000_1_0_n_n_0_1_11000_wf
def dot_S256x3072_S1024x3072_S256x1024_1_1_0_0_n_n : DotDims S256x3072 S1024x3072 S256x1024 where
  lhsContracting := [1]
  rhsContracting := [1]
  lhsNonContracting := [0]
  rhsNonContracting := [0]
  lhsBatch := []
  rhsBatch := []
  wf := dot_S256x3072_S1024x3072_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S1023x3072 : Shape := ⟨2, ![1023, 3072]⟩
abbrev S1023 : Shape := ⟨1, ![1023]⟩
abbrev S1024x1000 : Shape := ⟨2, ![1024, 1000]⟩
abbrev S3072x1023 : Shape := ⟨2, ![3072, 1023]⟩
abbrev S8192x1023 : Shape := ⟨2, ![8192, 1023]⟩
abbrev S1x1023 : Shape := ⟨2, ![1, 1023]⟩
abbrev S_ : Shape := ⟨0, ![]⟩
abbrev S8192x1 : Shape := ⟨2, ![8192, 1]⟩
abbrev S8192x1x1 : Shape := ⟨3, ![8192, 1, 1]⟩
abbrev S8192x1x2 : Shape := ⟨3, ![8192, 1, 2]⟩
abbrev S8192x2 : Shape := ⟨2, ![8192, 2]⟩
abbrev S8192x2x1 : Shape := ⟨3, ![8192, 2, 1]⟩
abbrev S8192x2x2 : Shape := ⟨3, ![8192, 2, 2]⟩
abbrev S8192x4 : Shape := ⟨2, ![8192, 4]⟩
abbrev S8192x4x1 : Shape := ⟨3, ![8192, 4, 1]⟩
abbrev S8192x4x2 : Shape := ⟨3, ![8192, 4, 2]⟩
abbrev S8192x8 : Shape := ⟨2, ![8192, 8]⟩
abbrev S8192x8x1 : Shape := ⟨3, ![8192, 8, 1]⟩
abbrev S8192x8x2 : Shape := ⟨3, ![8192, 8, 2]⟩
abbrev S8192x16 : Shape := ⟨2, ![8192, 16]⟩
abbrev S8192x16x1 : Shape := ⟨3, ![8192, 16, 1]⟩
abbrev S8192x16x2 : Shape := ⟨3, ![8192, 16, 2]⟩
abbrev S8192x32 : Shape := ⟨2, ![8192, 32]⟩
abbrev S8192x32x1 : Shape := ⟨3, ![8192, 32, 1]⟩
abbrev S8192x32x2 : Shape := ⟨3, ![8192, 32, 2]⟩
abbrev S8192x64 : Shape := ⟨2, ![8192, 64]⟩
abbrev S8192x64x1 : Shape := ⟨3, ![8192, 64, 1]⟩
abbrev S8192x64x2 : Shape := ⟨3, ![8192, 64, 2]⟩
abbrev S8192x128 : Shape := ⟨2, ![8192, 128]⟩
abbrev S8192x128x1 : Shape := ⟨3, ![8192, 128, 1]⟩
abbrev S8192x128x2 : Shape := ⟨3, ![8192, 128, 2]⟩
abbrev S8192x256 : Shape := ⟨2, ![8192, 256]⟩
abbrev S8192x256x1 : Shape := ⟨3, ![8192, 256, 1]⟩
abbrev S8192x256x2 : Shape := ⟨3, ![8192, 256, 2]⟩
abbrev S8192x512 : Shape := ⟨2, ![8192, 512]⟩
abbrev S8192x512x1 : Shape := ⟨3, ![8192, 512, 1]⟩
abbrev S8192x512x2 : Shape := ⟨3, ![8192, 512, 2]⟩
abbrev S8192x1024 : Shape := ⟨2, ![8192, 1024]⟩
abbrev S1024 : Shape := ⟨1, ![1024]⟩
abbrev S1024x1 : Shape := ⟨2, ![1024, 1]⟩
abbrev S8192x1000 : Shape := ⟨2, ![8192, 1000]⟩

abbrev nBuf : Space → Nat
  | .hbm => 134
  | .vmem => 0
  | .smem => 0
  | _ => 0

abbrev hbmTy0_0 (i : Nat) : BufTy := match i % 128 with
  | 0 => ⟨S8192x3072, .f32⟩
  | 1 => ⟨S1023x3072, .f32⟩
  | 2 => ⟨S1023, .f32⟩
  | 3 => ⟨S1024x1000, .f32⟩
  | 4 => ⟨S3072x1023, .f32⟩
  | 5 => ⟨S8192x1023, .f32⟩
  | 6 => ⟨S1x1023, .f32⟩
  | 7 => ⟨S8192x1023, .f32⟩
  | 8 => ⟨S8192x1023, .f32⟩
  | 9 => ⟨S8192x1023, .f32⟩
  | 10 => ⟨S8192x1023, .f32⟩
  | 11 => ⟨S_, .f32⟩
  | 12 => ⟨S8192x1023, .f32⟩
  | 13 => ⟨S8192x1023, .f32⟩
  | 14 => ⟨S_, .f32⟩
  | 15 => ⟨S8192x1023, .f32⟩
  | 16 => ⟨S8192x1023, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S8192x1x1, .f32⟩
  | 26 => ⟨S8192x1x1, .f32⟩
  | 27 => ⟨S8192x1x2, .f32⟩
  | 28 => ⟨S8192x2, .f32⟩
  | 29 => ⟨S8192x2, .f32⟩
  | 30 => ⟨S_, .f32⟩
  | 31 => ⟨S8192x2, .f32⟩
  | 32 => ⟨S8192x2, .f32⟩
  | 33 => ⟨S8192x2, .f32⟩
  | 34 => ⟨S8192x2, .f32⟩
  | 35 => ⟨S8192x2x1, .f32⟩
  | 36 => ⟨S8192x2x1, .f32⟩
  | 37 => ⟨S8192x2x2, .f32⟩
  | 38 => ⟨S8192x4, .f32⟩
  | 39 => ⟨S8192x4, .f32⟩
  | 40 => ⟨S_, .f32⟩
  | 41 => ⟨S8192x4, .f32⟩
  | 42 => ⟨S8192x4, .f32⟩
  | 43 => ⟨S8192x4, .f32⟩
  | 44 => ⟨S8192x4, .f32⟩
  | 45 => ⟨S8192x4x1, .f32⟩
  | 46 => ⟨S8192x4x1, .f32⟩
  | 47 => ⟨S8192x4x2, .f32⟩
  | 48 => ⟨S8192x8, .f32⟩
  | 49 => ⟨S8192x8, .f32⟩
  | 50 => ⟨S_, .f32⟩
  | 51 => ⟨S8192x8, .f32⟩
  | 52 => ⟨S8192x8, .f32⟩
  | 53 => ⟨S8192x8, .f32⟩
  | 54 => ⟨S8192x8, .f32⟩
  | 55 => ⟨S8192x8x1, .f32⟩
  | 56 => ⟨S8192x8x1, .f32⟩
  | 57 => ⟨S8192x8x2, .f32⟩
  | 58 => ⟨S8192x16, .f32⟩
  | 59 => ⟨S8192x16, .f32⟩
  | 60 => ⟨S_, .f32⟩
  | 61 => ⟨S8192x16, .f32⟩
  | 62 => ⟨S8192x16, .f32⟩
  | 63 => ⟨S8192x16, .f32⟩
  | 64 => ⟨S8192x16, .f32⟩
  | 65 => ⟨S8192x16x1, .f32⟩
  | 66 => ⟨S8192x16x1, .f32⟩
  | 67 => ⟨S8192x16x2, .f32⟩
  | 68 => ⟨S8192x32, .f32⟩
  | 69 => ⟨S8192x32, .f32⟩
  | 70 => ⟨S_, .f32⟩
  | 71 => ⟨S8192x32, .f32⟩
  | 72 => ⟨S8192x32, .f32⟩
  | 73 => ⟨S8192x32, .f32⟩
  | 74 => ⟨S8192x32, .f32⟩
  | 75 => ⟨S8192x32x1, .f32⟩
  | 76 => ⟨S8192x32x1, .f32⟩
  | 77 => ⟨S8192x32x2, .f32⟩
  | 78 => ⟨S8192x64, .f32⟩
  | 79 => ⟨S8192x64, .f32⟩
  | 80 => ⟨S_, .f32⟩
  | 81 => ⟨S8192x64, .f32⟩
  | 82 => ⟨S8192x64, .f32⟩
  | 83 => ⟨S8192x64, .f32⟩
  | 84 => ⟨S8192x64, .f32⟩
  | 85 => ⟨S8192x64x1, .f32⟩
  | 86 => ⟨S8192x64x1, .f32⟩
  | 87 => ⟨S8192x64x2, .f32⟩
  | 88 => ⟨S8192x128, .f32⟩
  | 89 => ⟨S8192x128, .f32⟩
  | 90 => ⟨S_, .f32⟩
  | 91 => ⟨S8192x128, .f32⟩
  | 92 => ⟨S8192x128, .f32⟩
  | 93 => ⟨S8192x128, .f32⟩
  | 94 => ⟨S8192x128, .f32⟩
  | 95 => ⟨S8192x128x1, .f32⟩
  | 96 => ⟨S8192x128x1, .f32⟩
  | 97 => ⟨S8192x128x2, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S8192x256, .f32⟩
  | 104 => ⟨S8192x256, .f32⟩
  | 105 => ⟨S8192x256x1, .f32⟩
  | 106 => ⟨S8192x256x1, .f32⟩
  | 107 => ⟨S8192x256x2, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S8192x512, .f32⟩
  | 115 => ⟨S8192x512x1, .f32⟩
  | 116 => ⟨S8192x512x1, .f32⟩
  | 117 => ⟨S8192x512x2, .f32⟩
  | 118 => ⟨S8192x1024, .f32⟩
  | 119 => ⟨S_, .f32⟩
  | 120 => ⟨S1024, .f32⟩
  | 121 => ⟨S_, .f32⟩
  | 122 => ⟨S1024, .f32⟩
  | 123 => ⟨S1024, .f32⟩
  | 124 => ⟨S1024x1, .f32⟩
  | 125 => ⟨S1024x1000, .f32⟩
  | 126 => ⟨S1024x1000, .f32⟩
  | 127 => ⟨S1024x1000, .f32⟩
  | _ => ⟨S8192x3072, .f32⟩

abbrev hbmTy0_1 (i : Nat) : BufTy := match i % 128 with
  | 0 => ⟨S_, .f32⟩
  | 1 => ⟨S1024, .f32⟩
  | 2 => ⟨S1024x1, .f32⟩
  | 3 => ⟨S1024x1000, .f32⟩
  | 4 => ⟨S1024x1000, .f32⟩
  | 5 => ⟨S8192x1000, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_10 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_11 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_12 : Ref sig .tc := ⟨.hbm, 119, rfl⟩
abbrev main_v102 : Ref sig .tc := ⟨.hbm, 120, rfl⟩
abbrev main_cst_13 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_14 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩

abbrev nD : Nat := 1
abbrev τ : Topo := Topo.v7x

variable {F : FTy → Type} [FloatOps F]

class Facts₀ : Prop where
  transposes_S1023x3072_S3072x1023_1_0 : S1023x3072.Transposes [1, 0] S3072x1023
  bcast_S1023_S1x1023_1 : S1023.BroadcastsInDim S1x1023 (![1] : Fin 1 → Fin S1x1023.rank)
  bcast_S1x1023_S8192x1023_0_1 : S1x1023.BroadcastsInDim S8192x1023 (![0, 1] : Fin 2 → Fin S8192x1023.rank)
  bcast_S_S8192x1023 : S_.BroadcastsInDim S8192x1023 (![] : Fin 0 → Fin S8192x1023.rank)
  bcast_S_S8192x1 : S_.BroadcastsInDim S8192x1 (![] : Fin 0 → Fin S8192x1.rank)
  slices_S8192x1023_S8192x1_0_0 : S8192x1023.Slices ![0, 0] S8192x1
  bcast_S8192x1_S8192x1x1_0_1 : S8192x1.BroadcastsInDim S8192x1x1 (![0, 1] : Fin 2 → Fin S8192x1x1.rank)
  concatenates_S8192x1x1_S8192x1x1_S8192x1x2_d2 : Shape.Concatenates [S8192x1x1, S8192x1x1] S8192x1x2 2
  shapeCasts_S8192x1x2_S8192x2 : S8192x1x2.ShapeCasts S8192x2
  slices_S8192x1023_S8192x2_0_1 : S8192x1023.Slices ![0, 1] S8192x2
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  concatenates_S8192x2x1_S8192x2x1_S8192x2x2_d2 : Shape.Concatenates [S8192x2x1, S8192x2x1] S8192x2x2 2
  shapeCasts_S8192x2x2_S8192x4 : S8192x2x2.ShapeCasts S8192x4
  slices_S8192x1023_S8192x4_0_3 : S8192x1023.Slices ![0, 3] S8192x4
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  concatenates_S8192x4x1_S8192x4x1_S8192x4x2_d2 : Shape.Concatenates [S8192x4x1, S8192x4x1] S8192x4x2 2
  shapeCasts_S8192x4x2_S8192x8 : S8192x4x2.ShapeCasts S8192x8
  slices_S8192x1023_S8192x8_0_7 : S8192x1023.Slices ![0, 7] S8192x8
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  concatenates_S8192x8x1_S8192x8x1_S8192x8x2_d2 : Shape.Concatenates [S8192x8x1, S8192x8x1] S8192x8x2 2
  shapeCasts_S8192x8x2_S8192x16 : S8192x8x2.ShapeCasts S8192x16
  slices_S8192x1023_S8192x16_0_15 : S8192x1023.Slices ![0, 15] S8192x16
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  concatenates_S8192x16x1_S8192x16x1_S8192x16x2_d2 : Shape.Concatenates [S8192x16x1, S8192x16x1] S8192x16x2 2
  shapeCasts_S8192x16x2_S8192x32 : S8192x16x2.ShapeCasts S8192x32
  slices_S8192x1023_S8192x32_0_31 : S8192x1023.Slices ![0, 31] S8192x32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  concatenates_S8192x32x1_S8192x32x1_S8192x32x2_d2 : Shape.Concatenates [S8192x32x1, S8192x32x1] S8192x32x2 2
  shapeCasts_S8192x32x2_S8192x64 : S8192x32x2.ShapeCasts S8192x64
  slices_S8192x1023_S8192x64_0_63 : S8192x1023.Slices ![0, 63] S8192x64
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  concatenates_S8192x64x1_S8192x64x1_S8192x64x2_d2 : Shape.Concatenates [S8192x64x1, S8192x64x1] S8192x64x2 2
  shapeCasts_S8192x64x2_S8192x128 : S8192x64x2.ShapeCasts S8192x128
  slices_S8192x1023_S8192x128_0_127 : S8192x1023.Slices ![0, 127] S8192x128
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  concatenates_S8192x128x1_S8192x128x1_S8192x128x2_d2 : Shape.Concatenates [S8192x128x1, S8192x128x1] S8192x128x2 2
  shapeCasts_S8192x128x2_S8192x256 : S8192x128x2.ShapeCasts S8192x256
  slices_S8192x1023_S8192x256_0_255 : S8192x1023.Slices ![0, 255] S8192x256
  bcast_S_S8192x256 : S_.BroadcastsInDim S8192x256 (![] : Fin 0 → Fin S8192x256.rank)
  bcast_S8192x256_S8192x256x1_0_1 : S8192x256.BroadcastsInDim S8192x256x1 (![0, 1] : Fin 2 → Fin S8192x256x1.rank)
  concatenates_S8192x256x1_S8192x256x1_S8192x256x2_d2 : Shape.Concatenates [S8192x256x1, S8192x256x1] S8192x256x2 2
  shapeCasts_S8192x256x2_S8192x512 : S8192x256x2.ShapeCasts S8192x512
  slices_S8192x1023_S8192x512_0_511 : S8192x1023.Slices ![0, 511] S8192x512
  bcast_S_S8192x512 : S_.BroadcastsInDim S8192x512 (![] : Fin 0 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  shapeCasts_S8192x512x2_S8192x1024 : S8192x512x2.ShapeCasts S8192x1024
  reducesTo_S1024x1000_S1024_d1 : S1024x1000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1000_0_1 : S1024x1.BroadcastsInDim S1024x1000 (![0, 1] : Fin 2 → Fin S1024x1000.rank)
  dot_S8192x3072_S3072x1023_S8192x1023_1_0_0_1_n_n_wf : DotDims.WF S8192x3072 S3072x1023 S8192x1023 [1] [0] [0] [1] [] []
  dot_S8192x1024_S1024x1000_S8192x1000_1_0_0_1_n_n_wf : DotDims.WF S8192x1024 S1024x1000 S8192x1000 [1] [0] [0] [1] [] []

variable [Facts₀]

def dot_S8192x3072_S3072x1023_S8192x1023_1_0_0_1_n_n : DotDims S8192x3072 S3072x1023 S8192x1023 where
  lhsContracting := [1]
  rhsContracting := [0]
  lhsNonContracting := [0]
  rhsNonContracting := [1]
  lhsBatch := []
  rhsBatch := []
  wf := dot_S8192x3072_S3072x1023_S8192x1023_1_0_0_1_n_n_wf
def dot_S8192x1024_S1024x1000_S8192x1000_1_0_0_1_n_n : DotDims S8192x1024 S1024x1000 S8192x1000 where
  lhsContracting := [1]
  rhsContracting := [0]
  lhsNonContracting := [0]
  rhsNonContracting := [1]
  lhsBatch := []
  rhsBatch := []
  wf := dot_S8192x1024_S1024x1000_S8192x1000_1_0_0_1_n_n_wf

class Facts : Prop extends Facts₀ where

variable [Facts]
-- ==== Proof.Spec.lean ====
/-
  The mathematics both programs compute, stated once, with no program in sight.

  A soft decision tree of depth 10 on one input row: node n (level order: level t holds nodes 2^t - 1 ... 2^(t+1) - 2) has a
  gate g n = logistic (x . w_n + b_n); the probability of reaching a node is the product, along the path from the root,
  of g (step to the right child) or 1 - g (step to the left child); the result is the mixture of the 1024 leaf
  distributions weighted by the 1024 leaf probabilities.

  Two ways of listing a level's 2^(t+1) path probabilities from the previous level's 2^t:
  * interleaved (pathI): entry 2 i is the left child of entry i, entry 2 i + 1 its right child — children side by side;
  * halves (pathH): entry i (i < 2^t) is the left child of entry i, entry 2^t + i its right child — all left children
    first, then all right children.
  Listing by halves at every level bit-reverses the order of a level: entry j of the halves listing of level t is
  entry brev t j of the interleaved listing, provided the gates are handed to the halves listing bit-reversed level by
  level too (pathH_eq_pathI). A sum over all 1024 leaves does not care about the order (sum_brev), which is the whole
  reason the two programs agree; nothing here needs the numbers to be finite.
-/
import Idealize.ShloMosaic.PureOps.Ideal
import Idealize.ShloMosaic.Lib.ValueIdx

noncomputable section

namespace Cert.Tree

open Idealize.ShloMosaic
open scoped BigOperators

/-- The word of the float literal 1.0, kept as its word: both programs print the same word. -/
def one : EReal := Ideal.ofBits .f32 0x3F800000#32

/-- A node's gate on one row: the logistic of the row's inner product with the node's weights, plus the node's bias. -/
def gate {K : ℕ} (x w : Fin K → EReal) (b : EReal) : EReal := Ideal.logistic ((∑ k : Fin K, x k * w k) + b)

/-- A finite family read at a natural number (0 past its end). -/
def atNat {N : ℕ} (f : Fin N → EReal) (n : ℕ) : EReal := if h : n < N then f ⟨n, h⟩ else 0

theorem atNat_of_lt {N : ℕ} (f : Fin N → EReal) (n : ℕ) (h : n < N) : atNat f n = f ⟨n, h⟩ := dif_pos h

/-- Reversal of the low t bits. -/
def brev : ℕ → ℕ → ℕ
  | 0, _ => 0
  | t + 1, j => 2 * brev t (j % 2 ^ t) + j / 2 ^ t

/-- Level t of the tree listed with children side by side: entry j of level t + 1 is a child of entry j / 2. -/
def pathI (g : ℕ → EReal) : ℕ → ℕ → EReal
  | 0, _ => one
  | t + 1, j => (if j % 2 = 0 then one - g (2 ^ t - 1 + j / 2) else g (2 ^ t - 1 + j / 2)) * pathI g t (j / 2)

/-- Level t of the tree listed by halves: the first half of level t + 1 are the left children of level t, in its order,
    the second half the right children. -/
def pathH (g : ℕ → EReal) : ℕ → ℕ → EReal
  | 0, _ => one
  | t + 1, j => (if j < 2 ^ t then one - g (2 ^ t - 1 + j) else g (2 ^ t - 1 + (j - 2 ^ t))) * pathH g t (j % 2 ^ t)

/-- Where node n of the halves listing sits in level order: same level, position bit-reversed. -/
def nodePerm (n : ℕ) : ℕ := 2 ^ Nat.log2 (n + 1) - 1 + brev (Nat.log2 (n + 1)) (n + 1 - 2 ^ Nat.log2 (n + 1))

theorem brev_lt : ∀ (t j : ℕ), j < 2 ^ t → brev t j < 2 ^ t
  | 0, _, _ => by simp [brev]
  | t + 1, j, h => by
    have hw : 0 < 2 ^ t := Nat.pos_of_ne_zero (by positivity)
    have h2 : 2 ^ (t + 1) = 2 * 2 ^ t := by rw [pow_succ]; ring
    have hm : j % 2 ^ t < 2 ^ t := Nat.mod_lt _ hw
    have ih := brev_lt t (j % 2 ^ t) hm
    have hd : j / 2 ^ t < 2 := Nat.div_lt_of_lt_mul (by rw [h2] at h; linarith)
    show 2 * brev t (j % 2 ^ t) + j / 2 ^ t < 2 ^ (t + 1)
    rw [h2]; omega

/-- LISTING BY HALVES BIT-REVERSES A LEVEL: if the gates handed to the halves listing are, level by level, the
    bit-reversed gates of the interleaved listing, then entry j of the halves listing of level t is entry brev t j of the
    interleaved one. -/
theorem pathH_eq_pathI (gH gI : ℕ → EReal) (T : ℕ)
    (hg : ∀ t, t < T → ∀ i, i < 2 ^ t → gH (2 ^ t - 1 + i) = gI (2 ^ t - 1 + brev t i)) :
    ∀ t, t ≤ T → ∀ j, j < 2 ^ t → pathH gH t j = pathI gI t (brev t j)
  | 0, _, _, _ => rfl
  | t + 1, ht, j, hj => by
    have hw : 0 < 2 ^ t := Nat.pos_of_ne_zero (by positivity)
    have h2 : 2 ^ (t + 1) = 2 * 2 ^ t := by rw [pow_succ]; ring
    have hm : j % 2 ^ t < 2 ^ t := Nat.mod_lt _ hw
    have ih := pathH_eq_pathI gH gI T hg t (by omega) (j % 2 ^ t) hm
    show (if j < 2 ^ t then one - gH (2 ^ t - 1 + j) else gH (2 ^ t - 1 + (j - 2 ^ t))) * pathH gH t (j % 2 ^ t)
      = (if (2 * brev t (j % 2 ^ t) + j / 2 ^ t) % 2 = 0 then one - gI (2 ^ t - 1 + (2 * brev t (j % 2 ^ t) + j / 2 ^ t) / 2)
          else gI (2 ^ t - 1 + (2 * brev t (j % 2 ^ t) + j / 2 ^ t) / 2)) * pathI gI t ((2 * brev t (j % 2 ^ t) + j / 2 ^ t) / 2)
    rw [ih]
    by_cases hlt : j < 2 ^ t
    · have hd : j / 2 ^ t = 0 := Nat.div_eq_of_lt hlt
      have hmm : j % 2 ^ t = j := Nat.mod_eq_of_lt hlt
      rw [hd, hmm, if_pos hlt, if_pos (by omega), show (2 * brev t j + 0) / 2 = brev t j by omega, hg t (by omega) j hlt]
    · have hge : 2 ^ t ≤ j := Nat.le_of_not_lt hlt
      have hlt' : j - 2 ^ t < 2 ^ t := by rw [h2] at hj; omega
      have hd : j / 2 ^ t = 1 := by
        rw [Nat.div_eq_iff hw]; rw [h2] at hj; omega
      have hmm : j % 2 ^ t = j - 2 ^ t := by
        rw [Nat.mod_eq_sub_mod hge, Nat.mod_eq_of_lt hlt']
      rw [hd, hmm, if_neg hlt, if_neg (by omega), show (2 * brev t (j - 2 ^ t) + 1) / 2 = brev t (j - 2 ^ t) by omega,
        hg t (by omega) (j - 2 ^ t) hlt']

/-- Reversing ten bits twice is the identity on the 1024 leaves. -/
theorem brev10_invol : ∀ k : Fin 1024, brev 10 (brev 10 k.val) = k.val := by decide +kernel

theorem brev10_lt (k : ℕ) (h : k < 1024) : brev 10 k < 1024 := brev_lt 10 k h

/-- The reversal of ten bits as a permutation of the leaves. -/
def leafPerm : Equiv.Perm (Fin 1024) :=
  Function.Involutive.toPerm (fun k => ⟨brev 10 k.val, brev10_lt k.val k.isLt⟩) (fun k => Fin.ext (brev10_invol k))

theorem leafPerm_val (k : Fin 1024) : (leafPerm k).val = brev 10 k.val := rfl

/-- A sum over the leaves may be taken in bit-reversed order: addition of extended reals is commutative and
    associative, which is all a reordering of a finite sum needs. -/
theorem sum_brev (f : Fin 1024 → EReal) : ∑ k : Fin 1024, f (leafPerm k) = ∑ k : Fin 1024, f k :=
  Equiv.sum_comp leafPerm f

/-- A node of the halves listing stays among the 1023 inner nodes. -/
theorem nodePerm_lt : ∀ n : Fin 1023, nodePerm n.val < 1023 := by decide +kernel

/-- Node 2^t - 1 + i of the halves listing is node 2^t - 1 + brev t i in level order (the ten levels, checked). -/
theorem nodePerm_level : ∀ t : Fin 10, ∀ i : Fin 512, i.val < 2 ^ t.val → nodePerm (2 ^ t.val - 1 + i.val) = 2 ^ t.val - 1 + brev t.val i.val := by
  decide +kernel

/-- The 1023 gates of input row r, from the three argument arrays (inputs, node weights, node biases), read at a
    natural number. -/
def gatesOf (A0 : (⟨2, ![8192, 3072]⟩ : Shape).Idx → EReal) (A1 : (⟨2, ![1023, 3072]⟩ : Shape).Idx → EReal)
    (A2 : (⟨1, ![1023]⟩ : Shape).Idx → EReal) (r : Fin 8192) : ℕ → EReal :=
  atNat fun n : Fin 1023 => gate (fun k : Fin 3072 => A0 (ValueIdx.ix2 r k)) (fun k : Fin 3072 => A1 (ValueIdx.ix2 n k)) (A2 (ValueIdx.ix1 n))

/-- THE RESULT at row r and class c: the leaf distributions D (one row per leaf) mixed by the probabilities of
    reaching the leaves, listed with children side by side. -/
def resultOf (A0 : (⟨2, ![8192, 3072]⟩ : Shape).Idx → EReal) (A1 : (⟨2, ![1023, 3072]⟩ : Shape).Idx → EReal)
    (A2 : (⟨1, ![1023]⟩ : Shape).Idx → EReal) (D : Fin 1024 → Fin 1000 → EReal) (r : Fin 8192) (c : Fin 1000) : EReal :=
  ∑ k : Fin 1024, pathI (gatesOf A0 A1 A2 r) 10 k.val * D k c

/-- The 1024 gates (the last one unused) a row x gets from a [1024, 3072] weight array and a [1, 1024] bias row. -/
def gatesK (Wk : (⟨2, ![1024, 3072]⟩ : Shape).Idx → EReal) (bk : (⟨2, ![1, 1024]⟩ : Shape).Idx → EReal) (x : Fin 3072 → EReal) : ℕ → EReal :=
  atNat fun n : Fin 1024 => gate x (fun j : Fin 3072 => Wk (ValueIdx.ix2 n j)) (bk (ValueIdx.ix2 (0 : Fin 1) n))

/-- The [8192, 1024] array of mixtures by the HALVES listing: at row r and lane q, lane q of the 1024 rows of Dk mixed by
    the halves listing of the path probabilities of row r. -/
def KG (X : (⟨2, ![8192, 3072]⟩ : Shape).Idx → EReal) (Wk : (⟨2, ![1024, 3072]⟩ : Shape).Idx → EReal)
    (bk : (⟨2, ![1, 1024]⟩ : Shape).Idx → EReal) (Dk : (⟨2, ![1024, 1024]⟩ : Shape).Idx → EReal) :
    (⟨2, ![8192, 1024]⟩ : Shape).Idx → EReal :=
  fun i => ∑ k : Fin 1024, pathH (gatesK Wk bk (fun j : Fin 3072 => X (ValueIdx.ix2 (i 0) j))) 10 k.val * Dk (ValueIdx.ix2 k (i 1))

end Cert.Tree

end
-- ==== Proof.KValue.lean ====
/-
  What the pallas call leaves in its output array, as ONE function of the arrays it stages.

  The grid has 32 points; point t stages rows 256 t ... 256 t + 255 of the inputs (window 0) and the WHOLE weight, bias and
  leaf-distribution arrays (windows 1-3, block index 0 at every point), and writes back rows 256 t ... 256 t + 255 of the
  [8192, 1024] output (window 4). The body's arithmetic at an index (BodySpec, proved beside this module) is: entry (p, q)
  of what it stores is the sum over the 1024 leaves k of the probability of reaching leaf k on the block's row p — the
  halves listing pathH of the gates of that row — times entry (k, q) of the leaf distributions. A block's row p at point t
  is array row 256 t + p, so every point writes the restriction of the same whole-array function KG, and the 32 blocks
  cover the array: the array ends at KG.
-/
import proofs.«120453_j90039694393610_2_alg».proof.Proof.Gen.KernelIdeal.Frame
import proofs.«120453_j90039694393610_2_alg».proof.Proof.Spec
import Idealize.ShloMosaic.Lib.Pipeline.Value
import Idealize.ShloMosaic.Lib.ValueIdx

noncomputable section

namespace Cert.KValue

open Cert.KernelIdeal Cert.KernelIdeal.Gen Idealize.ShloMosaic Idealize.ShloMosaic.TcCoe Idealize.SL.Sem
open Idealize.ShloMosaic.ValueIdx Cert.Tree
open Idealize.ShloMosaic.Pipeline (Dat)
open scoped BigOperators

variable (m : (ℓ : Loc nD τ sig) → Buf (Elt Ideal) ℓ) (ρ : Dev nD → PrngReg)

/-- The body's arithmetic at an index, over any loaded blocks. -/
def BodySpec : Prop :=
  ∀ (x0 : Vec Ideal S256x3072 .f32) (x1 : Vec Ideal S1024x3072 .bf16) (x2 : Vec Ideal S1x1024 .f32) (x3 : Vec Ideal S1024x1024 .bf16)
    (p : Fin 256) (q : Fin 1024),
    k0_pay1 (F := Ideal) (k0_pay2 x0 x1 x2) (k0_pay3 x0 x1 x2) (k0_pay4 x0 x1 x2) (k0_pay5 x0 x1 x2) x3 (ix2 p q)
      = ∑ k : Fin 1024, pathH (atNat fun n : Fin 1024 => gate (fun j : Fin 3072 => x0 (ix2 p j)) (fun j : Fin 3072 => x1 (ix2 n j))
          (x2 (ix2 (0 : Fin 1) n))) 10 k.val * x3 (ix2 k q)

theorem hz : (![0, 0] : Fin 2 → Nat) = fun _ => 0 := funext fun a => by fin_cases a <;> rfl

/-- The printed index maps over the grid: windows 0 and 4 move one block of rows per point, windows 1-3 stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt N_0

/-- Row p of point t's input block is row 256 t + p of the inputs. -/
theorem blk0 (c : Dev nD) (t : Fin cfg0.N) (p : Fin 256) (j : Fin 3072) :
    iblk m c 0 t (ix2 p j) = V m c main_arg0 (ix2 (⟨t.val * 256 + p.val, by have := t_lt t; have := p.isLt; omega⟩ : Fin 8192) j) := by
  obtain ⟨e00, e01, -⟩ := idx_facts t
  show V m c main_arg0 (((cfg0.win 0).blk t).view.emb (ix2 p j)) = _
  refine congrArg (V m c main_arg0) (funext fun a => Fin.ext ?_)
  match a with
  | ⟨0, _⟩ => show win0_0.index t (0 : Fin 2) * 256 + 1 * p.val = t.val * 256 + p.val; rw [e00]; omega
  | ⟨1, _⟩ => show win0_0.index t (1 : Fin 2) * 3072 + 1 * j.val = j.val; rw [e01]; omega

/-- The weight window's block is the whole array at every point. -/
theorem blk1 (c : Dev nD) (t : Fin cfg0.N) (n : Fin 1024) (j : Fin 3072) :
    iblk m c 1 t (ix2 n j) = V m c main_v18 (ix2 n j) := by
  obtain ⟨-, -, e10, e11, -⟩ := idx_facts t
  show V m c main_v18 (((cfg0.win 1).blk t).view.emb (ix2 n j)) = _
  refine congrArg (V m c main_v18) (funext fun a => Fin.ext ?_)
  match a with
  | ⟨0, _⟩ => show win0_1.index t (0 : Fin 2) * 1024 + 1 * n.val = n.val; rw [e10]; omega
  | ⟨1, _⟩ => show win0_1.index t (1 : Fin 2) * 3072 + 1 * j.val = j.val; rw [e11]; omega

/-- The bias window's block is the whole row at every point. -/
theorem blk2 (c : Dev nD) (t : Fin cfg0.N) (n : Fin 1024) :
    iblk m c 2 t (ix2 (0 : Fin 1) n) = V m c main_v17 (ix2 (0 : Fin 1) n) := by
  obtain ⟨-, -, -, -, e20, e21, -⟩ := idx_facts t
  show V m c main_v17 (((cfg0.win 2).blk t).view.emb (ix2 (0 : Fin 1) n)) = _
  refine congrArg (V m c main_v17) (funext fun a => Fin.ext ?_)
  match a with
  | ⟨0, _⟩ => show win0_2.index t (0 : Fin 2) * 1 + 1 * 0 = 0; rw [e20]
  | ⟨1, _⟩ => show win0_2.index t (1 : Fin 2) * 1024 + 1 * n.val = n.val; rw [e21]; omega

/-- The leaf-distribution window's block is the whole array at every point. -/
theorem blk3 (c : Dev nD) (t : Fin cfg0.N) (k q : Fin 1024) :
    iblk m c 3 t (ix2 k q) = V m c main_v31 (ix2 k q) := by
  obtain ⟨-, -, -, -, -, -, e30, e31, -⟩ := idx_facts t
  show V m c main_v31 (((cfg0.win 3).blk t).view.emb (ix2 k q)) = _
  refine congrArg (V m c main_v31) (funext fun a => Fin.ext ?_)
  match a with
  | ⟨0, _⟩ => show win0_3.index t (0 : Fin 2) * 1024 + 1 * k.val = k.val; rw [e30]; omega
  | ⟨1, _⟩ => show win0_3.index t (1 : Fin 2) * 1024 + 1 * q.val = q.val; rw [e31]; omega

/-- Entry (p, q) of point t's output block sits at row 256 t + p, lane q of the output array. -/
theorem emb4 (t : Fin cfg0.N) (p : Fin 256) (q : Fin 1024) :
    ((cfg0.win 4).blk t).view.emb (ix2 p q) = ix2 (⟨t.val * 256 + p.val, by have := t_lt t; have := p.isLt; omega⟩ : Fin 8192) q := by
  obtain ⟨-, -, -, -, -, -, -, -, e40, e41⟩ := idx_facts t
  refine funext fun a => Fin.ext ?_
  match a with
  | ⟨0, _⟩ => show win0_4.index t (0 : Fin 2) * 256 + 1 * p.val = t.val * 256 + p.val; rw [e40]; omega
  | ⟨1, _⟩ => show win0_4.index t (1 : Fin 2) * 1024 + 1 * q.val = q.val; rw [e41]; omega

/-- WHAT POINT t WRITES BACK is block t of KG of the arrays as the region finds them. -/
theorem flushed_eq (hb : BodySpec) (c : Dev nD) (t : Fin cfg0.N) :
    (dats m 0 c).flushed 4 t = ((cfg0.win 4).blk t).view.read (Elt Ideal)
      (KG (V m c main_arg0) (V m c main_v18) (V m c main_v17) (V m c main_v31)) := by
  show (cfg0.win 4).cut (grid0.coords t) ((dats m 0 c).after 4 t) = _
  rw [after0_4]
  unfold out0_4
  rw [View.canon_unit_zero hz]
  simp only [View.ld_unit_zero (S := S256x3072) hz, View.ld_unit_zero (S := S1024x3072) hz, View.ld_unit_zero (S := S1x1024) hz,
    View.ld_unit_zero (S := S1024x1024) hz]
  funext y
  obtain ⟨p, q, rfl⟩ : ∃ (p : Fin 256) (q : Fin 1024), y = ix2 p q := ⟨y 0, y 1, eq_ix2 y⟩
  show k0_pay1 (F := Ideal) (k0_pay2 (iblk m c 0 t) (iblk m c 1 t) (iblk m c 2 t)) (k0_pay3 (iblk m c 0 t) (iblk m c 1 t) (iblk m c 2 t))
      (k0_pay4 (iblk m c 0 t) (iblk m c 1 t) (iblk m c 2 t)) (k0_pay5 (iblk m c 0 t) (iblk m c 1 t) (iblk m c 2 t)) (iblk m c 3 t) (ix2 p q)
    = KG (V m c main_arg0) (V m c main_v18) (V m c main_v17) (V m c main_v31) (((cfg0.win 4).blk t).view.emb (ix2 p q))
  refine (hb _ _ _ _ p q).trans ?_
  rw [emb4 t p q]
  unfold KG gatesK
  refine Finset.sum_congr rfl fun k _ => ?_
  rw [blk3 m c t k q]
  refine congrArg (fun g : ℕ → EReal => pathH g 10 k.val * V m c main_v31 (ix2 k q)) ?_
  refine congrArg atNat (funext fun n => ?_)
  rw [blk2 m c t n]
  refine congrArg₂ (fun (x w : Fin 3072 → EReal) => gate x w (V m c main_v17 (ix2 (0 : Fin 1) n))) (funext fun j => blk0 m c t p j)
    (funext fun j => blk1 m c t n j)

/-- An index of the output array is in point t's block iff each coordinate is in the block's range on its axis. -/
theorem mem_blk4 (t : Fin cfg0.N) (i : S8192x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v32).slice (win0_4.rect t)).set ↔ _
  rw [View.set_slice_whole, Rect.mem_set_unit]
  exact Iff.rfl

/-- The 32 blocks of 256 rows cover the 8192 rows: row r is in the block of point r / 256. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, -, e40, e41⟩ := idx_facts t
  have ht : t.val = (i 0).val / 256 := rfl
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; rw [e40, ht]; omega
  | ⟨1, _⟩ => show win0_4.index t (1 : Fin 2) * 1024 ≤ (i 1).val ∧ (i 1).val < win0_4.index t (1 : Fin 2) * 1024 + 1024; rw [e41]; omega

/-- THE OUTPUT ARRAY after the region: KG of the arrays as the region finds them. -/
theorem final4 (hb : BodySpec) (c : Dev nD) :
    (dats m 0 c).arrAt 4 cfg0.N = KG (V m c main_arg0) (V m c main_v18) (V m c main_v17) (V m c main_v31) :=
  (dats m 0 c).arrAt_eq_of_cover 4 (KG (V m c main_arg0) (V m c main_v18) (V m c main_v17) (V m c main_v31))
    (fun t _ => flushed_eq m hb c t) cover4

end Cert.KValue

end
-- ==== Proof.KRun.lean ====
/-
  The kernel program's run, read: after the region the host cuts the first 1000 lanes out of the [8192, 1024] output array,
  so the program's result at (r, c) is the region's array at (r, c) — Spec's KG of the arrays the region found —, and the
  four argument arrays end as they were launched.
-/
import proofs.«120453_j90039694393610_2_alg».proof.Proof.KValue
import Idealize.ShloMosaic.Lib.StableHlo.Run
import Idealize.ShloMosaic.Lib.Pipeline.Value

noncomputable section

namespace Cert.KRun

open Cert.KernelIdeal Cert.KernelIdeal.Gen Idealize.ShloMosaic Idealize.ShloMosaic.TcCoe Idealize.SL.Sem
open Idealize.ShloMosaic.ValueIdx Cert.Tree Cert.KValue Idealize.ShloMosaic.StableHlo
open Idealize.ShloMosaic.Pipeline (Dat)
open scoped BigOperators

variable (m : (ℓ : Loc nD τ sig) → Buf (Elt Ideal) ℓ) (ρ : Dev nD → PrngReg)

/-- The first 1000 lanes of the region's output array, as a function of the arrays the region found. -/
def KOut (c : Dev nD) : S8192x1000.Idx → EReal :=
  fun i => KG (V m c main_arg0) (V m c main_v18) (V m c main_v17) (V m c main_v31)
    (ix2 (i 0) (⟨(i 1).val, by have h : (i 1).val < 1000 := (i 1).isLt; omega⟩ : Fin 1024))

/-- THE PROGRAM'S RESULT after the one host operation that follows the region: a slice at offset (0, 0) reads the
    region's output array, which ended at KG, at the same coordinates. -/
theorem tail_eq (hb : BodySpec) (c : Dev nD) :
    Pipeline.afterTail₀ cfgs (dats m) 0 (V0 m) [hostOps1] c main_v33 = KOut m c := by
  unfold Pipeline.afterTail₀
  show StableHlo.after hostOps1 _ (Proc.devRef .tc main_v33) = _
  after_results
  have hA : Pipeline.withArrays (cfgs 0).spec c (V0 m c) (fun w => (dats m 0 c).arrAt w (cfgs 0).N) (Proc.devRef .tc main_v32)
      = KG (V m c main_arg0) (V m c main_v18) (V m c main_v17) (V m c main_v31) :=
    (Pipeline.withArrays_arr spec0 launch0.win.arr_inj c _ _ 4).trans (final4 m hb c)
  rw [hA]
  funext i
  have h1 : (i 1).val < 1000 := (i 1).isLt
  exact extractStridedSlice_apply ![0, 0] _ slices_S8192x1024_S8192x1000_0_0 i
    (ix2 (i 0) (⟨(i 1).val, by omega⟩ : Fin 1024)) (fun a => match a with
      | ⟨0, _⟩ => by show (i 0).val = 0 + (i 0).val; omega
      | ⟨1, _⟩ => by show (i 1).val = 0 + (i 1).val; omega)

/-- THE RUN: every weakly fair execution of the kernel program terminates with its result at KOut and its arguments
    unchanged (the generated frame run, its post read). -/
theorem run (hb : BodySpec) :
    θ_run defs (onTc (τ := τ) (main (F := Ideal))) ⟨m, fun _ => 0, ρ⟩ fun r => ∀ c : Dev nD,
      r.2.mem ((c : Thread nD τ).loc main_v33) = KOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v33 (Pipeline.mem_restRefs_of main_v33 (by decide) (by decide))).trans (tail_eq m hb c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KRun

end
-- ==== Proof.KMath.lean ====
/-
  The halves listing, fed bit-reversed gates and bit-reversed leaf rows, mixes to the same result as the interleaved
  listing: the one law that joins the two programs.

  Hypotheses, read at coordinates: the [1024, 3072] weights Wk and the [1, 1024] biases bk are the 1023 rows of W and entries
  of b in the order nodePerm (a last zero row and entry added), and the [1024, 1024] array Dk holds, in its first 1000
  lanes, row leafPerm k of the leaf distributions Dst in row k (zero lanes added). Then on every row r the gate of node
  2^t - 1 + i of the halves listing is the gate of node 2^t - 1 + brev t i in level order, so by Spec's pathH_eq_pathI
  leaf k of the halves listing has the probability of leaf brev 10 k of the interleaved one; it multiplies row
  leafPerm k = brev 10 k of Dst; and the sum over all leaves does not depend on their order (sum_brev).
-/
import proofs.«120453_j90039694393610_2_alg».proof.Proof.Spec

noncomputable section

namespace Cert.Tree

open Idealize.ShloMosaic Idealize.ShloMosaic.ValueIdx
open scoped BigOperators

/-- A node of one of the ten levels is among the first 1023. -/
theorem node_lt (t i : ℕ) (ht : t < 10) (hi : i < 2 ^ t) : 2 ^ t - 1 + i < 1023 := by
  have h9 : 2 ^ t ≤ 2 ^ 9 := Nat.pow_le_pow_right (by norm_num) (by omega)
  have hp : 0 < 2 ^ t := Nat.pos_of_ne_zero (by positivity)
  norm_num at h9
  generalize 2 ^ t = w at *
  omega

theorem halves_eq_result (X : (⟨2, ![8192, 3072]⟩ : Shape).Idx → EReal) (W : (⟨2, ![1023, 3072]⟩ : Shape).Idx → EReal)
    (b : (⟨1, ![1023]⟩ : Shape).Idx → EReal) (Dst : Fin 1024 → Fin 1000 → EReal)
    (Wk : (⟨2, ![1024, 3072]⟩ : Shape).Idx → EReal) (bk : (⟨2, ![1, 1024]⟩ : Shape).Idx → EReal)
    (Dk : (⟨2, ![1024, 1024]⟩ : Shape).Idx → EReal)
    (hW : ∀ (n : Fin 1024) (j : Fin 3072), Wk (ix2 n j)
      = if h : n.val < 1023 then W (ix2 (⟨nodePerm n.val, nodePerm_lt ⟨n.val, h⟩⟩ : Fin 1023) j) else 0)
    (hb : ∀ n : Fin 1024, bk (ix2 (0 : Fin 1) n)
      = if h : n.val < 1023 then b (ix1 (⟨nodePerm n.val, nodePerm_lt ⟨n.val, h⟩⟩ : Fin 1023)) else 0)
    (hD : ∀ k q : Fin 1024, Dk (ix2 k q) = if h : q.val < 1000 then Dst (leafPerm k) ⟨q.val, h⟩ else 0)
    (r : Fin 8192) (c : Fin 1000) :
    KG X Wk bk Dk (ix2 r (⟨c.val, by have := c.isLt; omega⟩ : Fin 1024)) = resultOf X W b Dst r c := by
  -- the gates: node 2^t - 1 + i of the halves listing is node 2^t - 1 + brev t i in level order
  have hg : ∀ t, t < 10 → ∀ i, i < 2 ^ t →
      gatesK Wk bk (fun j : Fin 3072 => X (ix2 r j)) (2 ^ t - 1 + i) = gatesOf X W b r (2 ^ t - 1 + brev t i) := by
    intro t ht i hi
    have hn : 2 ^ t - 1 + i < 1023 := node_lt t i ht hi
    have hi512 : i < 512 := by
      have h9 : 2 ^ t ≤ 2 ^ 9 := Nat.pow_le_pow_right (by norm_num) (by omega)
      norm_num at h9; omega
    have hlev : nodePerm (2 ^ t - 1 + i) = 2 ^ t - 1 + brev t i := nodePerm_level ⟨t, ht⟩ ⟨i, hi512⟩ hi
    have hp : nodePerm (2 ^ t - 1 + i) < 1023 := nodePerm_lt ⟨2 ^ t - 1 + i, hn⟩
    rw [← hlev]
    unfold gatesK gatesOf
    rw [atNat_of_lt _ _ (show 2 ^ t - 1 + i < 1024 by omega), atNat_of_lt _ _ hp]
    have e1 : bk (ix2 (0 : Fin 1) (⟨2 ^ t - 1 + i, by omega⟩ : Fin 1024)) = b (ix1 (⟨nodePerm (2 ^ t - 1 + i), hp⟩ : Fin 1023)) := by
      rw [hb]; exact dif_pos hn
    have e2 : (fun j : Fin 3072 => Wk (ix2 (⟨2 ^ t - 1 + i, by omega⟩ : Fin 1024) j))
        = fun j : Fin 3072 => W (ix2 (⟨nodePerm (2 ^ t - 1 + i), hp⟩ : Fin 1023) j) :=
      funext fun j => by rw [hW]; exact dif_pos hn
    rw [e1, e2]
  show ∑ k : Fin 1024, pathH (gatesK Wk bk (fun j : Fin 3072 => X (ix2 r j))) 10 k.val * Dk (ix2 k (⟨c.val, by have := c.isLt; omega⟩ : Fin 1024))
    = ∑ k : Fin 1024, pathI (gatesOf X W b r) 10 k.val * Dst k c
  rw [← sum_brev fun k : Fin 1024 => pathI (gatesOf X W b r) 10 k.val * Dst k c]
  refine Finset.sum_congr rfl fun k _ => ?_
  rw [pathH_eq_pathI _ _ 10 hg 10 (le_refl 10) k.val k.isLt, hD, dif_pos c.isLt, leafPerm_val]

end Cert.Tree

end
-- ==== Proof.LibColumns.lean ====
/-
  GENERAL LEMMAS: host broadcasts of a per-row statistic read at coordinates, for any extents a (rows) and b (lanes).

  * column_apply: an [a] vector set up as a column [a, 1] (broadcast_in_dim, dims = [0]) reads, at (p, 0), entry p;
  * spread_apply: a column [a, 1] spread over b lanes (broadcast_in_dim, dims = [0, 1]) reads, at (p, j), the column's
    entry of row p;
  * row_vec_apply: an [n] vector cast to a row [1, n] reads, at (0, j), entry j.
  The well-formedness proof of each operation is a variable, so the lemmas apply to any program's spelling.
-/
import Idealize.ShloMosaic.Lib.ValueLayout
import Idealize.ShloMosaic.Lib.Pipeline.Value

noncomputable section

namespace Cert.LibColumns

open Idealize.ShloMosaic Idealize.ShloMosaic.ValueIdx

variable {α : Type}

/-- A vector set up as a column reads, at (p, 0), the vector's entry p. -/
theorem column_apply {a : ℕ} (h : (⟨1, ![a]⟩ : Shape).BroadcastsInDim ⟨2, ![a, 1]⟩ ![0])
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun ax => match ax with
    | ⟨0, _⟩ => by
      show p.val = if a = 1 then 0 else p.val
      split
      · have := p.isLt; omega
      · rfl)

/-- A column spread over the lanes reads, at (p, j), the column's entry of row p. -/
theorem spread_apply {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) :=
  broadcastInDim_apply _ h v (ix2 p j) (ix2 p (0 : Fin 1)) (fun ax => match ax with
    | ⟨0, _⟩ => by
      show p.val = if a = 1 then 0 else p.val
      split
      · have := p.isLt; omega
      · rfl
    | ⟨1, _⟩ => by show (0 : ℕ) = if (1 : ℕ) = 1 then 0 else j.val; rw [if_pos rfl])

/-- A vector cast to a one-row matrix reads, at (0, j), the vector's entry j: both list their entries in the same order. -/
theorem row_vec_apply {n : ℕ} (h : (⟨1, ![n]⟩ : Shape).ShapeCasts ⟨2, ![1, n]⟩) (x : (⟨1, ![n]⟩ : Shape).Idx → α) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

end Cert.LibColumns

end
-- ==== Proof.Softmax.lean ====
/-
  THE SOFTMAX OF ONE ROW, as the host code of both programs computes it, and the thirteen operations that compute it for
  every row of a [1024, 1000] array, read at an index.

  For a row v of 1000 extended reals: M = max (-inf) (max over the row, from -inf); e c = exp (v c - M);
  softmax v c = e c / (0 + sum of e).  The words -inf and 0 are kept as the words the programs print.
  Every row is treated independently of the others: entry (k, c) of the result only reads row k of the operand.
-/
import Idealize.ShloMosaic.PureOps.Ideal.Laws
import Idealize.ShloMosaic.Lib.ValueIdx
import Idealize.ShloMosaic.Lib.IdealHost
import proofs.«120453_j90039694393610_2_alg».proof.Proof.LibColumns

noncomputable section

namespace Cert.Softmax

open Idealize.ShloMosaic Idealize.ShloMosaic.ValueIdx
open scoped BigOperators

/-- The word of minus infinity, kept as its word. -/
def negInf : EReal := Ideal.ofBits .f32 0xFF800000#32

/-- The word of zero, kept as its word. -/
def zeroW : EReal := Ideal.ofBits .f32 0x00000000#32

/-- The row's maximum as the host code takes it: the fold of max over the row from minus infinity, and once more
    against minus infinity. -/
def rowMax (v : Fin 1000 → EReal) : EReal :=
  max negInf ((Finset.univ : Finset (Fin 1000)).fold max negInf v)

/-- ONE ROW'S SOFTMAX: the exponential of the entry less the row's maximum, over the sum of these exponentials. -/
def softmaxRow (v : Fin 1000 → EReal) (c : Fin 1000) : EReal :=
  Ideal.div (Ideal.exp (v c - rowMax v)) (zeroW + ∑ c' : Fin 1000, Ideal.exp (v c' - rowMax v))

/-- The numerators: the exponential of each entry less its row's maximum, for every row of a [1024, 1000] array. -/
def expPart (h1 : (⟨2, ![1024, 1]⟩ : Shape).BroadcastsInDim ⟨2, ![1024, 1000]⟩ ![0, 1])
    (h2 : (⟨1, ![1024]⟩ : Shape).BroadcastsInDim ⟨2, ![1024, 1]⟩ ![0])
    (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) : FVec Ideal ⟨2, ![1024, 1000]⟩ .f32 :=
  Host.exp (subf X (broadcastInDim ⟨2, ![1024, 1000]⟩ ![0, 1] h1 (broadcastInDim ⟨2, ![1024, 1]⟩ ![0] h2
    (maximumf (broadcastInDim ⟨1, ![1024]⟩ ![] h3 (constant (F := Ideal) ⟨0, ![]⟩ .f32 0xFF800000#32))
      (Host.reduce FloatOps.maximumf X (constant (F := Ideal) ⟨0, ![]⟩ .f32 0xFF800000#32) hred hS)))))

/-- THE THIRTEEN OPERATIONS, spelled out in full: the numerators over their row sums, each well-formedness proof a
    variable. -/
def chain (h1 : (⟨2, ![1024, 1]⟩ : Shape).BroadcastsInDim ⟨2, ![1024, 1000]⟩ ![0, 1])
    (h2 : (⟨1, ![1024]⟩ : Shape).BroadcastsInDim ⟨2, ![1024, 1]⟩ ![0])
    (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) : FVec Ideal ⟨2, ![1024, 1000]⟩ .f32 :=
  Host.divf (Host.exp (subf X (broadcastInDim ⟨2, ![1024, 1000]⟩ ![0, 1] h1 (broadcastInDim ⟨2, ![1024, 1]⟩ ![0] h2
      (maximumf (broadcastInDim ⟨1, ![1024]⟩ ![] h3 (constant (F := Ideal) ⟨0, ![]⟩ .f32 0xFF800000#32))
        (Host.reduce FloatOps.maximumf X (constant (F := Ideal) ⟨0, ![]⟩ .f32 0xFF800000#32) hred hS))))))
    (broadcastInDim ⟨2, ![1024, 1000]⟩ ![0, 1] h1 (broadcastInDim ⟨2, ![1024, 1]⟩ ![0] h2
      (Host.reduceAdd (Host.exp (subf X (broadcastInDim ⟨2, ![1024, 1000]⟩ ![0, 1] h1 (broadcastInDim ⟨2, ![1024, 1]⟩ ![0] h2
      (maximumf (broadcastInDim ⟨1, ![1024]⟩ ![] h3 (constant (F := Ideal) ⟨0, ![]⟩ .f32 0xFF800000#32))
        (Host.reduce FloatOps.maximumf X (constant (F := Ideal) ⟨0, ![]⟩ .f32 0xFF800000#32) hred hS))))))
        (constant (F := Ideal) ⟨0, ![]⟩ .f32 0x00000000#32) hred hS)))

/-- The chain is the numerators over their row sums. -/
theorem chain_eq (h1 : (⟨2, ![1024, 1]⟩ : Shape).BroadcastsInDim ⟨2, ![1024, 1000]⟩ ![0, 1])
    (h2 : (⟨1, ![1024]⟩ : Shape).BroadcastsInDim ⟨2, ![1024, 1]⟩ ![0])
    (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) :
    chain h1 h2 h3 hred hS X = Host.divf (expPart h1 h2 h3 hred hS X)
      (broadcastInDim ⟨2, ![1024, 1000]⟩ ![0, 1] h1 (broadcastInDim ⟨2, ![1024, 1]⟩ ![0] h2
        (Host.reduceAdd (expPart h1 h2 h3 hred hS X) (constant (F := Ideal) ⟨0, ![]⟩ .f32 0x00000000#32) hred hS))) := rfl

/-- The reduction fact in the form that names the inserted index. -/
theorem reduces_rows : (⟨2, ![1024, 1000]⟩ : Shape).Reduces [1] ⟨1, ![1024]⟩ := by decide

/-- The index of row k with coordinate c inserted on the lanes is (k, c). -/
theorem lift_eq (k : Fin 1024) (c : Fin 1000) : reduces_rows.lift (ix1 k) c = ix2 k c := by
  funext a
  match a with
  | ⟨0, _⟩ => rfl
  | ⟨1, _⟩ => rfl

/-- The row maxima at row k. -/
theorem rowMax_apply (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) (k : Fin 1024) :
    maximumf (broadcastInDim ⟨1, ![1024]⟩ ![] h3 (constant (F := Ideal) ⟨0, ![]⟩ .f32 0xFF800000#32))
      (Host.reduce FloatOps.maximumf X (constant (F := Ideal) ⟨0, ![]⟩ .f32 0xFF800000#32) hred hS) (ix1 k)
      = rowMax (fun c' => X (ix2 k c')) := by
  rw [maximumf_apply, broadcastInDim_scalar_apply, constant_apply,
    Host.reduce_eq_fold_single FloatOps.maximumf X _ hred reduces_rows hS (ix1 k), constant_apply]
  unfold rowMax negInf
  congr 2
  funext c'
  exact congrArg X (lift_eq k c')

/-- The numerators at (k, c). -/
theorem expPart_apply (h1 : (⟨2, ![1024, 1]⟩ : Shape).BroadcastsInDim ⟨2, ![1024, 1000]⟩ ![0, 1])
    (h2 : (⟨1, ![1024]⟩ : Shape).BroadcastsInDim ⟨2, ![1024, 1]⟩ ![0])
    (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) (k : Fin 1024) (c : Fin 1000) :
    expPart h1 h2 h3 hred hS X (ix2 k c) = Ideal.exp (X (ix2 k c) - rowMax (fun c' => X (ix2 k c'))) := by
  unfold expPart
  show Ideal.exp (subf X _ (ix2 k c)) = _
  rw [subf_apply, LibColumns.spread_apply, LibColumns.column_apply, rowMax_apply]

/-- THE CHAIN READ AT (k, c): the softmax of row k at c. -/
theorem chain_apply (h1 : (⟨2, ![1024, 1]⟩ : Shape).BroadcastsInDim ⟨2, ![1024, 1000]⟩ ![0, 1])
    (h2 : (⟨1, ![1024]⟩ : Shape).BroadcastsInDim ⟨2, ![1024, 1]⟩ ![0])
    (h3 : (⟨0, ![]⟩ : Shape).BroadcastsInDim ⟨1, ![1024]⟩ ![])
    (hred : (⟨2, ![1024, 1000]⟩ : Shape).ReducesTo [1] ⟨1, ![1024]⟩) (hS : 0 < (⟨0, ![]⟩ : Shape).numel)
    (X : FVec Ideal ⟨2, ![1024, 1000]⟩ .f32) (k : Fin 1024) (c : Fin 1000) :
    chain h1 h2 h3 hred hS X (ix2 k c) = softmaxRow (fun c' => X (ix2 k c')) c := by
  rw [chain_eq, hostDivf_apply, LibColumns.spread_apply, LibColumns.column_apply, hostReduceAdd_apply,
    Ideal.hostReduceAdd_single hred reduces_rows, constant_apply, expPart_apply]
  unfold softmaxRow zeroW
  congr 2
  refine Finset.sum_congr rfl (fun c' _ => ?_)
  exact (congrArg (expPart h1 h2 h3 hred hS X) (lift_eq k c')).trans (expPart_apply h1 h2 h3 hred hS X k c')

end Cert.Softmax

end
-- ==== Proof.KTables.lean ====
/-
  THE TWO INDEX TABLES of the kernel's host code, identified: the table of 1023 node positions is the per-level
  bit-reversal of the tree's nodes, the table of 1024 leaf positions the reversal of ten bits. Both are finite checks,
  entry by entry.
-/
import proofs.«120453_j90039694393610_2_alg».proof.KernelIdeal
import proofs.«120453_j90039694393610_2_alg».proof.Proof.Spec

namespace Cert.KTables

/-- Entry n of the node table, read as a signed integer, is where node n of the halves listing sits in level order. -/
theorem lit0_eq : ∀ n : Fin 1023, (Cert.KernelIdeal.lit0 n).toInt.toNat = Cert.Tree.nodePerm n.val := by
  decide +kernel

/-- Entry k of the leaf table, read as a signed integer, is k with its ten bits reversed. -/
theorem lit1_eq : ∀ k : Fin 1024, (Cert.KernelIdeal.lit1 k).toInt.toNat = Cert.Tree.brev 10 k.val := by
  decide +kernel

end Cert.KTables
-- ==== Proof.LibGather.lean ====
/-
  `stablehlo.gather` read at an index, for the two forms that integer-array indexing of a flat array (`x[i]`) and of a matrix
  (`M[i, j]`) lowers to when the start indices carry their index vector on the LAST axis of a rank-2 array:
  * a rank-1 operand `[N]`, start indices `[R, 1]`, result `[R]`: element `t` is the operand at `idx[t, 0]`;
  * a rank-2 operand `[N, M]`, start indices `[R, 2]`, result `[R]`: element `t` is the operand at `(idx[t, 0], idx[t, 1])`;
  each start index read as a signed integer and clamped into the operand's axis, as the operation clamps every start index.
  (The library reads the form with start indices `[R, C, 1]`; these two are its neighbours.)
-/
import Idealize.ShloMosaic.Lib.ValueIdx

noncomputable section

namespace Cert.LibGather

open Idealize.ShloMosaic Idealize.ShloMosaic.ValueIdx

variable {α : Type}

/-! ## A flat array at a column of start indices -/

/-- The dimension numbers of `x[i]` for an operand `[N]`, start indices `[R, 1]` and result `[R]`. -/
abbrev pick1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices index `[t, 0]` of result index `t`. -/
abbrev pick1Idx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- THE GATHER READ AT `t`: the operand at the start index `idx[t, 0]`, read signed and clamped into `[0, N − 1]`. -/
theorem gather_pick1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (pick1Dims N R wf) x idx y = x (ix1 ⟨min (idx (pick1Idx y)).toInt.toNat (N - 1), by omega⟩) := by
  unfold Host.gather
  congr 1
  funext a
  obtain rfl : a = 0 := Subsingleton.elim _ _
  refine Fin.ext ?_
  show (pick1Dims N R wf).start y idx 0 + (pick1Dims N R wf).batchCoord y 0 + (pick1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pick1Dims N R wf).startIndexMap from List.mem_singleton.mpr rfl)]
  have hsi : (pick1Dims N R wf).siIdx y ⟨List.idxOf (0 : Fin 1) (pick1Dims N R wf).startIndexMap,
      List.idxOf_lt_length_iff.2 (List.mem_singleton.mpr rfl)⟩ = pick1Idx y := by
    funext b; refine Fin.ext ?_
    match b with
    | ⟨0, _⟩ => rfl
    | ⟨1, _⟩ => rfl
  rw [hsi]
  rfl

/-! ## A matrix at a two-column array of start indices -/

/-- The dimension numbers of `M[i, j]` for an operand `[N, M]`, start indices `[R, 2]` and result `[R]`. -/
abbrev pick2Dims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The start-indices index `[t, c]` of result index `t` and component `c`. -/
abbrev pick2Idx {R : Nat} (y : (⟨1, ![R]⟩ : Shape).Idx) (c : Fin 2) : (⟨2, ![R, 2]⟩ : Shape).Idx :=
  fun a => match a with | ⟨0, _⟩ => ⟨(y 0).val, (y 0).isLt⟩ | ⟨1, _⟩ => ⟨c.val, c.isLt⟩

/-- THE GATHER READ AT `t`: the operand at row `idx[t, 0]` and column `idx[t, 1]`, each read signed and clamped into its axis. -/
theorem gather_pick2_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (y : (⟨1, ![R]⟩ : Shape).Idx) :
    Host.gather (pick2Dims N M R wf) x idx y
      = x (ix2 ⟨min (idx (pick2Idx y 0)).toInt.toNat (N - 1), by omega⟩ ⟨min (idx (pick2Idx y 1)).toInt.toNat (M - 1), by omega⟩) := by
  unfold Host.gather
  congr 1
  funext a
  refine Fin.ext ?_
  have m0 : (0 : Fin 2) ∈ ([0, 1] : List (Fin 2)) := by decide
  have m1 : (1 : Fin 2) ∈ ([0, 1] : List (Fin 2)) := by decide
  have i0 : List.idxOf (0 : Fin 2) ([0, 1] : List (Fin 2)) = 0 := by decide
  have i1 : List.idxOf (1 : Fin 2) ([0, 1] : List (Fin 2)) = 1 := by decide
  have l0 : (0 : Fin 2).val < ([0, 1] : List (Fin 2)).length := by decide
  have l1 : (1 : Fin 2).val < ([0, 1] : List (Fin 2)).length := by decide
  have hsi : ∀ (c : Fin 2) (hc : c.val < (pick2Dims N M R wf).startIndexMap.length),
      (pick2Dims N M R wf).siIdx y ⟨c.val, hc⟩ = pick2Idx y c := by
    intro c hc
    funext b; refine Fin.ext ?_
    match b with
    | ⟨0, _⟩ => rfl
    | ⟨1, _⟩ => rfl
  match a with
  | ⟨0, _⟩ =>
    show (pick2Dims N M R wf).start y idx 0 + (pick2Dims N M R wf).batchCoord y 0 + (pick2Dims N M R wf).offCoord y 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (pick2Dims N M R wf).startIndexMap from m0)]
    rw [show (⟨List.idxOf (0 : Fin 2) (pick2Dims N M R wf).startIndexMap, List.idxOf_lt_length_iff.2 m0⟩ : Fin (pick2Dims N M R wf).startIndexMap.length)
        = ⟨(0 : Fin 2).val, l0⟩ from Fin.ext i0, hsi 0]
    rfl
  | ⟨1, _⟩ =>
    show (pick2Dims N M R wf).start y idx 1 + (pick2Dims N M R wf).batchCoord y 1 + (pick2Dims N M R wf).offCoord y 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (pick2Dims N M R wf).startIndexMap from m1)]
    rw [show (⟨List.idxOf (1 : Fin 2) (pick2Dims N M R wf).startIndexMap, List.idxOf_lt_length_iff.2 m1⟩ : Fin (pick2Dims N M R wf).startIndexMap.length)
        = ⟨(1 : Fin 2).val, l1⟩ from Fin.ext i1, hsi 1]
    rfl

end Cert.LibGather

end
-- ==== Proof.LibGatherRows.lean ====
/-
  `stablehlo.gather` of WHOLE ROWS read at an index: what integer-array indexing of a matrix by its first axis (`M[i]`) lowers to
  when the start indices carry their index vector on the last axis of a rank-2 array.
  Operand `[N, M]`, start indices `[R, 1]`, result `[R, M]`: row `y0` of the result is the operand's row `idx[y0, 0]`, the start index read
  as a signed integer and clamped into `[0, N − 1]`, as the operation clamps every start index.
-/
import Idealize.ShloMosaic.Lib.ValueIdx

noncomputable section

namespace Cert.LibGatherRows

open Idealize.ShloMosaic Idealize.ShloMosaic.ValueIdx

variable {α : Type}

/-- The dimension numbers of `M[i]` for an operand `[N, M]`, start indices `[R, 1]` and result `[R, M]`. -/
abbrev rowDims (N M R : Nat) (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- THE GATHER READ AT `(y0, y1)`: the operand at row `idx[y0, 0]` (read signed, clamped into `[0, N − 1]`) and column `y1`. -/
theorem gather_rows_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (y0 : Fin R) (y1 : Fin M) :
    Host.gather (rowDims N M R wf) x idx (ix2 y0 y1)
      = x (ix2 ⟨min (idx (ix2 y0 (0 : Fin 1))).toInt.toNat (N - 1), by omega⟩ y1) := by
  unfold Host.gather
  congr 1
  funext a
  refine Fin.ext ?_
  have m0 : (0 : Fin 2) ∈ ([0] : List (Fin 2)) := List.mem_singleton.mpr rfl
  have n1 : (1 : Fin 2) ∉ ([0] : List (Fin 2)) := by decide
  match a with
  | ⟨0, _⟩ =>
    show (rowDims N M R wf).start (ix2 y0 y1) idx 0 + (rowDims N M R wf).batchCoord (ix2 y0 y1) 0
      + (rowDims N M R wf).offCoord (ix2 y0 y1) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (rowDims N M R wf).startIndexMap from m0)]
    have hsi : (rowDims N M R wf).siIdx (ix2 y0 y1) ⟨List.idxOf (0 : Fin 2) (rowDims N M R wf).startIndexMap,
        List.idxOf_lt_length_iff.2 m0⟩ = ix2 y0 (0 : Fin 1) := by
      funext b; refine Fin.ext ?_
      match b with
      | ⟨0, _⟩ => rfl
      | ⟨1, _⟩ => rfl
    rw [hsi]
    rfl
  | ⟨1, _⟩ =>
    show (rowDims N M R wf).start (ix2 y0 y1) idx 1 + (rowDims N M R wf).batchCoord (ix2 y0 y1) 1
      + (rowDims N M R wf).offCoord (ix2 y0 y1) 1 = y1.val
    rw [GatherDims.batchCoord_eq_zero _ _ _ List.not_mem_nil]
    unfold GatherDims.start
    rw [dif_neg (show (1 : Fin 2) ∉ (rowDims N M R wf).startIndexMap from n1)]
    unfold GatherDims.offCoord
    rw [dif_pos ((GatherDims.mem_sKept _ _).mpr ⟨n1, List.not_mem_nil⟩)]
    simp only [Nat.add_zero, Nat.zero_add]
    rfl

end Cert.LibGatherRows

end
-- ==== Proof.KHostLemmas.lean ====
/-
  THE THREE HOST PREPARATIONS READ AT AN INDEX, over variables: a gather by a table of positions set up as a column of
  start indices, followed by a padding with zeros (and, for the leaf logits, the row softmax in between; for the biases,
  the setting up as a row after). The tables are the kernel's two literal tables, kept opaque: only their two checked
  identifications (node table = per-level bit reversal, leaf table = reversal of ten bits) are used, to remove the
  gather's clamp and to name the row read. Every well-formedness proof is a variable.
-/
import proofs.«120453_j90039694393610_2_alg».proof.KernelIdeal
import proofs.«120453_j90039694393610_2_alg».proof.Proof.Spec
import proofs.«120453_j90039694393610_2_alg».proof.Proof.Softmax
import proofs.«120453_j90039694393610_2_alg».proof.Proof.KTables
import proofs.«120453_j90039694393610_2_alg».proof.Proof.LibColumns
import proofs.«120453_j90039694393610_2_alg».proof.Proof.LibGather
import proofs.«120453_j90039694393610_2_alg».proof.Proof.LibGatherRows
import Idealize.ShloMosaic.Lib.KernelVsHost
import Idealize.ShloMosaic.Lib.ValueLayout

noncomputable section
namespace Cert.KHost

open Idealize.ShloMosaic Idealize.ShloMosaic.ValueIdx Cert.KernelIdeal Cert.Tree Cert.Softmax

/-! ## The index columns: a table set up as a column of start indices -/

/-- A select on the all-false condition keeps its second operand, here the node table listed in row-major order; set up
    as a column it reads, at (p, 0), the table's entry p. -/
theorem nodeColumn_apply (hb : S1023.BroadcastsInDim S1023x1 ![0]) (A : IVec S1023 32) (p : Fin 1023) :
    broadcastInDim S1023x1 ![0] hb (select (constantI S1023 1 0#1) A (fun i => lit0 (S1023.rowMajor i)))
      (ix2 p (0 : Fin 1)) = lit0 p :=
  (LibColumns.column_apply hb _ p).trans
    ((select_zero _ _).trans (congrArg lit0 (Fin.ext (Shape.rowMajor_val_one (ix1 p)))))

/-- The same for the leaf table. -/
theorem leafColumn_apply (hb : S1024.BroadcastsInDim S1024x1 ![0]) (A : IVec S1024 32) (p : Fin 1024) :
    broadcastInDim S1024x1 ![0] hb (select (constantI S1024 1 0#1) A (fun i => lit1 (S1024.rowMajor i)))
      (ix2 p (0 : Fin 1)) = lit1 p :=
  (LibColumns.column_apply hb _ p).trans
    ((select_zero _ _).trans (congrArg lit1 (Fin.ext (Shape.rowMajor_val_one (ix1 p)))))

/-- The padding value: the integer zero converted is zero. -/
theorem padValue_apply (i : S_.Idx) : (sitofp .f32 (constantI S_ 32 0#32) : FVec Ideal S_ .f32) i = 0 :=
  sitofp_zero

/-- The clamp of a node position is the position: it is among the 1023 nodes. -/
theorem clampNode (n : Fin 1023) : min (lit0 n).toInt.toNat (1023 - 1) = nodePerm n.val := by
  rw [KTables.lit0_eq]
  have := nodePerm_lt n
  omega

/-- The clamp of a leaf position is the position: it is among the 1024 leaves. -/
theorem clampLeaf (k : Fin 1024) : min (lit1 k).toInt.toNat (1024 - 1) = (leafPerm k).val := by
  rw [KTables.lit1_eq, leafPerm_val]
  have := brev10_lt k.val k.isLt
  omega

/-! ## The biases: gathered by the node table, one zero appended, set up as a row -/

theorem bias_row_apply (wf : GatherDims.WF S1023 S1023x1 S1023 [] [0] [] [0] [] 1 ![1])
    (hb : S1023.BroadcastsInDim S1023x1 ![0]) (hp : S1023.Pads ![0] ![1] ![0] S1024) (hS : 0 < S_.numel)
    (hc : S1024.ShapeCasts S1x1024) (x : FVec Ideal S1023 .f32) (A : IVec S1023 32) (n : Fin 1024) :
    shapeCast S1x1024 (pad S1024 ![0] ![1] ![0]
        (Host.gather (LibGather.pick1Dims 1023 1023 wf) x
          (broadcastInDim S1023x1 ![0] hb (select (constantI S1023 1 0#1) A (fun i => lit0 (S1023.rowMajor i)))))
        (sitofp .f32 (constantI S_ 32 0#32) : FVec Ideal S_ .f32) hp hS) hc (ix2 (0 : Fin 1) n)
      = if h : n.val < 1023 then x (ix1 (⟨nodePerm n.val, nodePerm_lt ⟨n.val, h⟩⟩ : Fin 1023)) else 0 := by
  refine (LibColumns.row_vec_apply hc _ n).trans ?_
  split
  · next h =>
    refine (pad_apply_of_inside (s := S1023) ![0] ![1] ![0] _ _ hp hS (ix1 n) (ix1 (⟨n.val, h⟩ : Fin 1023)) ?_).trans ?_
    · intro a
      match a with
      | ⟨0, _⟩ => show n.val = 0 + n.val * (0 + 1); omega
    · refine (LibGather.gather_pick1_apply (by norm_num) wf x _ _).trans ?_
      refine congrArg x (congrArg ix1 (Fin.ext ?_))
      exact (congrArg (fun b : BitVec 32 => min b.toInt.toNat (1023 - 1)) (nodeColumn_apply hb A ⟨n.val, h⟩)).trans
        (clampNode ⟨n.val, h⟩)
  · next h =>
    refine (pad_apply_of_not_inside (s := S1023) ![0] ![1] ![0] _ _ hp hS (ix1 n) (0 : Fin 1) ?_).trans (padValue_apply _)
    rintro ⟨_, _, h3⟩
    have h3' : (n.val - 0) / (0 + 1) < 1023 := h3
    exact h (by omega)

/-! ## The weights: rows gathered by the node table, one zero row appended -/

theorem weight_apply (wf : GatherDims.WF S1023x3072 S1023x1 S1023x3072 [1] [0] [] [0] [] 1 ![1, 3072])
    (hb : S1023.BroadcastsInDim S1023x1 ![0]) (hp : S1023x3072.Pads ![0, 0] ![1, 0] ![0, 0] S1024x3072) (hS : 0 < S_.numel)
    (hlt : FTy.bf16.bits < FTy.f32.bits)
    (x : FVec Ideal S1023x3072 .f32) (A : IVec S1023 32) (n : Fin 1024) (j : Fin 3072) :
    (truncf .bf16 (pad S1024x3072 ![0, 0] ![1, 0] ![0, 0]
        (Host.gather (LibGatherRows.rowDims 1023 3072 1023 wf) x
          (broadcastInDim S1023x1 ![0] hb (select (constantI S1023 1 0#1) A (fun i => lit0 (S1023.rowMajor i)))))
        (sitofp .f32 (constantI S_ 32 0#32) : FVec Ideal S_ .f32) hp hS) hlt : FVec Ideal S1024x3072 .bf16) (ix2 n j)
      = if h : n.val < 1023 then x (ix2 (⟨nodePerm n.val, nodePerm_lt ⟨n.val, h⟩⟩ : Fin 1023) j) else 0 := by
  refine (truncf_apply _ hlt _).trans ?_
  split
  · next h =>
    refine (pad_apply_of_inside (s := S1023x3072) ![0, 0] ![1, 0] ![0, 0] _ _ hp hS (ix2 n j) (ix2 (⟨n.val, h⟩ : Fin 1023) j) ?_).trans ?_
    · intro a
      match a with
      | ⟨0, _⟩ => show n.val = 0 + n.val * (0 + 1); omega
      | ⟨1, _⟩ => show j.val = 0 + j.val * (0 + 1); omega
    · refine (LibGatherRows.gather_rows_apply (by norm_num) wf x _ _ _).trans ?_
      refine congrArg x (congrArg (fun r => ix2 r j) (Fin.ext ?_))
      exact (congrArg (fun b : BitVec 32 => min b.toInt.toNat (1023 - 1)) (nodeColumn_apply hb A ⟨n.val, h⟩)).trans
        (clampNode ⟨n.val, h⟩)
  · next h =>
    refine (pad_apply_of_not_inside (s := S1023x3072) ![0, 0] ![1, 0] ![0, 0] _ _ hp hS (ix2 n j) (0 : Fin 2) ?_).trans (padValue_apply _)
    rintro ⟨_, _, h3⟩
    have h3' : (n.val - 0) / (0 + 1) < 1023 := h3
    exact h (by omega)

/-! ## The leaf distributions: rows gathered by the leaf table, softmaxed, 24 zero columns appended -/

theorem leaf_apply (wf : GatherDims.WF S1024x1000 S1024x1 S1024x1000 [1] [0] [] [0] [] 1 ![1, 1000])
    (hb : S1024.BroadcastsInDim S1024x1 ![0]) (hp : S1024x1000.Pads ![0, 0] ![0, 24] ![0, 0] S1024x1024) (hS : 0 < S_.numel)
    (hlt : FTy.bf16.bits < FTy.f32.bits)
    (h1 : S1024x1.BroadcastsInDim S1024x1000 ![0, 1]) (h2 : S1024.BroadcastsInDim S1024x1 ![0])
    (h3 : S_.BroadcastsInDim S1024 ![]) (hred : S1024x1000.ReducesTo [1] S1024)
    (x : FVec Ideal S1024x1000 .f32) (A : IVec S1024 32) (k q : Fin 1024) :
    (truncf .bf16 (pad S1024x1024 ![0, 0] ![0, 24] ![0, 0]
        (chain h1 h2 h3 hred hS (Host.gather (LibGatherRows.rowDims 1024 1000 1024 wf) x
          (broadcastInDim S1024x1 ![0] hb (select (constantI S1024 1 0#1) A (fun i => lit1 (S1024.rowMajor i))))))
        (sitofp .f32 (constantI S_ 32 0#32) : FVec Ideal S_ .f32) hp hS) hlt : FVec Ideal S1024x1024 .bf16) (ix2 k q)
      = if h : q.val < 1000 then softmaxRow (fun c' => x (ix2 (leafPerm k) c')) ⟨q.val, h⟩ else 0 := by
  refine (truncf_apply _ hlt _).trans ?_
  split
  · next h =>
    refine (pad_apply_of_inside (s := S1024x1000) ![0, 0] ![0, 24] ![0, 0] _ _ hp hS (ix2 k q) (ix2 k (⟨q.val, h⟩ : Fin 1000)) ?_).trans ?_
    · intro a
      match a with
      | ⟨0, _⟩ => show k.val = 0 + k.val * (0 + 1); omega
      | ⟨1, _⟩ => show q.val = 0 + q.val * (0 + 1); omega
    · refine (chain_apply h1 h2 h3 hred hS _ k ⟨q.val, h⟩).trans ?_
      refine congrArg (fun v => softmaxRow v ⟨q.val, h⟩) (funext fun c' => ?_)
      refine (LibGatherRows.gather_rows_apply (by norm_num) wf x _ _ _).trans ?_
      refine congrArg x (congrArg (fun r => ix2 r c') (Fin.ext ?_))
      exact (congrArg (fun b : BitVec 32 => min b.toInt.toNat (1024 - 1)) (leafColumn_apply hb A k)).trans (clampLeaf k)
  · next h =>
    refine (pad_apply_of_not_inside (s := S1024x1000) ![0, 0] ![0, 24] ![0, 0] _ _ hp hS (ix2 k q) (1 : Fin 2) ?_).trans (padValue_apply _)
    rintro ⟨_, _, h3'⟩
    have h3'' : (q.val - 0) / (0 + 1) < 1000 := h3'
    exact h (by omega)

end Cert.KHost

end
-- ==== Proof.KHost.lean ====
/-
  WHAT THE KERNEL'S HOST CODE HANDS TO THE PALLAS CALL, read entry by entry.

  Before the call the host code gathers the node weights' rows and the node biases by a table of 1023 node positions,
  and the leaf logits' rows by a table of 1024 leaf positions; appends one zero row to the weights, one zero to the
  biases (set up as a row), softmaxes every gathered row of leaf logits and appends 24 zero columns. The node table is
  the per-level bit-reversal of the tree's nodes, the leaf table the reversal of ten bits (both checked entry by entry),
  so:
  * the weights' row n is the argument's row nodePerm n for n < 1023, and zero for n = 1023;
  * the biases' entry n is the argument's entry nodePerm n for n < 1023, and zero for n = 1023;
  * the leaf distributions' entry (k, q) is the softmax of the argument's row leafPerm k at q for q < 1000, and zero
    for the 24 appended columns.
  The narrowing to the 16-bit format is the identity on extended reals.
-/
import proofs.«120453_j90039694393610_2_alg».proof.Proof.Gen.KernelIdeal.Frame
import proofs.«120453_j90039694393610_2_alg».proof.Proof.KHostLemmas
import Idealize.ShloMosaic.Lib.StableHlo.Run

set_option maxRecDepth 16384

noncomputable section

namespace Cert.KHost

open Idealize.ShloMosaic Idealize.ShloMosaic.ValueIdx Idealize.ShloMosaic.TcCoe Cert.KernelIdeal Cert.KernelIdeal.Gen Cert.Tree Cert.Softmax
open Idealize.ShloMosaic.StableHlo

/-! ## The three arrays the pallas call finds -/

variable (m : (ℓ : Loc nD τ sig) → Buf (Elt Ideal) ℓ) (c : Dev nD)

/-- The start indices of the two node gathers: the node table as a column. -/
def nodeIdx : IVec S1023x1 32 :=
  broadcastInDim S1023x1 ![0] bcast_S1023_S1023x1_0 (select (constantI S1023 1 0#1)
    (addi (fun i => lit0 (S1023.rowMajor i)) (broadcastInDim S1023 ![] bcast_S_S1023 (constantI S_ 32 1023#32)))
    (fun i => lit0 (S1023.rowMajor i)))

/-- The start indices of the leaf gather: the leaf table as a column. -/
def leafIdx : IVec S1024x1 32 :=
  broadcastInDim S1024x1 ![0] bcast_S1024_S1024x1_0 (select (constantI S1024 1 0#1)
    (addi (fun i => lit1 (S1024.rowMajor i)) (broadcastInDim S1024 ![] bcast_S_S1024 (constantI S_ 32 1024#32)))
    (fun i => lit1 (S1024.rowMajor i)))

set_option maxHeartbeats 1600000 in
/-- The biases as the pallas call finds them. -/
theorem b_apply (n : Fin 1024) : (V (F := Ideal) m c main_v17 : S1x1024.Idx → EReal) (ix2 (0 : Fin 1) n)
    = if h : n.val < 1023 then (m ((c : Thread nD τ).loc main_arg2) : S1023.Idx → EReal) (ix1 (⟨nodePerm n.val, nodePerm_lt ⟨n.val, h⟩⟩ : Fin 1023)) else (0 : EReal) := by
  have e : (V (F := Ideal) m c main_v17 : S1x1024.Idx → EReal)
      = shapeCast S1x1024 (pad S1024 ![0] ![1] ![0]
          (Host.gather gather_S1023_S1023x1_S1023_n_0_n_n_0_1_1 (m ((c : Thread nD τ).loc main_arg2)) nodeIdx)
          (sitofp .f32 (constantI S_ 32 0#32) : FVec Ideal S_ .f32) pads_S1023_S1024_010 h_S_) shapeCasts_S1024_S1x1024 := by
    dsimp only [Gen.V, Gen.V0]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results
    rfl
  exact (congrFun e _).trans (bias_row_apply _ _ _ _ _ _ _ n)

set_option maxHeartbeats 1600000 in
/-- The weights as the pallas call finds them. -/
theorem W_apply (n : Fin 1024) (j : Fin 3072) : (V (F := Ideal) m c main_v18 : S1024x3072.Idx → EReal) (ix2 n j)
    = if h : n.val < 1023 then (m ((c : Thread nD τ).loc main_arg1) : S1023x3072.Idx → EReal) (ix2 (⟨nodePerm n.val, nodePerm_lt ⟨n.val, h⟩⟩ : Fin 1023) j) else (0 : EReal) := by
  have e : (V (F := Ideal) m c main_v18 : S1024x3072.Idx → EReal)
      = truncf .bf16 (pad S1024x3072 ![0, 0] ![1, 0] ![0, 0]
          (Host.gather gather_S1023x3072_S1023x1_S1023x3072_1_0_n_n_0_1_13072 (m ((c : Thread nD τ).loc main_arg1)) nodeIdx)
          (sitofp .f32 (constantI S_ 32 0#32) : FVec Ideal S_ .f32) pads_S1023x3072_S1024x3072_010_000 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6,
      List.flatten_cons, List.flatten_nil, List.append_nil, List.cons_append, List.nil_append]
    after_results
    rfl
  exact (congrFun e _).trans (weight_apply _ _ _ _ _ _ _ n j)

end Cert.KHost

end
-- ==== Proof.KHostD.lean ====
/-
  THE LEAF DISTRIBUTIONS AS THE PALLAS CALL FINDS THEM, read entry by entry.

  Before the call the host code gathers the rows of the leaf logits by the table of 1024 leaf positions (the reversal of
  ten bits), softmaxes every gathered row, appends 24 zero columns and narrows to the 16-bit format (the identity on
  extended reals). So entry (k, q) of the array handed to the call is the softmax of the argument's row leafPerm k at q
  for q < 1000, and zero on the 24 appended columns. Here the host operations before the call are composed into that
  term; its reading at an index is the general lemma over variables.
-/
import proofs.«120453_j90039694393610_2_alg».proof.Proof.Gen.KernelIdeal.Frame
import proofs.«120453_j90039694393610_2_alg».proof.Proof.KHostLemmas
import Idealize.ShloMosaic.Lib.StableHlo.Run

set_option maxRecDepth 16384

noncomputable section

namespace Cert.KHostD

open Idealize.ShloMosaic Idealize.ShloMosaic.ValueIdx Idealize.ShloMosaic.TcCoe Cert.KernelIdeal Cert.KernelIdeal.Gen Cert.Tree Cert.Softmax
open Idealize.ShloMosaic.StableHlo

variable (m : (ℓ : Loc nD τ sig) → Buf (Elt Ideal) ℓ) (c : Dev nD)

set_option maxHeartbeats 1600000 in
/-- What the host operations before the call leave in the leaf-distribution array: the narrowed, padded softmax of the
    gathered rows. -/
theorem D_eq : (V (F := Ideal) m c main_v31 : S1024x1024.Idx → EReal)
    = truncf .bf16 (pad S1024x1024 ![0, 0] ![0, 24] ![0, 0]
        (chain bcast_S1024x1_S1024x1000_0_1 bcast_S1024_S1024x1_0 bcast_S_S1024 reducesTo_S1024x1000_S1024_d1 h_S_
          (Host.gather gather_S1024x1000_S1024x1_S1024x1000_1_0_n_n_0_1_11000 (m ((c : Thread nD τ).loc main_arg3))
            (broadcastInDim S1024x1 ![0] bcast_S1024_S1024x1_0 (select (constantI S1024 1 0#1)
              (addi (fun i => lit1 (S1024.rowMajor i)) (broadcastInDim S1024 ![] bcast_S_S1024 (constantI S_ 32 1024#32)))
              (fun i => lit1 (S1024.rowMajor i))))))
        (sitofp .f32 (constantI S_ 32 0#32) : FVec Ideal S_ .f32) pads_S1024x1000_S1024x1024_000_0240 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- THE LEAF DISTRIBUTIONS at (k, q): the softmax of the argument's row leafPerm k at q, and zero on the 24 appended
    columns. -/
theorem D_apply (k q : Fin 1024) : (V (F := Ideal) m c main_v31 : S1024x1024.Idx → EReal) (ix2 k q)
    = if h : q.val < 1000 then softmaxRow (fun c' : Fin 1000 =>
        (m ((c : Thread nD τ).loc main_arg3) : S1024x1000.Idx → EReal) (ix2 (leafPerm k) c')) ⟨q.val, h⟩ else 0 :=
  (congrFun (D_eq m c) _).trans (Cert.KHost.leaf_apply _ _ _ _ _ _ _ _ _ _ _ k q)

end Cert.KHostD

end
-- ==== Proof.LibHalves.lean ====
/-
  GENERAL LEMMA: one level of a soft decision tree listed BY HALVES, read at an index on extended reals.

  From the path probabilities pa of a level of width w (an [R, w] array) and that level's gates — the lanes
  o .. o + w - 1 of an [R, N] array G — the next level, of width W = w + w, is the concatenation along the lanes of
  (1 - gates) * pa (the left children, in the level's order) and gates * pa (the right children). Read at (p, j):
    (if j < w then 1 - G (p, o + j) else G (p, o + (j - w))) * pa (p, j mod w).
  Nothing here mentions a program; the extents R, w, W, N and the offset o are arbitrary, and every well-formedness
  proof is a hypothesis. The row p of G and of pa enter through their readings at natural numbers (g, q), which is the
  form a recursion over levels uses. No law of extended-real arithmetic is used at all.
-/
import Idealize.ShloMosaic.PureOps.Ideal
import Idealize.ShloMosaic.Lib.ValueIdx
import Idealize.ShloMosaic.Lib.ValueLayout

noncomputable section

namespace Cert.LibHalves

open Idealize.ShloMosaic Idealize.ShloMosaic.ValueIdx

/-- The two halves of the next level, as the list a concatenation takes. -/
abbrev halves {R w N : ℕ} (o : ℕ) (G : FVec Ideal ⟨2, ![R, N]⟩ .f32) (pa : FVec Ideal ⟨2, ![R, w]⟩ .f32)
    (hs : (⟨2, ![R, N]⟩ : Shape).Slices ![0, o] ⟨2, ![R, w]⟩) : List ((s : Shape) × (s.Idx → Ideal .f32)) :=
  [⟨⟨2, ![R, w]⟩, mulf (subf (broadcast ⟨2, ![R, w]⟩ (Scalar.ofBits (F := Ideal) .f32 0x3F800000#32))
      (extractStridedSlice ⟨2, ![R, w]⟩ ![0, o] G hs)) pa⟩,
   ⟨⟨2, ![R, w]⟩, mulf (extractStridedSlice ⟨2, ![R, w]⟩ ![0, o] G hs) pa⟩]

/-- ONE LEVEL BY HALVES, read at (p, j). -/
theorem level_apply {R w W N : ℕ} (o : ℕ) (G : FVec Ideal ⟨2, ![R, N]⟩ .f32) (pa : FVec Ideal ⟨2, ![R, w]⟩ .f32)
    (hs : (⟨2, ![R, N]⟩ : Shape).Slices ![0, o] ⟨2, ![R, w]⟩)
    (hc : Shape.Concatenates [⟨2, ![R, w]⟩, ⟨2, ![R, w]⟩] ⟨2, ![R, W]⟩ 1) (hW : W = w + w)
    (p : Fin R) (g q : ℕ → EReal)
    (hG : ∀ n : Fin N, G (ix2 p n) = g n.val) (hpa : ∀ i : Fin w, pa (ix2 p i) = q i.val) (j : Fin W) :
    concatenate ⟨2, ![R, W]⟩ 1 (halves o G pa hs) hc (ix2 p j)
      = (if j.val < w then Ideal.ofBits .f32 0x3F800000#32 - g (o + j.val) else g (o + (j.val - w))) * q (j.val % w) := by
  have hN : o + w ≤ N := hs.2 1
  by_cases hj : j.val < w
  · rw [if_pos hj, Nat.mod_eq_of_lt hj]
    refine (concatenate_apply_piece (t := ⟨2, ![R, W]⟩) (1 : Fin 2) (halves o G pa hs) hc (ix2 p j) 0 Nat.zero_lt_two ⟨2, ![R, w]⟩ _ rfl rfl 0 rfl
      (ix2 p (⟨j.val, hj⟩ : Fin w)) (fun b hb => ?_) (Nat.zero_add _)).trans ?_
    · match b with
      | ⟨0, _⟩ => rfl
      | ⟨1, _⟩ => exact absurd rfl hb
    · rw [mulf_apply, subf_apply, broadcast_apply,
        slice2_axis1_apply o G hs p (⟨j.val, hj⟩ : Fin w) (⟨o + j.val, by omega⟩ : Fin N) rfl, hG, hpa]
      rfl
  · rw [if_neg hj]
    have hj2 : j.val - w < w := by have := j.isLt; omega
    have hm : j.val % w = j.val - w := by
      rw [Nat.mod_eq_sub_mod (Nat.le_of_not_lt hj), Nat.mod_eq_of_lt hj2]
    rw [hm]
    refine (concatenate_apply_piece (t := ⟨2, ![R, W]⟩) (1 : Fin 2) (halves o G pa hs) hc (ix2 p j) 1 Nat.one_lt_two ⟨2, ![R, w]⟩ _ rfl rfl w rfl
      (ix2 p (⟨j.val - w, hj2⟩ : Fin w)) (fun b hb => ?_) ?_).trans ?_
    · match b with
      | ⟨0, _⟩ => rfl
      | ⟨1, _⟩ => exact absurd rfl hb
    · show w + (j.val - w) = j.val
      omega
    · rw [mulf_apply,
        slice2_axis1_apply o G hs p (⟨j.val - w, hj2⟩ : Fin w) (⟨o + (j.val - w), by omega⟩ : Fin N) rfl, hG, hpa]

/-- A CONCATENATION OF TWO ARRAYS of one width along the lanes, read at (p, j): the first at j when j < w, the second at
    j - w otherwise. The rows p of the two pieces enter through their readings at natural numbers. -/
theorem pair_apply {R w W : ℕ} (A B : FVec Ideal ⟨2, ![R, w]⟩ .f32)
    (hc : Shape.Concatenates [⟨2, ![R, w]⟩, ⟨2, ![R, w]⟩] ⟨2, ![R, W]⟩ 1) (hW : W = w + w)
    (p : Fin R) (a b : ℕ → EReal)
    (hA : ∀ i : Fin w, A (ix2 p i) = a i.val) (hB : ∀ i : Fin w, B (ix2 p i) = b i.val) (j : Fin W) :
    concatenate ⟨2, ![R, W]⟩ 1 [⟨⟨2, ![R, w]⟩, A⟩, ⟨⟨2, ![R, w]⟩, B⟩] hc (ix2 p j)
      = if j.val < w then a j.val else b (j.val - w) := by
  by_cases hj : j.val < w
  · rw [if_pos hj]
    refine (concatenate_apply_piece (t := ⟨2, ![R, W]⟩) (1 : Fin 2) [⟨⟨2, ![R, w]⟩, A⟩, ⟨⟨2, ![R, w]⟩, B⟩] hc (ix2 p j) 0
      Nat.zero_lt_two ⟨2, ![R, w]⟩ _ rfl rfl 0 rfl
      (ix2 p (⟨j.val, hj⟩ : Fin w)) (fun b hb => ?_) (Nat.zero_add _)).trans (hA _)
    match b with
    | ⟨0, _⟩ => rfl
    | ⟨1, _⟩ => exact absurd rfl hb
  · rw [if_neg hj]
    have hj2 : j.val - w < w := by have := j.isLt; omega
    refine (concatenate_apply_piece (t := ⟨2, ![R, W]⟩) (1 : Fin 2) [⟨⟨2, ![R, w]⟩, A⟩, ⟨⟨2, ![R, w]⟩, B⟩] hc (ix2 p j) 1
      Nat.one_lt_two ⟨2, ![R, w]⟩ _ rfl rfl w rfl
      (ix2 p (⟨j.val - w, hj2⟩ : Fin w)) (fun b hb => ?_) ?_).trans (hB _)
    · match b with
      | ⟨0, _⟩ => rfl
      | ⟨1, _⟩ => exact absurd rfl hb
    · show w + (j.val - w) = j.val
      omega

/-- The first level's predecessor: the splat of 1.0 read at any index. -/
theorem splat_one_apply {s : Shape} (i : s.Idx) :
    broadcast s (Scalar.ofBits (F := Ideal) .f32 0x3F800000#32) i = Ideal.ofBits .f32 0x3F800000#32 := rfl

end Cert.LibHalves

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibContract.lean ====
/-
  Two contractions read at an index, at the ideal values, as plain sums over the contracted coordinate.

  A matrix product `[M, K] × [K, N]` accumulated into a zero splat (a kernel's `tpu.matmul`) is, at `(p, f)`,
  `Σ_k l[p, k] · r[k, f]`; a stack of rows `[A, B, K]` contracted with one matrix `[K, N]` on its last axis (a host
  `dot_general`, what `einsum('gck,kf->gcf')` lowers to) is, at `(g, b, f)`, `Σ_k l[g, b, k] · r[k, f]`. The dimension
  numbers are taken as a record whose six axis lists are the literal ones and whose well-formedness proof is ANY proof:
  a printed record with those lists is such a record by unfolding, whatever proof it carries.
-/
import Idealize.ShloMosaic.PureOps.Ideal.Laws
import Idealize.ShloMosaic.Lib.ValueIdx

noncomputable section

open scoped BigOperators

namespace Cert.LibContract

open Idealize.ShloMosaic Idealize.ShloMosaic.ValueIdx

/-! ## A matrix product -/

/-- The dimension numbers of `[M, K] × [K, N] → [M, N]`: the left operand contracted on its columns, the right on its
    rows. -/
abbrev matDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Mat
variable {M K N : Nat} (wf : DotDims.WF ⟨2, ![M, K]⟩ ⟨2, ![K, N]⟩ ⟨2, ![M, N]⟩ [1] [0] [0] [1] [] [])

/-- The left operand's row is the result's row. -/
theorem mat_lhs_0 (i : (⟨2, ![M, N]⟩ : Shape).Idx) (q : (matDims M K N wf).contr.Idx) :
    ((matDims M K N wf).lhsIdx i q 0).val = (i 0).val := by
  unfold DotDims.lhsIdx
  rw [dif_neg (show ¬(0 : Fin 2) ∈ (matDims M K N wf).lhsBatch from List.not_mem_nil),
    dif_pos (show (0 : Fin 2) ∈ (matDims M K N wf).lhsNonContracting from List.mem_singleton.mpr rfl)]
  rfl

/-- The left operand's column is the contracted coordinate. -/
theorem mat_lhs_1 (i : (⟨2, ![M, N]⟩ : Shape).Idx) (q : (matDims M K N wf).contr.Idx) :
    ((matDims M K N wf).lhsIdx i q 1).val = (q ⟨0, Nat.one_pos⟩).val :=
  (matDims M K N wf).lhsIdx_val_of_single rfl i q

/-- The right operand's row is the contracted coordinate. -/
theorem mat_rhs_0 (i : (⟨2, ![M, N]⟩ : Shape).Idx) (q : (matDims M K N wf).contr.Idx) :
    ((matDims M K N wf).rhsIdx i q 0).val = (q ⟨0, Nat.one_pos⟩).val :=
  (matDims M K N wf).rhsIdx_val_of_single rfl i q

/-- The right operand's column is the result's column. -/
theorem mat_rhs_1 (i : (⟨2, ![M, N]⟩ : Shape).Idx) (q : (matDims M K N wf).contr.Idx) :
    ((matDims M K N wf).rhsIdx i q 1).val = (i 1).val := by
  unfold DotDims.rhsIdx
  rw [dif_neg (show ¬(1 : Fin 2) ∈ (matDims M K N wf).rhsBatch from List.not_mem_nil),
    dif_pos (show (1 : Fin 2) ∈ (matDims M K N wf).rhsNonContracting from List.mem_singleton.mpr rfl)]
  rfl

/-- A matrix product into the zero splat, at `(p, f)`: the sum over `k` of `l[p, k] · r[k, f]`. -/
theorem matmul_zero_apply {φ₁ φ₂ : FTy} (prec : Option ContractPrecision) (l : FVec Ideal ⟨2, ![M, K]⟩ φ₁)
    (r : FVec Ideal ⟨2, ![K, N]⟩ φ₂) (p : Fin M) (f : Fin N) :
    matmul (matDims M K N wf) prec l r (constant (F := Ideal) ⟨2, ![M, N]⟩ .f32 0x00000000#32) (ix2 p f)
      = ∑ k : Fin K, l (ix2 p k) * r (ix2 k f) := by
  show FloatOps.matmul (matDims M K N wf) prec l r _ (ix2 p f) = _
  rw [Ideal.matmul_constant_zero_apply, ← Equiv.sum_comp (contrEquiv1 (matDims M K N wf) K rfl rfl).symm]
  refine Finset.sum_congr rfl fun k _ => ?_
  have hk := contrEquiv1_symm_val (matDims M K N wf) K rfl rfl k
  have el : (matDims M K N wf).lhsIdx (ix2 p f) ((contrEquiv1 (matDims M K N wf) K rfl rfl).symm k) = ix2 p k :=
    funext fun a => Fin.ext (by
      match a with
      | ⟨0, _⟩ => exact mat_lhs_0 wf _ _
      | ⟨1, _⟩ => exact (mat_lhs_1 wf _ _).trans hk)
  have er : (matDims M K N wf).rhsIdx (ix2 p f) ((contrEquiv1 (matDims M K N wf) K rfl rfl).symm k) = ix2 k f :=
    funext fun a => Fin.ext (by
      match a with
      | ⟨0, _⟩ => exact (mat_rhs_0 wf _ _).trans hk
      | ⟨1, _⟩ => exact mat_rhs_1 wf _ _)
  rw [el, er]

end Mat

/-! ## A stack of rows against one matrix -/

/-- The dimension numbers of `[A, B, K] × [K, N] → [A, B, N]`: the left operand contracted on its last axis, the right on
    its rows, no batch axis. -/
abbrev rowsDims (A B K N : Nat)
    (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

section Rows
variable {A B K N : Nat} (wf : DotDims.WF ⟨3, ![A, B, K]⟩ ⟨2, ![K, N]⟩ ⟨3, ![A, B, N]⟩ [2] [0] [0, 1] [1] [] [])

theorem rows_lhs_0 (i : (⟨3, ![A, B, N]⟩ : Shape).Idx) (q : (rowsDims A B K N wf).contr.Idx) :
    ((rowsDims A B K N wf).lhsIdx i q 0).val = (i 0).val := by
  unfold DotDims.lhsIdx
  rw [dif_neg (show ¬(0 : Fin 3) ∈ (rowsDims A B K N wf).lhsBatch from List.not_mem_nil),
    dif_pos (show (0 : Fin 3) ∈ (rowsDims A B K N wf).lhsNonContracting from List.mem_cons_self)]
  rfl

theorem rows_lhs_1 (i : (⟨3, ![A, B, N]⟩ : Shape).Idx) (q : (rowsDims A B K N wf).contr.Idx) :
    ((rowsDims A B K N wf).lhsIdx i q 1).val = (i 1).val := by
  unfold DotDims.lhsIdx
  rw [dif_neg (show ¬(1 : Fin 3) ∈ (rowsDims A B K N wf).lhsBatch from List.not_mem_nil),
    dif_pos (show (1 : Fin 3) ∈ (rowsDims A B K N wf).lhsNonContracting from List.mem_cons_of_mem _ (List.mem_singleton.mpr rfl))]
  rfl

theorem rows_lhs_2 (i : (⟨3, ![A, B, N]⟩ : Shape).Idx) (q : (rowsDims A B K N wf).contr.Idx) :
    ((rowsDims A B K N wf).lhsIdx i q 2).val = (q ⟨0, Nat.one_pos⟩).val :=
  (rowsDims A B K N wf).lhsIdx_val_of_single rfl i q

theorem rows_rhs_0 (i : (⟨3, ![A, B, N]⟩ : Shape).Idx) (q : (rowsDims A B K N wf).contr.Idx) :
    ((rowsDims A B K N wf).rhsIdx i q 0).val = (q ⟨0, Nat.one_pos⟩).val :=
  (rowsDims A B K N wf).rhsIdx_val_of_single rfl i q

theorem rows_rhs_1 (i : (⟨3, ![A, B, N]⟩ : Shape).Idx) (q : (rowsDims A B K N wf).contr.Idx) :
    ((rowsDims A B K N wf).rhsIdx i q 1).val = (i 2).val := by
  unfold DotDims.rhsIdx
  rw [dif_neg (show ¬(1 : Fin 2) ∈ (rowsDims A B K N wf).rhsBatch from List.not_mem_nil),
    dif_pos (show (1 : Fin 2) ∈ (rowsDims A B K N wf).rhsNonContracting from List.mem_singleton.mpr rfl)]
  rfl

/-- The host's contraction of a stack of rows with one matrix, at `(g, b, f)`: the sum over `k` of
    `l[g, b, k] · r[k, f]`. -/
theorem dotGeneral_rows_apply {φ₁ φ₂ : FTy} (prec : Option ContractPrecision) (l : FVec Ideal ⟨3, ![A, B, K]⟩ φ₁)
    (r : FVec Ideal ⟨2, ![K, N]⟩ φ₂) (g : Fin A) (b : Fin B) (f : Fin N) :
    Host.dotGeneral (rowsDims A B K N wf) prec l r (ix3 g b f) = ∑ k : Fin K, l (ix3 g b k) * r (ix2 k f) := by
  show FloatOps.dotGeneral (rowsDims A B K N wf) prec _ l r (ix3 g b f) = _
  rw [Ideal.dotGeneral_apply, ← Equiv.sum_comp (contrEquiv1 (rowsDims A B K N wf) K rfl rfl).symm]
  refine Finset.sum_congr rfl fun k _ => ?_
  have hk := contrEquiv1_symm_val (rowsDims A B K N wf) K rfl rfl k
  have el : (rowsDims A B K N wf).lhsIdx (ix3 g b f) ((contrEquiv1 (rowsDims A B K N wf) K rfl rfl).symm k) = ix3 g b k :=
    funext fun a => Fin.ext (by
      match a with
      | ⟨0, _⟩ => exact rows_lhs_0 wf _ _
      | ⟨1, _⟩ => exact rows_lhs_1 wf _ _
      | ⟨2, _⟩ => exact (rows_lhs_2 wf _ _).trans hk)
  have er : (rowsDims A B K N wf).rhsIdx (ix3 g b f) ((contrEquiv1 (rowsDims A B K N wf) K rfl rfl).symm k) = ix2 k f :=
    funext fun a => Fin.ext (by
      match a with
      | ⟨0, _⟩ => exact (rows_rhs_0 wf _ _).trans hk
      | ⟨1, _⟩ => exact rows_rhs_1 wf _ _)
  rw [el, er]

end Rows

end Cert.LibContract

end
-- ==== Proof.KBody.lean ====
/-
  THE KERNEL BODY'S ARITHMETIC AT AN INDEX.

  The body computes, for each of its 256 rows p: the 1024 gates logistic (x_p . w_n + b_n) (a contraction of the lanes of
  the two loaded blocks, plus the bias row); the path probabilities of the ten levels of the tree listed by halves, each
  level from the previous one and the level's gates, which sit at the lanes 2^t - 1 .. 2^(t+1) - 2; and the product of the
  1024 leaf probabilities with the block of leaf distributions. Read at (p, q) the result is the sum over the leaves k of
  pathH g 10 k * D (k, q), g the row's gates read at a natural number. Only the definitions of the operations at an index
  are used; no law of extended-real arithmetic beyond reindexing a finite sum.
-/
import proofs.«120453_j90039694393610_2_alg».proof.Proof.Gen.KernelIdeal.Skeleton
import proofs.«120453_j90039694393610_2_alg».proof.Proof.Spec
import proofs.«120453_j90039694393610_2_alg».proof.Proof.LibHalves
import proofs.«120453_j90039694393610_2_alg».proof.Proof.LibLanes
import proofs.«120453_j90039694393610_2_alg».proof.Proof.LibContract

noncomputable section

namespace Cert.KBody

open Idealize.ShloMosaic Idealize.ShloMosaic.ValueIdx Cert.KernelIdeal Cert.KernelIdeal.Gen Cert.Tree
open scoped BigOperators

/-! ## The gates -/

/-- The first contraction's left operand index: the result's row ... -/
theorem gdot_lhs_0 (i : S256x1024.Idx) (s : dot_S256x3072_S1024x3072_S256x1024_1_1_0_0_n_n.contr.Idx) :
    (dot_S256x3072_S1024x3072_S256x1024_1_1_0_0_n_n.lhsIdx i s 0).val = (i 0).val := by
  unfold DotDims.lhsIdx
  rw [dif_neg (show ¬(0 : Fin 2) ∈ dot_S256x3072_S1024x3072_S256x1024_1_1_0_0_n_n.lhsBatch from List.not_mem_nil),
    dif_pos (show (0 : Fin 2) ∈ dot_S256x3072_S1024x3072_S256x1024_1_1_0_0_n_n.lhsNonContracting from List.mem_singleton.mpr rfl)]
  rfl

/-- ... and the contracted lane. -/
theorem gdot_lhs_1 (i : S256x1024.Idx) (s : dot_S256x3072_S1024x3072_S256x1024_1_1_0_0_n_n.contr.Idx) :
    (dot_S256x3072_S1024x3072_S256x1024_1_1_0_0_n_n.lhsIdx i s 1).val = (s ⟨0, Nat.one_pos⟩).val :=
  dot_S256x3072_S1024x3072_S256x1024_1_1_0_0_n_n.lhsIdx_val_of_single rfl i s

/-- The right operand index: the result's column (a node) ... -/
theorem gdot_rhs_0 (i : S256x1024.Idx) (s : dot_S256x3072_S1024x3072_S256x1024_1_1_0_0_n_n.contr.Idx) :
    (dot_S256x3072_S1024x3072_S256x1024_1_1_0_0_n_n.rhsIdx i s 0).val = (i 1).val := by
  unfold DotDims.rhsIdx
  rw [dif_neg (show ¬(0 : Fin 2) ∈ dot_S256x3072_S1024x3072_S256x1024_1_1_0_0_n_n.rhsBatch from List.not_mem_nil),
    dif_pos (show (0 : Fin 2) ∈ dot_S256x3072_S1024x3072_S256x1024_1_1_0_0_n_n.rhsNonContracting from List.mem_singleton.mpr rfl)]
  rfl

/-- ... and the contracted lane. -/
theorem gdot_rhs_1 (i : S256x1024.Idx) (s : dot_S256x3072_S1024x3072_S256x1024_1_1_0_0_n_n.contr.Idx) :
    (dot_S256x3072_S1024x3072_S256x1024_1_1_0_0_n_n.rhsIdx i s 1).val = (s ⟨0, Nat.one_pos⟩).val :=
  dot_S256x3072_S1024x3072_S256x1024_1_1_0_0_n_n.rhsIdx_val_of_single rfl i s

/-- (C1) THE GATES at (p, n): the logistic of row p's inner product with node n's weights, plus node n's bias. -/
theorem gates_apply (x0 : Vec Ideal S256x3072 .f32) (x1 : Vec Ideal S1024x3072 .bf16) (x2 : Vec Ideal S1x1024 .f32)
    (p : Fin 256) (n : Fin 1024) :
    k0_pay2 (F := Ideal) x0 x1 x2 (ix2 p n)
      = gate (fun j : Fin 3072 => x0 (ix2 p j)) (fun j : Fin 3072 => x1 (ix2 n j)) (x2 (ix2 (0 : Fin 1) n)) := by
  unfold k0_pay2 gate
  show Ideal.logistic (_ + _) = _
  refine congrArg Ideal.logistic ?_
  refine congrArg₂ (· + ·) ?_ ?_
  · refine (LibLanes.matmul_lanes (R := 256) (K := 3072) (N := 1024) dot_S256x3072_S1024x3072_S256x1024_1_1_0_0_n_n rfl rfl
      gdot_lhs_0 gdot_lhs_1 gdot_rhs_0 gdot_rhs_1 _ _ p n).trans ?_
    refine Finset.sum_congr rfl fun k _ => ?_
    rw [shapeCast_self]
    rfl
  · rw [shapeCast_self]
    exact broadcastTo_1b_ab_apply x2 _ p n

/-! ## The levels -/

/-- One level by halves is one step of the recursion that lists a level by halves: width w = 2^t, the level's gates at
    the lanes from o = 2^t - 1. -/
theorem level_step {w W : ℕ} (t o : ℕ) (hw : w = 2 ^ t) (ho : o = 2 ^ t - 1) (hW : W = w + w)
    (v9 : FVec Ideal ⟨2, ![256, 1024]⟩ .f32) (pa : FVec Ideal ⟨2, ![256, w]⟩ .f32)
    (hs : (⟨2, ![256, 1024]⟩ : Shape).Slices ![0, o] ⟨2, ![256, w]⟩)
    (hc : Shape.Concatenates [⟨2, ![256, w]⟩, ⟨2, ![256, w]⟩] ⟨2, ![256, W]⟩ 1)
    (p : Fin 256) (g : ℕ → EReal) (hv9 : ∀ n : Fin 1024, v9 (ix2 p n) = g n.val)
    (hpa : ∀ i : Fin w, pa (ix2 p i) = pathH g t i.val) (j : Fin W) :
    concatenate ⟨2, ![256, W]⟩ 1 (LibHalves.halves o v9 pa hs) hc (ix2 p j) = pathH g (t + 1) j.val := by
  subst hw ho
  exact (LibHalves.level_apply (2 ^ t - 1) v9 pa hs hc hW p g (pathH g t) hv9 hpa j).trans rfl

/-- (C2, first half) LEVELS 0 .. 4: the path probabilities of width 32 are level 5 of the listing by halves. -/
theorem pay3_apply (x0 : Vec Ideal S256x3072 .f32) (x1 : Vec Ideal S1024x3072 .bf16) (x2 : Vec Ideal S1x1024 .f32)
    (p : Fin 256) (g : ℕ → EReal) (hg : ∀ n : Fin 1024, k0_pay2 (F := Ideal) x0 x1 x2 (ix2 p n) = g n.val) (j : Fin 32) :
    k0_pay3 (F := Ideal) x0 x1 x2 (ix2 p j) = pathH g 5 j.val := by
  unfold k0_pay3
  refine level_step (w := 16) (W := 32) 4 15 rfl rfl rfl _ _ _ _ p g hg (fun i4 => ?_) j
  refine level_step (w := 8) (W := 16) 3 7 rfl rfl rfl _ _ _ _ p g hg (fun i3 => ?_) i4
  refine level_step (w := 4) (W := 8) 2 3 rfl rfl rfl _ _ _ _ p g hg (fun i2 => ?_) i3
  refine level_step (w := 2) (W := 4) 1 1 rfl rfl rfl _ _ _ _ p g hg (fun i1 => ?_) i2
  refine level_step (w := 1) (W := 2) 0 0 rfl rfl rfl _ _ _ _ p g hg (fun i0 => ?_) i1
  rfl

/-- (C2, second half, and the last contraction) LEVELS 5 .. 9 AND THE MIXTURE, over any loaded values that read, on row p,
    as the row's gates (v9), level 5 of the listing by halves (v40), the gates of level 5 (v41) and the left children of
    level 5 (v44): the product of the 1024 leaf probabilities with the block of leaf distributions, at (p, q). -/
theorem pay1_apply (v9 : FVec Ideal S256x1024 .f32) (v40 v41 v44 : FVec Ideal S256x32 .f32) (v72 : Vec Ideal S1024x1024 .bf16)
    (p : Fin 256) (g : ℕ → EReal)
    (hv9 : ∀ n : Fin 1024, v9 (ix2 p n) = g n.val)
    (hv40 : ∀ i : Fin 32, v40 (ix2 p i) = pathH g 5 i.val)
    (hv41 : ∀ i : Fin 32, v41 (ix2 p i) = g (31 + i.val))
    (hv44 : ∀ i : Fin 32, v44 (ix2 p i) = (one - g (31 + i.val)) * pathH g 5 i.val) (q : Fin 1024) :
    k0_pay1 (F := Ideal) v9 v40 v41 v44 v72 (ix2 p q) = ∑ k : Fin 1024, pathH g 10 k.val * v72 (ix2 k q) := by
  unfold k0_pay1
  refine (LibContract.matmul_zero_apply (M := 256) (K := 1024) (N := 1024)
    Facts₀.dot_S256x1024_S1024x1024_S256x1024_1_0_0_1_n_n_wf none _ _ p q).trans ?_
  refine Finset.sum_congr rfl fun k _ => ?_
  refine congrArg₂ (· * ·) ?_ (congrFun (shapeCast_self v72 _) (ix2 k q))
  refine (truncf_apply (φ := .f32) (ψ := .bf16) _ _ (ix2 p k)).trans ?_
  refine level_step (w := 512) (W := 1024) 9 511 rfl rfl rfl _ _ _ _ p g hv9 (fun i9 => ?_) k
  refine level_step (w := 256) (W := 512) 8 255 rfl rfl rfl _ _ _ _ p g hv9 (fun i8 => ?_) i9
  refine level_step (w := 128) (W := 256) 7 127 rfl rfl rfl _ _ _ _ p g hv9 (fun i7 => ?_) i8
  refine level_step (w := 64) (W := 128) 6 63 rfl rfl rfl _ _ _ _ p g hv9 (fun i6 => ?_) i7
  refine (LibHalves.pair_apply (R := 256) (w := 32) (W := 64) v44 (mulf v41 v40) _ rfl p
    (fun i => (one - g (31 + i)) * pathH g 5 i) (fun i => g (31 + i) * pathH g 5 i) hv44 (fun i => ?_) i6).trans ?_
  · rw [mulf_apply, hv41, hv40]
  · show _ = (if i6.val < 32 then one - g (31 + i6.val) else g (31 + (i6.val - 32))) * pathH g 5 (i6.val % 32)
    by_cases h : i6.val < 32
    · rw [if_pos h, if_pos h, Nat.mod_eq_of_lt h]
    · have hm : i6.val % 32 = i6.val - 32 := by have := i6.isLt; omega
      rw [if_neg h, if_neg h, hm]

/-- The body at (p, q), the row's gates read through any function of a natural number that agrees with them. -/
theorem body_apply_of (x0 : Vec Ideal S256x3072 .f32) (x1 : Vec Ideal S1024x3072 .bf16) (x2 : Vec Ideal S1x1024 .f32)
    (x3 : Vec Ideal S1024x1024 .bf16) (p : Fin 256) (g : ℕ → EReal)
    (hg : ∀ n : Fin 1024, k0_pay2 (F := Ideal) x0 x1 x2 (ix2 p n) = g n.val) (q : Fin 1024) :
    k0_pay1 (F := Ideal) (k0_pay2 x0 x1 x2) (k0_pay3 x0 x1 x2) (k0_pay4 x0 x1 x2) (k0_pay5 x0 x1 x2) x3 (ix2 p q)
      = ∑ k : Fin 1024, pathH g 10 k.val * x3 (ix2 k q) := by
  have h4 : ∀ i : Fin 32, k0_pay4 (F := Ideal) x0 x1 x2 (ix2 p i) = g (31 + i.val) := fun i => by
    unfold k0_pay4
    exact (slice2_axis1_apply 31 _ _ p i (⟨31 + i.val, by have := i.isLt; omega⟩ : Fin 1024) rfl).trans (hg _)
  have h5 : ∀ i : Fin 32, k0_pay5 (F := Ideal) x0 x1 x2 (ix2 p i) = (one - g (31 + i.val)) * pathH g 5 i.val := fun i => by
    unfold k0_pay5
    show (one - k0_pay4 (F := Ideal) x0 x1 x2 (ix2 p i)) * k0_pay3 (F := Ideal) x0 x1 x2 (ix2 p i) = _
    rw [h4, pay3_apply x0 x1 x2 p g hg]
  exact pay1_apply _ _ _ _ x3 p g hg (pay3_apply x0 x1 x2 p g hg) h4 h5 q

/-- (C3) THE BODY AT (p, q): the leaf distributions mixed by the probabilities of reaching the leaves, listed by
    halves, of the row's gates. -/
theorem body_apply (x0 : Vec Ideal S256x3072 .f32) (x1 : Vec Ideal S1024x3072 .bf16) (x2 : Vec Ideal S1x1024 .f32)
    (x3 : Vec Ideal S1024x1024 .bf16) (p : Fin 256) (q : Fin 1024) :
    k0_pay1 (F := Ideal) (k0_pay2 x0 x1 x2) (k0_pay3 x0 x1 x2) (k0_pay4 x0 x1 x2) (k0_pay5 x0 x1 x2) x3 (ix2 p q)
      = ∑ k : Fin 1024, pathH (atNat fun n : Fin 1024 => gate (fun j : Fin 3072 => x0 (ix2 p j)) (fun j : Fin 3072 => x1 (ix2 n j)) (x2 (ix2 (0 : Fin 1) n))) 10 k.val * x3 (ix2 k q) :=
  body_apply_of x0 x1 x2 x3 p _ (fun n => (gates_apply x0 x1 x2 p n).trans
    (atNat_of_lt (fun n : Fin 1024 => gate (fun j : Fin 3072 => x0 (ix2 p j)) (fun j : Fin 3072 => x1 (ix2 n j)) (x2 (ix2 (0 : Fin 1) n)))
      n.val n.isLt).symm) q

end Cert.KBody

end
-- ==== Proof.Result.lean ====
/-
  THE COMMON RESULT of the two programs, as one function of the four argument arrays: at row r and class c, the softmax
  rows of the leaf logits (one row per leaf) mixed by the probabilities of reaching the leaves on input row r.
-/
import proofs.«120453_j90039694393610_2_alg».proof.Proof.Spec
import proofs.«120453_j90039694393610_2_alg».proof.Proof.Softmax

noncomputable section

namespace Cert.Tree

open Idealize.ShloMosaic Idealize.ShloMosaic.ValueIdx

/-- The leaf distributions: row k is the softmax of row k of the leaf logits. -/
def distsOf (A3 : (⟨2, ![1024, 1000]⟩ : Shape).Idx → EReal) : Fin 1024 → Fin 1000 → EReal :=
  fun k c => Cert.Softmax.softmaxRow (fun c' : Fin 1000 => A3 (ix2 k c')) c

/-- The result array [8192, 1000] of the soft decision tree on inputs A0, node weights A1, node biases A2 and leaf logits
    A3. -/
def G (A0 : (⟨2, ![8192, 3072]⟩ : Shape).Idx → EReal) (A1 : (⟨2, ![1023, 3072]⟩ : Shape).Idx → EReal)
    (A2 : (⟨1, ![1023]⟩ : Shape).Idx → EReal) (A3 : (⟨2, ![1024, 1000]⟩ : Shape).Idx → EReal) :
    (⟨2, ![8192, 1000]⟩ : Shape).Idx → EReal :=
  fun i => resultOf A0 A1 A2 (distsOf A3) (i 0) (i 1)

end Cert.Tree

end
-- ==== Proof.KOutEq.lean ====
/-
  The kernel program's result IS the common result G of the four arguments.

  The region found its inputs as launched, and its other three staged arrays as the host code built them: the weights'
  rows and the biases in the order nodePerm with a zero row / entry added, the leaf distributions' rows in the order
  leafPerm with zero lanes added (KHost, KHostD). The body mixes by the halves listing (KRun's KOut over Spec's KG), and the halves
  listing fed bit-reversed gates and leaf rows mixes to the interleaved listing's result (KMath).
-/
import proofs.«120453_j90039694393610_2_alg».proof.Proof.KRun
import proofs.«120453_j90039694393610_2_alg».proof.Proof.KMath
import proofs.«120453_j90039694393610_2_alg».proof.Proof.KHost
import proofs.«120453_j90039694393610_2_alg».proof.Proof.KHostD
import proofs.«120453_j90039694393610_2_alg».proof.Proof.KBody
import proofs.«120453_j90039694393610_2_alg».proof.Proof.Result

noncomputable section

namespace Cert.KOutEq

open Cert.KernelIdeal Cert.KernelIdeal.Gen Idealize.ShloMosaic Idealize.ShloMosaic.TcCoe Idealize.SL.Sem
open Idealize.ShloMosaic.ValueIdx Cert.Tree

variable (m : (ℓ : Loc nD τ sig) → Buf (Elt Ideal) ℓ) (ρ : Dev nD → PrngReg)

/-- The body's arithmetic at an index (KBody). -/
theorem body_spec : Cert.KValue.BodySpec := fun x0 x1 x2 x3 p q => Cert.KBody.body_apply x0 x1 x2 x3 p q

/-- The kernel program's result array is G of the launched arguments. -/
theorem kernel_out (c : Dev nD) :
    Cert.KRun.KOut m c = G (m ((c : Thread nD τ).loc main_arg0)) (m ((c : Thread nD τ).loc main_arg1))
      (m ((c : Thread nD τ).loc main_arg2)) (m ((c : Thread nD τ).loc main_arg3)) := by
  funext i
  unfold Cert.KRun.KOut G
  rw [V_main_arg0 m c]
  exact halves_eq_result (m ((c : Thread nD τ).loc main_arg0)) (m ((c : Thread nD τ).loc main_arg1))
    (m ((c : Thread nD τ).loc main_arg2)) (distsOf (m ((c : Thread nD τ).loc main_arg3)))
    (V m c main_v18) (V m c main_v17) (V m c main_v31)
    (Cert.KHost.W_apply m c) (Cert.KHost.b_apply m c) (Cert.KHostD.D_apply m c) (i 0) (i 1)

/-- The kernel program's run with its result at G of the launched arguments. -/
theorem run :
    θ_run defs (onTc (τ := τ) (main (F := Ideal))) ⟨m, fun _ => 0, ρ⟩ fun r => ∀ c : Dev nD,
      r.2.mem ((c : Thread nD τ).loc main_v33) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (kernel_out m c), (h c).2⟩) (Cert.KRun.run m ρ body_spec)

end Cert.KOutEq

end
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.RefLevel.lean ====
/-
  GENERAL LEMMAS for a soft decision tree evaluated on the host, read at an index on extended reals. Nothing here
  mentions a program; the extents are arbitrary.

  * scalar_fill_apply: a rank-0 constant broadcast to a matrix reads, anywhere, the constant's value.
  * hostdot_apply: a host contraction [M, K] x [K, N] (the left operand on its columns, the right on its rows) at
    (p, f) is the sum over k of l (p, k) * r (k, f).
  * logistic_gates_apply: 1 / (1 + exp (-(x . W^T + b))), spelled with two scalar fills, a transposed weight matrix and
    a bias broadcast twice, at (p, j) is the gate of row p against row j of the weights and entry j of the bias.
  * interleave_apply: the two children of a level put side by side — (1 - p) * pa and p * pa, each given a unit last
    axis, joined along it and the last two axes merged — at (r, j) is (1 - p) * pa or p * pa at (r, j / 2), by the
    parity of j: the row-major position of (r, i, s) in [R, w, 2] is that of (r, 2 i + s) in [R, 2 w].
  * level_path: if the gate matrix lists a row's gates and pa lists level t of the row's path probabilities, children
    side by side, then the interleaving of the slice of the gates at offset 2^t - 1 with pa lists level t + 1.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«120453_j90039694393610_2_alg».proof.Proof.Spec
import proofs.«120453_j90039694393610_2_alg».proof.Proof.LibDense
import proofs.«120453_j90039694393610_2_alg».proof.Proof.LibContract

noncomputable section

namespace Cert.RefLevel

open Idealize.ShloMosaic Idealize.ShloMosaic.ValueIdx Cert.Tree Cert.Dense Cert.LibContract
open scoped BigOperators

/-- A rank-0 constant broadcast to a matrix reads, at any index, the value of the constant's word. -/
theorem scalar_fill_apply {R N : ℕ} (hb : (⟨0, ![]⟩ : Shape).BroadcastsInDim ⟨2, ![R, N]⟩ ![]) (b : BitVec FTy.f32.bits)
    (i : (⟨2, ![R, N]⟩ : Shape).Idx) :
    broadcastInDim ⟨2, ![R, N]⟩ ![] hb (constant (F := Ideal) ⟨0, ![]⟩ .f32 b) i = Ideal.ofBits .f32 b := by
  rw [broadcastInDim_apply _ hb _ i ix0 (fun a => a.elim0)]
  rfl

/-- A host contraction of the columns of an [M, K] array with the rows of a [K, N] array, at (p, f): the sum over k of
    l (p, k) * r (k, f). -/
theorem hostdot_apply {M K N : ℕ} (wf : DotDims.WF ⟨2, ![M, K]⟩ ⟨2, ![K, N]⟩ ⟨2, ![M, N]⟩ [1] [0] [0] [1] [] [])
    (prec : Option ContractPrecision) (l : FVec Ideal ⟨2, ![M, K]⟩ .f32) (r : FVec Ideal ⟨2, ![K, N]⟩ .f32)
    (p : Fin M) (f : Fin N) :
    Host.dotGeneral (matDims M K N wf) prec l r (ix2 p f) = ∑ k : Fin K, l (ix2 p k) * r (ix2 k f) := by
  show FloatOps.dotGeneral (matDims M K N wf) prec _ l r (ix2 p f) = _
  rw [Ideal.dotGeneral_apply]
  exact contraction_rows (matDims M K N wf) rfl rfl (mat_lhs_0 wf) (mat_lhs_1 wf) (mat_rhs_0 wf) (mat_rhs_1 wf) l r p f

/-- THE GATES: 1 / (1 + exp (-(x . W^T + b))) as a host program spells it, read at (p, j), is the gate of row p of
    the inputs against row j of the weights and entry j of the bias. -/
theorem logistic_gates_apply {R K N : ℕ} (wf : DotDims.WF ⟨2, ![R, K]⟩ ⟨2, ![K, N]⟩ ⟨2, ![R, N]⟩ [1] [0] [0] [1] [] [])
    (x : FVec Ideal ⟨2, ![R, K]⟩ .f32) (Wm : FVec Ideal ⟨2, ![N, K]⟩ .f32) (b : FVec Ideal ⟨1, ![N]⟩ .f32)
    (ht : (⟨2, ![N, K]⟩ : Shape).Transposes [1, 0] ⟨2, ![K, N]⟩)
    (hb0 : (⟨0, ![]⟩ : Shape).BroadcastsInDim ⟨2, ![R, N]⟩ ![])
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    Host.divf (broadcastInDim ⟨2, ![R, N]⟩ ![] hb0 (constant (F := Ideal) ⟨0, ![]⟩ .f32 0x3F800000#32))
        (addf (broadcastInDim ⟨2, ![R, N]⟩ ![] hb0 (constant (F := Ideal) ⟨0, ![]⟩ .f32 0x3F800000#32))
          (Host.exp (Host.negf (addf (Host.dotGeneral (matDims R K N wf) none x (transpose ⟨2, ![K, N]⟩ [1, 0] Wm ht))
            (broadcastInDim ⟨2, ![R, N]⟩ ![0, 1] hb2 (broadcastInDim ⟨2, ![1, N]⟩ ![1] hb1 b)))))) (ix2 p j)
      = gate (fun k => x (ix2 p k)) (fun k => Wm (ix2 j k)) (b (ix1 j)) := by
  have hfill := scalar_fill_apply hb0 0x3F800000#32 (ix2 p j)
  have haff := host_affine (matDims R K N wf) rfl rfl (mat_lhs_0 wf) (mat_lhs_1 wf) (mat_rhs_0 wf) (mat_rhs_1 wf)
    x (transpose ⟨2, ![K, N]⟩ [1, 0] Wm ht) b hb1 hb2 p j
  show Ideal.div (broadcastInDim ⟨2, ![R, N]⟩ ![] hb0 (constant (F := Ideal) ⟨0, ![]⟩ .f32 0x3F800000#32) (ix2 p j))
      (broadcastInDim ⟨2, ![R, N]⟩ ![] hb0 (constant (F := Ideal) ⟨0, ![]⟩ .f32 0x3F800000#32) (ix2 p j)
        + Ideal.exp (-(addf (Host.dotGeneral (matDims R K N wf) none x (transpose ⟨2, ![K, N]⟩ [1, 0] Wm ht))
            (broadcastInDim ⟨2, ![R, N]⟩ ![0, 1] hb2 (broadcastInDim ⟨2, ![1, N]⟩ ![1] hb1 b)) (ix2 p j)))) = _
  rw [hfill, haff, Ideal.ofBits_one_f32]
  show Ideal.div 1 (1 + Ideal.exp (-((∑ k : Fin K, x (ix2 p k) * transpose ⟨2, ![K, N]⟩ [1, 0] Wm ht (ix2 k j)) + b (ix1 j))))
    = Ideal.div 1 (1 + Ideal.exp (-((∑ k : Fin K, x (ix2 p k) * Wm (ix2 j k)) + b (ix1 j))))
  have hsum : (∑ k : Fin K, x (ix2 p k) * transpose ⟨2, ![K, N]⟩ [1, 0] Wm ht (ix2 k j))
      = ∑ k : Fin K, x (ix2 p k) * Wm (ix2 j k) :=
    Finset.sum_congr rfl fun k _ => by rw [transpose_ix2_apply]
  rw [hsum]

/-- THE TWO CHILDREN SIDE BY SIDE: (1 - p) * pa and p * pa, each [R, w] array given a unit last axis, joined along it
    into [R, w, 2] and listed again as [R, 2 w], read at (r, j): the left child's factor 1 - p if j is even, the right
    child's p if j is odd, times pa, all at (r, j / 2). -/
theorem interleave_apply {R w W : ℕ} (hW : W = 2 * w) (p pa : FVec Ideal ⟨2, ![R, w]⟩ .f32)
    (hb0 : (⟨0, ![]⟩ : Shape).BroadcastsInDim ⟨2, ![R, w]⟩ ![])
    (hb1 : (⟨2, ![R, w]⟩ : Shape).BroadcastsInDim ⟨3, ![R, w, 1]⟩ ![0, 1])
    (hc : Shape.Concatenates [⟨3, ![R, w, 1]⟩, ⟨3, ![R, w, 1]⟩] ⟨3, ![R, w, 2]⟩ 2)
    (hs : (⟨3, ![R, w, 2]⟩ : Shape).ShapeCasts ⟨2, ![R, W]⟩)
    (r : Fin R) (j : Fin W) (i : Fin w) (hi : i.val = j.val / 2) :
    shapeCast ⟨2, ![R, W]⟩ (concatenate ⟨3, ![R, w, 2]⟩ 2
        [⟨⟨3, ![R, w, 1]⟩, broadcastInDim ⟨3, ![R, w, 1]⟩ ![0, 1] hb1
            (mulf (subf (broadcastInDim ⟨2, ![R, w]⟩ ![] hb0 (constant (F := Ideal) ⟨0, ![]⟩ .f32 0x3F800000#32)) p) pa)⟩,
          ⟨⟨3, ![R, w, 1]⟩, broadcastInDim ⟨3, ![R, w, 1]⟩ ![0, 1] hb1 (mulf p pa)⟩] hc) hs (ix2 r j)
      = (if j.val % 2 = 0 then one - p (ix2 r i) else p (ix2 r i)) * pa (ix2 r i) := by
  subst hW
  have hs2 : j.val % 2 < 2 := Nat.mod_lt _ (by omega)
  -- the shape cast: (r, j) of [R, 2 w] is (r, j / 2, j % 2) of [R, w, 2]
  refine (shapeCast_apply _ hs (ix2 r j) (ix3 r i (⟨j.val % 2, hs2⟩ : Fin 2)) ?_).trans ?_
  · rw [Shape.rowMajor_val_three, Shape.rowMajor_val_two]
    show (r.val * w + i.val) * 2 + j.val % 2 = r.val * (2 * w) + j.val
    have e : r.val * (2 * w) = (r.val * w) * 2 := by ring
    rw [e, hi]
    omega
  -- a broadcast to a unit last axis reads the operand at the first two coordinates
  have hbc : ∀ (v : FVec Ideal ⟨2, ![R, w]⟩ .f32),
      broadcastInDim ⟨3, ![R, w, 1]⟩ ![0, 1] hb1 v (ix3 r i (0 : Fin 1)) = v (ix2 r i) := fun v =>
    broadcastInDim_apply _ hb1 v (ix3 r i (0 : Fin 1)) (ix2 r i) (fun a => match a with
      | ⟨0, _⟩ => by
        show r.val = if R = 1 then 0 else r.val
        split
        · have := r.isLt; omega
        · rfl
      | ⟨1, _⟩ => by
        show i.val = if w = 1 then 0 else i.val
        split
        · have := i.isLt; omega
        · rfl)
  by_cases hpar : j.val % 2 = 0
  · rw [if_pos hpar]
    refine (concatenate_pair_apply_left (2 : Fin 3) _ _ hc (ix3 r i (⟨j.val % 2, hs2⟩ : Fin 2)) rfl (ix3 r i (0 : Fin 1))
      (fun b => match b with
        | ⟨0, _⟩ => rfl
        | ⟨1, _⟩ => rfl
        | ⟨2, _⟩ => by show (0 : ℕ) = j.val % 2; omega)).trans ?_
    rw [hbc, mulf_apply, subf_apply, scalar_fill_apply]
    rfl
  · rw [if_neg hpar]
    refine (concatenate_pair_apply_right (2 : Fin 3) _ _ hc (ix3 r i (⟨j.val % 2, hs2⟩ : Fin 2)) rfl rfl (ix3 r i (0 : Fin 1))
      (fun b hb => match b, hb with
        | ⟨0, _⟩, _ => rfl
        | ⟨1, _⟩, _ => rfl
        | ⟨2, _⟩, hb => absurd rfl hb)
      (by show (0 : ℕ) + 1 = j.val % 2; omega)).trans ?_
    rw [hbc, mulf_apply]

/-- ONE LEVEL OF THE TREE, children side by side: if G lists a row's gates (g n at column n) and pa lists level t of the
    row's path probabilities, then the interleaving of the slice of G at offset 2^t - 1 with pa lists level t + 1. -/
theorem level_path {R N w W : ℕ} (t o : ℕ) (hW : W = 2 * w) (hw : w = 2 ^ t) (ho : o = 2 ^ t - 1)
    (G : FVec Ideal ⟨2, ![R, N]⟩ .f32) (pa : FVec Ideal ⟨2, ![R, w]⟩ .f32)
    (hsl : (⟨2, ![R, N]⟩ : Shape).Slices ![0, o] ⟨2, ![R, w]⟩)
    (hb0 : (⟨0, ![]⟩ : Shape).BroadcastsInDim ⟨2, ![R, w]⟩ ![])
    (hb1 : (⟨2, ![R, w]⟩ : Shape).BroadcastsInDim ⟨3, ![R, w, 1]⟩ ![0, 1])
    (hc : Shape.Concatenates [⟨3, ![R, w, 1]⟩, ⟨3, ![R, w, 1]⟩] ⟨3, ![R, w, 2]⟩ 2)
    (hs : (⟨3, ![R, w, 2]⟩ : Shape).ShapeCasts ⟨2, ![R, W]⟩)
    (g : ℕ → EReal) (r : Fin R)
    (hG : ∀ n : Fin N, G (ix2 r n) = g n.val)
    (hpa : ∀ i : Fin w, pa (ix2 r i) = pathI g t i.val)
    (j : Fin W) :
    shapeCast ⟨2, ![R, W]⟩ (concatenate ⟨3, ![R, w, 2]⟩ 2
        [⟨⟨3, ![R, w, 1]⟩, broadcastInDim ⟨3, ![R, w, 1]⟩ ![0, 1] hb1
            (mulf (subf (broadcastInDim ⟨2, ![R, w]⟩ ![] hb0 (constant (F := Ideal) ⟨0, ![]⟩ .f32 0x3F800000#32))
              (extractStridedSlice ⟨2, ![R, w]⟩ ![0, o] G hsl)) pa)⟩,
          ⟨⟨3, ![R, w, 1]⟩, broadcastInDim ⟨3, ![R, w, 1]⟩ ![0, 1] hb1
            (mulf (extractStridedSlice ⟨2, ![R, w]⟩ ![0, o] G hsl) pa)⟩] hc) hs (ix2 r j)
      = pathI g (t + 1) j.val := by
  subst ho
  have hj : j.val / 2 < w := by have := j.isLt; omega
  rw [interleave_apply hW _ pa hb0 hb1 hc hs r j ⟨j.val / 2, hj⟩ rfl, slice2_axis1_eq, hG, hpa]
  rfl

end Cert.RefLevel

end
-- ==== Proof.RefRun.lean ====
/-
  THE REFERENCE'S RUN, by segments. The reference program is a straight line of 130 host operations: fifteen that compute
  the gates of a depth-10 soft decision tree and the root's probability, ten groups of ten that each build one level of
  path probabilities from the previous one (the two children of a node side by side), fourteen that take the softmax of
  the leaf logits, and one final contraction. Every level is read twice by the next, so the result written as ONE term of
  the arguments doubles ten times; here the line is cut into thirteen segments, each read over ARBITRARY contents of the
  buffers it starts from, and the segments are chained through the buffers that carry values from one to the next:
  the gate matrix (written once, read by every level), each level's result (read by the next segment), the leaf logits
  (an argument, read by the softmax segment) and the last level (carried past the softmax segment to the contraction).

  * ops, main_eq, scopedRefs_eq, scopedSems_eq, ops_sub: the program is the straight line of its 130 operations;
  * seg0 ... seg12, ops_eq, after_append, after_ops: the line is its thirteen segments end to end, and running it is
    running them in turn;
  * segK_pass, WK_pass: a buffer a segment does not write keeps its contents;
  * seg0_gates, seg0_root, seg1_path ... seg10_path, seg11_dists, seg12_out: what each segment leaves in its result
    buffers, over any starting contents;
  * lev1 ... lev10, out_eq: chained, the result buffer holds the common result G of the four arguments;
  * ref_run, ref_frame: every run of the program ends with the result buffer at G of the launched arguments and the
    arguments unchanged.
-/
import proofs.«120453_j90039694393610_2_alg».proof.Proof.Gen.ReferenceIdeal
import Idealize.ShloMosaic.Lib.StableHlo.Run
import proofs.«120453_j90039694393610_2_alg».proof.Proof.Spec
import proofs.«120453_j90039694393610_2_alg».proof.Proof.RefLevel
import proofs.«120453_j90039694393610_2_alg».proof.Proof.LibDense
import proofs.«120453_j90039694393610_2_alg».proof.Proof.Softmax
import proofs.«120453_j90039694393610_2_alg».proof.Proof.Result

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx Cert.Tree Cert.RefLevel
open scoped BigOperators

variable {F : FTy → Type} [FloatOps F]

/-! ## The program as a straight line -/

/-- @main's 130 operations, in order. -/
abbrev ops : List (HloOp τ sig (Elt F)) :=
  [ unary main_arg1 main_v0 ((transpose S3072x1023 [1, 0] · transposes_S1023x3072_S3072x1023_1_0) : (⟨S1023x3072, .f32⟩ : BufTy).Contents (Elt F) → (⟨S3072x1023, .f32⟩ : BufTy).Contents (Elt F)),
    binary main_arg0 main_v0 main_v1 ((fun l r => Host.dotGeneral dot_S8192x3072_S3072x1023_S8192x1023_1_0_0_1_n_n none l r) : (⟨S8192x3072, .f32⟩ : BufTy).Contents (Elt F) → (⟨S3072x1023, .f32⟩ : BufTy).Contents (Elt F) → (⟨S8192x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S8192x1023 ![0, 1] bcast_S1x1023_S8192x1023_0_1 : (⟨S1x1023, .f32⟩ : BufTy).Contents (Elt F) → (⟨S8192x1023, .f32⟩ : BufTy).Contents (Elt F)),
    binary main_v1 main_v3 main_v4 (addf : (⟨S8192x1023, .f32⟩ : BufTy).Contents (Elt F) → (⟨S8192x1023, .f32⟩ : BufTy).Contents (Elt F) → (⟨S8192x1023, .f32⟩ : BufTy).Contents (Elt F)),
    unary main_v4 main_v5 (Host.negf : (⟨S8192x1023, .f32⟩ : BufTy).Contents (Elt F) → (⟨S8192x1023, .f32⟩ : BufTy).Contents (Elt F)),
    unary main_v5 main_v6 (Host.exp : (⟨S8192x1023, .f32⟩ : BufTy).Contents (Elt F) → (⟨S8192x1023, .f32⟩ : BufTy).Contents (Elt F)),
    nullary main_cst (constant S_ .f32 0x3F800000#32),
    unary main_cst main_v7 (broadcastInDim S8192x1023 ![] bcast_S_S8192x1023 : (⟨S_, .f32⟩ : BufTy).Contents (Elt F) → (⟨S8192x1023, .f32⟩ : BufTy).Contents (Elt F)),
    binary main_v7 main_v6 main_v8 (addf : (⟨S8192x1023, .f32⟩ : BufTy).Contents (Elt F) → (⟨S8192x1023, .f32⟩ : BufTy).Contents (Elt F) → (⟨S8192x1023, .f32⟩ : BufTy).Contents (Elt F)),
    nullary main_cst_0 (constant S_ .f32 0x3F800000#32),
    unary main_cst_0 main_v9 (broadcastInDim S8192x1023 ![] bcast_S_S8192x1023 : (⟨S_, .f32⟩ : BufTy).Contents (Elt F) → (⟨S8192x1023, .f32⟩ : BufTy).Contents (Elt F)),
    binary main_v9 main_v8 main_v10 (Host.divf : (⟨S8192x1023, .f32⟩ : BufTy).Contents (Elt F) → (⟨S8192x1023, .f32⟩ : BufTy).Contents (Elt F) → (⟨S8192x1023, .f32⟩ : BufTy).Contents (Elt F)),
    nullary main_cst_1 (constant S_ .f32 0x3F800000#32),
    unary main_cst_1 main_v11 (broadcastInDim S8192x1 ![] bcast_S_S8192x1 : (⟨S_, .f32⟩ : BufTy).Contents (Elt F) → (⟨S8192x1, .f32⟩ : BufTy).Contents (Elt F)),
    unary main_v10 main_v12 ((extractStridedSlice S8192x1 ![0, 0] · slices_S8192x1023_S8192x1_0_0) : (⟨S8192x1023, .f32⟩ : BufTy).Contents (Elt F) → (⟨S8192x1, .f32⟩ : BufTy).Contents (Elt F)),
    nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    binary main_v13 main_v12 main_v14 (subf : (⟨S8192x1, .f32⟩ : BufTy).Contents (Elt F) → (⟨S8192x1, .f32⟩ : BufTy).Contents (Elt F) → (⟨S8192x1, .f32⟩ : BufTy).Contents (Elt F)),
    binary main_v14 main_v11 main_v15 (mulf : (⟨S8192x1, .f32⟩ : BufTy).Contents (Elt F) → (⟨S8192x1, .f32⟩ : BufTy).Contents (Elt F) → (⟨S8192x1, .f32⟩ : BufTy).Contents (Elt F)),
    binary main_v12 main_v11 main_v16 (mulf : (⟨S8192x1, .f32⟩ : BufTy).Contents (Elt F) → (⟨S8192x1, .f32⟩ : BufTy).Contents (Elt F) → (⟨S8192x1, .f32⟩ : BufTy).Contents (Elt F)),
    unary main_v15 main_v17 (broadcastInDim S8192x1x1 ![0, 1] bcast_S8192x1_S8192x1x1_0_1 : (⟨S8192x1, .f32⟩ : BufTy).Contents (Elt F) → (⟨S8192x1x1, .f32⟩ : BufTy).Contents (Elt F)),
    unary main_v16 main_v18 (broadcastInDim S8192x1x1 ![0, 1] bcast_S8192x1_S8192x1x1_0_1 : (⟨S8192x1, .f32⟩ : BufTy).Contents (Elt F) → (⟨S8192x1x1, .f32⟩ : BufTy).Contents (Elt F)),
    binary main_v17 main_v18 main_v19 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v19 main_v20 rfl shapeCasts_S8192x1x2_S8192x2,
    unary main_v10 main_v21 ((extractStridedSlice S8192x2 ![0, 1] · slices_S8192x1023_S8192x2_0_1) : (⟨S8192x1023, .f32⟩ : BufTy).Contents (Elt F) → (⟨S8192x2, .f32⟩ : BufTy).Contents (Elt F)),
    nullary main_cst_3 (constant S_ .f32 0x3F800000#32),
    unary main_cst_3 main_v22 (broadcastInDim S8192x2 ![] bcast_S_S8192x2 : (⟨S_, .f32⟩ : BufTy).Contents (Elt F) → (⟨S8192x2, .f32⟩ : BufTy).Contents (Elt F)),
    binary main_v22 main_v21 main_v23 (subf : (⟨S8192x2, .f32⟩ : BufTy).Contents (Elt F) → (⟨S8192x2, .f32⟩ : BufTy).Contents (Elt F) → (⟨S8192x2, .f32⟩ : BufTy).Contents (Elt F)),
    binary main_v23 main_v20 main_v24 (mulf : (⟨S8192x2, .f32⟩ : BufTy).Contents (Elt F) → (⟨S8192x2, .f32⟩ : BufTy).Contents (Elt F) → (⟨S8192x2, .f32⟩ : BufTy).Contents (Elt F)),
    binary main_v21 main_v20 main_v25 (mulf : (⟨S8192x2, .f32⟩ : BufTy).Contents (Elt F) → (⟨S8192x2, .f32⟩ : BufTy).Contents (Elt F) → (⟨S8192x2, .f32⟩ : BufTy).Contents (Elt F)),
    unary main_v24 main_v26 (broadcastInDim S8192x2x1 ![0, 1] bcast_S8192x2_S8192x2x1_0_1 : (⟨S8192x2, .f32⟩ : BufTy).Contents (Elt F) → (⟨S8192x2x1, .f32⟩ : BufTy).Contents (Elt F)),
    unary main_v25 main_v27 (broadcastInDim S8192x2x1 ![0, 1] bcast_S8192x2_S8192x2x1_0_1 : (⟨S8192x2, .f32⟩ : BufTy).Contents (Elt F) → (⟨S8192x2x1, .f32⟩ : BufTy).Contents (Elt F)),
    binary main_v26 main_v27 main_v28 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v28 main_v29 rfl shapeCasts_S8192x2x2_S8192x4,
    unary main_v10 main_v30 ((extractStridedSlice S8192x4 ![0, 3] · slices_S8192x1023_S8192x4_0_3) : (⟨S8192x1023, .f32⟩ : BufTy).Contents (Elt F) → (⟨S8192x4, .f32⟩ : BufTy).Contents (Elt F)),
    nullary main_cst_4 (constant S_ .f32 0x3F800000#32),
    unary main_cst_4 main_v31 (broadcastInDim S8192x4 ![] bcast_S_S8192x4 : (⟨S_, .f32⟩ : BufTy).Contents (Elt F) → (⟨S8192x4, .f32⟩ : BufTy).Contents (Elt F)),
    binary main_v31 main_v30 main_v32 (subf : (⟨S8192x4, .f32⟩ : BufTy).Contents (Elt F) → (⟨S8192x4, .f32⟩ : BufTy).Contents (Elt F) → (⟨S8192x4, .f32⟩ : BufTy).Contents (Elt F)),
    binary main_v32 main_v29 main_v33 (mulf : (⟨S8192x4, .f32⟩ : BufTy).Contents (Elt F) → (⟨S8192x4, .f32⟩ : BufTy).Contents (Elt F) → (⟨S8192x4, .f32⟩ : BufTy).Contents (Elt F)),
    binary main_v30 main_v29 main_v34 (mulf : (⟨S8192x4, .f32⟩ : BufTy).Contents (Elt F) → (⟨S8192x4, .f32⟩ : BufTy).Contents (Elt F) → (⟨S8192x4, .f32⟩ : BufTy).Contents (Elt F)),
    unary main_v33 main_v35 (broadcastInDim S8192x4x1 ![0, 1] bcast_S8192x4_S8192x4x1_0_1 : (⟨S8192x4, .f32⟩ : BufTy).Contents (Elt F) → (⟨S8192x4x1, .f32⟩ : BufTy).Contents (Elt F)),
    unary main_v34 main_v36 (broadcastInDim S8192x4x1 ![0, 1] bcast_S8192x4_S8192x4x1_0_1 : (⟨S8192x4, .f32⟩ : BufTy).Contents (Elt F) → (⟨S8192x4x1, .f32⟩ : BufTy).Contents (Elt F)),
    binary main_v35 main_v36 main_v37 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v37 main_v38 rfl shapeCasts_S8192x4x2_S8192x8,
    unary main_v10 main_v39 ((extractStridedSlice S8192x8 ![0, 7] · slices_S8192x1023_S8192x8_0_7) : (⟨S8192x1023, .f32⟩ : BufTy).Contents (Elt F) → (⟨S8192x8, .f32⟩ : BufTy).Contents (Elt F)),
    nullary main_cst_5 (constant S_ .f32 0x3F800000#32),
    unary main_cst_5 main_v40 (broadcastInDim S8192x8 ![] bcast_S_S8192x8 : (⟨S_, .f32⟩ : BufTy).Contents (Elt F) → (⟨S8192x8, .f32⟩ : BufTy).Contents (Elt F)),
    binary main_v40 main_v39 main_v41 (subf : (⟨S8192x8, .f32⟩ : BufTy).Contents (Elt F) → (⟨S8192x8, .f32⟩ : BufTy).Contents (Elt F) → (⟨S8192x8, .f32⟩ : BufTy).Contents (Elt F)),
    binary main_v41 main_v38 main_v42 (mulf : (⟨S8192x8, .f32⟩ : BufTy).Contents (Elt F) → (⟨S8192x8, .f32⟩ : BufTy).Contents (Elt F) → (⟨S8192x8, .f32⟩ : BufTy).Contents (Elt F)),
    binary main_v39 main_v38 main_v43 (mulf : (⟨S8192x8, .f32⟩ : BufTy).Contents (Elt F) → (⟨S8192x8, .f32⟩ : BufTy).Contents (Elt F) → (⟨S8192x8, .f32⟩ : BufTy).Contents (Elt F)),
    unary main_v42 main_v44 (broadcastInDim S8192x8x1 ![0, 1] bcast_S8192x8_S8192x8x1_0_1 : (⟨S8192x8, .f32⟩ : BufTy).Contents (Elt F) → (⟨S8192x8x1, .f32⟩ : BufTy).Contents (Elt F)),
    unary main_v43 main_v45 (broadcastInDim S8192x8x1 ![0, 1] bcast_S8192x8_S8192x8x1_0_1 : (⟨S8192x8, .f32⟩ : BufTy).Contents (Elt F) → (⟨S8192x8x1, .f32⟩ : BufTy).Contents (Elt F)),
    binary main_v44 main_v45 main_v46 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v46 main_v47 rfl shapeCasts_S8192x8x2_S8192x16,
    unary main_v10 main_v48 ((extractStridedSlice S8192x16 ![0, 15] · slices_S8192x1023_S8192x16_0_15) : (⟨S8192x1023, .f32⟩ : BufTy).Contents (Elt F) → (⟨S8192x16, .f32⟩ : BufTy).Contents (Elt F)),
    nullary main_cst_6 (constant S_ .f32 0x3F800000#32),
    unary main_cst_6 main_v49 (broadcastInDim S8192x16 ![] bcast_S_S8192x16 : (⟨S_, .f32⟩ : BufTy).Contents (Elt F) → (⟨S8192x16, .f32⟩ : BufTy).Contents (Elt F)),
    binary main_v49 main_v48 main_v50 (subf : (⟨S8192x16, .f32⟩ : BufTy).Contents (Elt F) → (⟨S8192x16, .f32⟩ : BufTy).Contents (Elt F) → (⟨S8192x16, .f32⟩ : BufTy).Contents (Elt F)),
    binary main_v50 main_v47 main_v51 (mulf : (⟨S8192x16, .f32⟩ : BufTy).Contents (Elt F) → (⟨S8192x16, .f32⟩ : BufTy).Contents (Elt F) → (⟨S8192x16, .f32⟩ : BufTy).Contents (Elt F)),
    binary main_v48 main_v47 main_v52 (mulf : (⟨S8192x16, .f32⟩ : BufTy).Contents (Elt F) → (⟨S8192x16, .f32⟩ : BufTy).Contents (Elt F) → (⟨S8192x16, .f32⟩ : BufTy).Contents (Elt F)),
    unary main_v51 main_v53 (broadcastInDim S8192x16x1 ![0, 1] bcast_S8192x16_S8192x16x1_0_1 : (⟨S8192x16, .f32⟩ : BufTy).Contents (Elt F) → (⟨S8192x16x1, .f32⟩ : BufTy).Contents (Elt F)),
    unary main_v52 main_v54 (broadcastInDim S8192x16x1 ![0, 1] bcast_S8192x16_S8192x16x1_0_1 : (⟨S8192x16, .f32⟩ : BufTy).Contents (Elt F) → (⟨S8192x16x1, .f32⟩ : BufTy).Contents (Elt F)),
    binary main_v53 main_v54 main_v55 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v55 main_v56 rfl shapeCasts_S8192x16x2_S8192x32,
    unary main_v10 main_v57 ((extractStridedSlice S8192x32 ![0, 31] · slices_S8192x1023_S8192x32_0_31) : (⟨S8192x1023, .f32⟩ : BufTy).Contents (Elt F) → (⟨S8192x32, .f32⟩ : BufTy).Contents (Elt F)),
    nullary main_cst_7 (constant S_ .f32 0x3F800000#32),
    unary main_cst_7 main_v58 (broadcastInDim S8192x32 ![] bcast_S_S8192x32 : (⟨S_, .f32⟩ : BufTy).Contents (Elt F) → (⟨S8192x32, .f32⟩ : BufTy).Contents (Elt F)),
    binary main_v58 main_v57 main_v59 (subf : (⟨S8192x32, .f32⟩ : BufTy).Contents (Elt F) → (⟨S8192x32, .f32⟩ : BufTy).Contents (Elt F) → (⟨S8192x32, .f32⟩ : BufTy).Contents (Elt F)),
    binary main_v59 main_v56 main_v60 (mulf : (⟨S8192x32, .f32⟩ : BufTy).Contents (Elt F) → (⟨S8192x32, .f32⟩ : BufTy).Contents (Elt F) → (⟨S8192x32, .f32⟩ : BufTy).Contents (Elt F)),
    binary main_v57 main_v56 main_v61 (mulf : (⟨S8192x32, .f32⟩ : BufTy).Contents (Elt F) → (⟨S8192x32, .f32⟩ : BufTy).Contents (Elt F) → (⟨S8192x32, .f32⟩ : BufTy).Contents (Elt F)),
    unary main_v60 main_v62 (broadcastInDim S8192x32x1 ![0, 1] bcast_S8192x32_S8192x32x1_0_1 : (⟨S8192x32, .f32⟩ : BufTy).Contents (Elt F) → (⟨S8192x32x1, .f32⟩ : BufTy).Contents (Elt F)),
    unary main_v61 main_v63 (broadcastInDim S8192x32x1 ![0, 1] bcast_S8192x32_S8192x32x1_0_1 : (⟨S8192x32, .f32⟩ : BufTy).Contents (Elt F) → (⟨S8192x32x1, .f32⟩ : BufTy).Contents (Elt F)),
    binary main_v62 main_v63 main_v64 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v64 main_v65 rfl shapeCasts_S8192x32x2_S8192x64,
    unary main_v10 main_v66 ((extractStridedSlice S8192x64 ![0, 63] · slices_S8192x1023_S8192x64_0_63) : (⟨S8192x1023, .f32⟩ : BufTy).Contents (Elt F) → (⟨S8192x64, .f32⟩ : BufTy).Contents (Elt F)),
    nullary main_cst_8 (constant S_ .f32 0x3F800000#32),
    unary main_cst_8 main_v67 (broadcastInDim S8192x64 ![] bcast_S_S8192x64 : (⟨S_, .f32⟩ : BufTy).Contents (Elt F) → (⟨S8192x64, .f32⟩ : BufTy).Contents (Elt F)),
    binary main_v67 main_v66 main_v68 (subf : (⟨S8192x64, .f32⟩ : BufTy).Contents (Elt F) → (⟨S8192x64, .f32⟩ : BufTy).Contents (Elt F) → (⟨S8192x64, .f32⟩ : BufTy).Contents (Elt F)),
    binary main_v68 main_v65 main_v69 (mulf : (⟨S8192x64, .f32⟩ : BufTy).Contents (Elt F) → (⟨S8192x64, .f32⟩ : BufTy).Contents (Elt F) → (⟨S8192x64, .f32⟩ : BufTy).Contents (Elt F)),
    binary main_v66 main_v65 main_v70 (mulf : (⟨S8192x64, .f32⟩ : BufTy).Contents (Elt F) → (⟨S8192x64, .f32⟩ : BufTy).Contents (Elt F) → (⟨S8192x64, .f32⟩ : BufTy).Contents (Elt F)),
    unary main_v69 main_v71 (broadcastInDim S8192x64x1 ![0, 1] bcast_S8192x64_S8192x64x1_0_1 : (⟨S8192x64, .f32⟩ : BufTy).Contents (Elt F) → (⟨S8192x64x1, .f32⟩ : BufTy).Contents (Elt F)),
    unary main_v70 main_v72 (broadcastInDim S8192x64x1 ![0, 1] bcast_S8192x64_S8192x64x1_0_1 : (⟨S8192x64, .f32⟩ : BufTy).Contents (Elt F) → (⟨S8192x64x1, .f32⟩ : BufTy).Contents (Elt F)),
    binary main_v71 main_v72 main_v73 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v73 main_v74 rfl shapeCasts_S8192x64x2_S8192x128,
    unary main_v10 main_v75 ((extractStridedSlice S8192x128 ![0, 127] · slices_S8192x1023_S8192x128_0_127) : (⟨S8192x1023, .f32⟩ : BufTy).Contents (Elt F) → (⟨S8192x128, .f32⟩ : BufTy).Contents (Elt F)),
    nullary main_cst_9 (constant S_ .f32 0x3F800000#32),
    unary main_cst_9 main_v76 (broadcastInDim S8192x128 ![] bcast_S_S8192x128 : (⟨S_, .f32⟩ : BufTy).Contents (Elt F) → (⟨S8192x128, .f32⟩ : BufTy).Contents (Elt F)),
    binary main_v76 main_v75 main_v77 (subf : (⟨S8192x128, .f32⟩ : BufTy).Contents (Elt F) → (⟨S8192x128, .f32⟩ : BufTy).Contents (Elt F) → (⟨S8192x128, .f32⟩ : BufTy).Contents (Elt F)),
    binary main_v77 main_v74 main_v78 (mulf : (⟨S8192x128, .f32⟩ : BufTy).Contents (Elt F) → (⟨S8192x128, .f32⟩ : BufTy).Contents (Elt F) → (⟨S8192x128, .f32⟩ : BufTy).Contents (Elt F)),
    binary main_v75 main_v74 main_v79 (mulf : (⟨S8192x128, .f32⟩ : BufTy).Contents (Elt F) → (⟨S8192x128, .f32⟩ : BufTy).Contents (Elt F) → (⟨S8192x128, .f32⟩ : BufTy).Contents (Elt F)),
    unary main_v78 main_v80 (broadcastInDim S8192x128x1 ![0, 1] bcast_S8192x128_S8192x128x1_0_1 : (⟨S8192x128, .f32⟩ : BufTy).Contents (Elt F) → (⟨S8192x128x1, .f32⟩ : BufTy).Contents (Elt F)),
    unary main_v79 main_v81 (broadcastInDim S8192x128x1 ![0, 1] bcast_S8192x128_S8192x128x1_0_1 : (⟨S8192x128, .f32⟩ : BufTy).Contents (Elt F) → (⟨S8192x128x1, .f32⟩ : BufTy).Contents (Elt F)),
    binary main_v80 main_v81 main_v82 ((fun a b => concatenate S8192x128x2 2 [⟨S8192x128x1, a⟩, ⟨S8192x128x1, b⟩] concatenates_S8192x128x1_S8192x128x1_S8192x128x2_d2) : (⟨S8192x128x1, .f32⟩ : BufTy).Contents (Elt F) → (⟨S8192x128x1, .f32⟩ : BufTy).Contents (Elt F) → (⟨S8192x128x2, .f32⟩ : BufTy).Contents (Elt F)),
    reshape main_v82 main_v83 rfl shapeCasts_S8192x128x2_S8192x256,
    unary main_v10 main_v84 ((extractStridedSlice S8192x256 ![0, 255] · slices_S8192x1023_S8192x256_0_255) : (⟨S8192x1023, .f32⟩ : BufTy).Contents (Elt F) → (⟨S8192x256, .f32⟩ : BufTy).Contents (Elt F)),
    nullary main_cst_10 (constant S_ .f32 0x3F800000#32),
    unary main_cst_10 main_v85 (broadcastInDim S8192x256 ![] bcast_S_S8192x256 : (⟨S_, .f32⟩ : BufTy).Contents (Elt F) → (⟨S8192x256, .f32⟩ : BufTy).Contents (Elt F)),
    binary main_v85 main_v84 main_v86 (subf : (⟨S8192x256, .f32⟩ : BufTy).Contents (Elt F) → (⟨S8192x256, .f32⟩ : BufTy).Contents (Elt F) → (⟨S8192x256, .f32⟩ : BufTy).Contents (Elt F)),
    binary main_v86 main_v83 main_v87 (mulf : (⟨S8192x256, .f32⟩ : BufTy).Contents (Elt F) → (⟨S8192x256, .f32⟩ : BufTy).Contents (Elt F) → (⟨S8192x256, .f32⟩ : BufTy).Contents (Elt F)),
    binary main_v84 main_v83 main_v88 (mulf : (⟨S8192x256, .f32⟩ : BufTy).Contents (Elt F) → (⟨S8192x256, .f32⟩ : BufTy).Contents (Elt F) → (⟨S8192x256, .f32⟩ : BufTy).Contents (Elt F)),
    unary main_v87 main_v89 (broadcastInDim S8192x256x1 ![0, 1] bcast_S8192x256_S8192x256x1_0_1 : (⟨S8192x256, .f32⟩ : BufTy).Contents (Elt F) → (⟨S8192x256x1, .f32⟩ : BufTy).Contents (Elt F)),
    unary main_v88 main_v90 (broadcastInDim S8192x256x1 ![0, 1] bcast_S8192x256_S8192x256x1_0_1 : (⟨S8192x256, .f32⟩ : BufTy).Contents (Elt F) → (⟨S8192x256x1, .f32⟩ : BufTy).Contents (Elt F)),
    binary main_v89 main_v90 main_v91 ((fun a b => concatenate S8192x256x2 2 [⟨S8192x256x1, a⟩, ⟨S8192x256x1, b⟩] concatenates_S8192x256x1_S8192x256x1_S8192x256x2_d2) : (⟨S8192x256x1, .f32⟩ : BufTy).Contents (Elt F) → (⟨S8192x256x1, .f32⟩ : BufTy).Contents (Elt F) → (⟨S8192x256x2, .f32⟩ : BufTy).Contents (Elt F)),
    reshape main_v91 main_v92 rfl shapeCasts_S8192x256x2_S8192x512,
    unary main_v10 main_v93 ((extractStridedSlice S8192x512 ![0, 511] · slices_S8192x1023_S8192x512_0_511) : (⟨S8192x1023, .f32⟩ : BufTy).Contents (Elt F) → (⟨S8192x512, .f32⟩ : BufTy).Contents (Elt F)),
    nullary main_cst_11 (constant S_ .f32 0x3F800000#32),
    unary main_cst_11 main_v94 (broadcastInDim S8192x512 ![] bcast_S_S8192x512 : (⟨S_, .f32⟩ : BufTy).Contents (Elt F) → (⟨S8192x512, .f32⟩ : BufTy).Contents (Elt F)),
    binary main_v94 main_v93 main_v95 (subf : (⟨S8192x512, .f32⟩ : BufTy).Contents (Elt F) → (⟨S8192x512, .f32⟩ : BufTy).Contents (Elt F) → (⟨S8192x512, .f32⟩ : BufTy).Contents (Elt F)),
    binary main_v95 main_v92 main_v96 (mulf : (⟨S8192x512, .f32⟩ : BufTy).Contents (Elt F) → (⟨S8192x512, .f32⟩ : BufTy).Contents (Elt F) → (⟨S8192x512, .f32⟩ : BufTy).Contents (Elt F)),
    binary main_v93 main_v92 main_v97 (mulf : (⟨S8192x512, .f32⟩ : BufTy).Contents (Elt F) → (⟨S8192x512, .f32⟩ : BufTy).Contents (Elt F) → (⟨S8192x512, .f32⟩ : BufTy).Contents (Elt F)),
    unary main_v96 main_v98 (broadcastInDim S8192x512x1 ![0, 1] bcast_S8192x512_S8192x512x1_0_1 : (⟨S8192x512, .f32⟩ : BufTy).Contents (Elt F) → (⟨S8192x512x1, .f32⟩ : BufTy).Contents (Elt F)),
    unary main_v97 main_v99 (broadcastInDim S8192x512x1 ![0, 1] bcast_S8192x512_S8192x512x1_0_1 : (⟨S8192x512, .f32⟩ : BufTy).Contents (Elt F) → (⟨S8192x512x1, .f32⟩ : BufTy).Contents (Elt F)),
    binary main_v98 main_v99 main_v100 ((fun a b => concatenate S8192x512x2 2 [⟨S8192x512x1, a⟩, ⟨S8192x512x1, b⟩] concatenates_S8192x512x1_S8192x512x1_S8192x512x2_d2) : (⟨S8192x512x1, .f32⟩ : BufTy).Contents (Elt F) → (⟨S8192x512x1, .f32⟩ : BufTy).Contents (Elt F) → (⟨S8192x512x2, .f32⟩ : BufTy).Contents (Elt F)),
    reshape main_v100 main_v101 rfl shapeCasts_S8192x512x2_S8192x1024,
    nullary main_cst_12 (constant S_ .f32 0xFF800000#32),
    binary main_arg3 main_cst_12 main_v102 ((fun x v => Host.reduce FloatOps.maximumf x v reducesTo_S1024x1000_S1024_d1 h_S_) : (⟨S1024x1000, .f32⟩ : BufTy).Contents (Elt F) → (⟨S_, .f32⟩ : BufTy).Contents (Elt F) → (⟨S1024, .f32⟩ : BufTy).Contents (Elt F)),
    nullary main_cst_13 (constant S_ .f32 0xFF800000#32),
    unary main_cst_13 main_v103 (broadcastInDim S1024 ![] bcast_S_S1024 : (⟨S_, .f32⟩ : BufTy).Contents (Elt F) → (⟨S1024, .f32⟩ : BufTy).Contents (Elt F)),
    binary main_v103 main_v102 main_v104 (maximumf : (⟨S1024, .f32⟩ : BufTy).Contents (Elt F) → (⟨S1024, .f32⟩ : BufTy).Contents (Elt F) → (⟨S1024, .f32⟩ : BufTy).Contents (Elt F)),
    unary main_v104 main_v105 (broadcastInDim S1024x1 ![0] bcast_S1024_S1024x1_0 : (⟨S1024, .f32⟩ : BufTy).Contents (Elt F) → (⟨S1024x1, .f32⟩ : BufTy).Contents (Elt F)),
    unary main_v105 main_v106 (broadcastInDim S1024x1000 ![0, 1] bcast_S1024x1_S1024x1000_0_1 : (⟨S1024x1, .f32⟩ : BufTy).Contents (Elt F) → (⟨S1024x1000, .f32⟩ : BufTy).Contents (Elt F)),
    binary main_arg3 main_v106 main_v107 (subf : (⟨S1024x1000, .f32⟩ : BufTy).Contents (Elt F) → (⟨S1024x1000, .f32⟩ : BufTy).Contents (Elt F) → (⟨S1024x1000, .f32⟩ : BufTy).Contents (Elt F)),
    unary main_v107 main_v108 (Host.exp : (⟨S1024x1000, .f32⟩ : BufTy).Contents (Elt F) → (⟨S1024x1000, .f32⟩ : BufTy).Contents (Elt F)),
    nullary main_cst_14 (constant S_ .f32 0x00000000#32),
    binary main_v108 main_cst_14 main_v109 ((fun x v => Host.reduceAdd x v reducesTo_S1024x1000_S1024_d1 h_S_) : (⟨S1024x1000, .f32⟩ : BufTy).Contents (Elt F) → (⟨S_, .f32⟩ : BufTy).Contents (Elt F) → (⟨S1024, .f32⟩ : BufTy).Contents (Elt F)),
    unary main_v109 main_v110 (broadcastInDim S1024x1 ![0] bcast_S1024_S1024x1_0 : (⟨S1024, .f32⟩ : BufTy).Contents (Elt F) → (⟨S1024x1, .f32⟩ : BufTy).Contents (Elt F)),
    unary main_v110 main_v111 (broadcastInDim S1024x1000 ![0, 1] bcast_S1024x1_S1024x1000_0_1 : (⟨S1024x1, .f32⟩ : BufTy).Contents (Elt F) → (⟨S1024x1000, .f32⟩ : BufTy).Contents (Elt F)),
    binary main_v108 main_v111 main_v112 (Host.divf : (⟨S1024x1000, .f32⟩ : BufTy).Contents (Elt F) → (⟨S1024x1000, .f32⟩ : BufTy).Contents (Elt F) → (⟨S1024x1000, .f32⟩ : BufTy).Contents (Elt F)),
    binary main_v101 main_v112 main_v113 ((fun l r => Host.dotGeneral dot_S8192x1024_S1024x1000_S8192x1000_1_0_0_1_n_n none l r) : (⟨S8192x1024, .f32⟩ : BufTy).Contents (Elt F) → (⟨S1024x1000, .f32⟩ : BufTy).Contents (Elt F) → (⟨S8192x1000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., unary_bufs_sub .., nullary_bufs_sub .., unary_bufs_sub .., binary_bufs_sub .., binary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-! ## The thirteen segments -/

/-- The gates and the root: operations 1 to 15 (the transposed weights, the contraction, the bias, the logistic, and the constant one of level 0). -/
abbrev seg0 : List (HloOp τ sig (Elt F)) :=
  [ unary main_arg1 main_v0 ((transpose S3072x1023 [1, 0] · transposes_S1023x3072_S3072x1023_1_0) : (⟨S1023x3072, .f32⟩ : BufTy).Contents (Elt F) → (⟨S3072x1023, .f32⟩ : BufTy).Contents (Elt F)),
    binary main_arg0 main_v0 main_v1 ((fun l r => Host.dotGeneral dot_S8192x3072_S3072x1023_S8192x1023_1_0_0_1_n_n none l r) : (⟨S8192x3072, .f32⟩ : BufTy).Contents (Elt F) → (⟨S3072x1023, .f32⟩ : BufTy).Contents (Elt F) → (⟨S8192x1023, .f32⟩ : BufTy).Contents (Elt F)),
    unary main_arg2 main_v2 (broadcastInDim S1x1023 ![1] bcast_S1023_S1x1023_1 : (⟨S1023, .f32⟩ : BufTy).Contents (Elt F) → (⟨S1x1023, .f32⟩ : BufTy).Contents (Elt F)),
    unary main_v2 main_v3 (broadcastInDim S8192x1023 ![0, 1] bcast_S1x1023_S8192x1023_0_1 : (⟨S1x1023, .f32⟩ : BufTy).Contents (Elt F) → (⟨S8192x1023, .f32⟩ : BufTy).Contents (Elt F)),
    binary main_v1 main_v3 main_v4 (addf : (⟨S8192x1023, .f32⟩ : BufTy).Contents (Elt F) → (⟨S8192x1023, .f32⟩ : BufTy).Contents (Elt F) → (⟨S8192x1023, .f32⟩ : BufTy).Contents (Elt F)),
    unary main_v4 main_v5 (Host.negf : (⟨S8192x1023, .f32⟩ : BufTy).Contents (Elt F) → (⟨S8192x1023, .f32⟩ : BufTy).Contents (Elt F)),
    unary main_v5 main_v6 (Host.exp : (⟨S8192x1023, .f32⟩ : BufTy).Contents (Elt F) → (⟨S8192x1023, .f32⟩ : BufTy).Contents (Elt F)),
    nullary main_cst (constant S_ .f32 0x3F800000#32),
    unary main_cst main_v7 (broadcastInDim S8192x1023 ![] bcast_S_S8192x1023 : (⟨S_, .f32⟩ : BufTy).Contents (Elt F) → (⟨S8192x1023, .f32⟩ : BufTy).Contents (Elt F)),
    binary main_v7 main_v6 main_v8 (addf : (⟨S8192x1023, .f32⟩ : BufTy).Contents (Elt F) → (⟨S8192x1023, .f32⟩ : BufTy).Contents (Elt F) → (⟨S8192x1023, .f32⟩ : BufTy).Contents (Elt F)),
    nullary main_cst_0 (constant S_ .f32 0x3F800000#32),
    unary main_cst_0 main_v9 (broadcastInDim S8192x1023 ![] bcast_S_S8192x1023 : (⟨S_, .f32⟩ : BufTy).Contents (Elt F) → (⟨S8192x1023, .f32⟩ : BufTy).Contents (Elt F)),
    binary main_v9 main_v8 main_v10 (Host.divf : (⟨S8192x1023, .f32⟩ : BufTy).Contents (Elt F) → (⟨S8192x1023, .f32⟩ : BufTy).Contents (Elt F) → (⟨S8192x1023, .f32⟩ : BufTy).Contents (Elt F)),
    nullary main_cst_1 (constant S_ .f32 0x3F800000#32),
    unary main_cst_1 main_v11 (broadcastInDim S8192x1 ![] bcast_S_S8192x1 : (⟨S_, .f32⟩ : BufTy).Contents (Elt F) → (⟨S8192x1, .f32⟩ : BufTy).Contents (Elt F)) ]

/-- Level 1: the slice of the gate matrix at offset 0, one minus it, the two products with level 0, and their interleaving. -/
abbrev seg1 : List (HloOp τ sig (Elt F)) :=
  [ unary main_v10 main_v12 ((extractStridedSlice S8192x1 ![0, 0] · slices_S8192x1023_S8192x1_0_0) : (⟨S8192x1023, .f32⟩ : BufTy).Contents (Elt F) → (⟨S8192x1, .f32⟩ : BufTy).Contents (Elt F)),
    nullary main_cst_2 (constant S_ .f32 0x3F800000#32),
    unary main_cst_2 main_v13 (broadcastInDim S8192x1 ![] bcast_S_S8192x1 : (⟨S_, .f32⟩ : BufTy).Contents (Elt F) → (⟨S8192x1, .f32⟩ : BufTy).Contents (Elt F)),
    binary main_v13 main_v12 main_v14 (subf : (⟨S8192x1, .f32⟩ : BufTy).Contents (Elt F) → (⟨S8192x1, .f32⟩ : BufTy).Contents (Elt F) → (⟨S8192x1, .f32⟩ : BufTy).Contents (Elt F)),
    binary main_v14 main_v11 main_v15 (mulf : (⟨S8192x1, .f32⟩ : BufTy).Contents (Elt F) → (⟨S8192x1, .f32⟩ : BufTy).Contents (Elt F) → (⟨S8192x1, .f32⟩ : BufTy).Contents (Elt F)),
    binary main_v12 main_v11 main_v16 (mulf : (⟨S8192x1, .f32⟩ : BufTy).Contents (Elt F) → (⟨S8192x1, .f32⟩ : BufTy).Contents (Elt F) → (⟨S8192x1, .f32⟩ : BufTy).Contents (Elt F)),
    unary main_v15 main_v17 (broadcastInDim S8192x1x1 ![0, 1] bcast_S8192x1_S8192x1x1_0_1 : (⟨S8192x1, .f32⟩ : BufTy).Contents (Elt F) → (⟨S8192x1x1, .f32⟩ : BufTy).Contents (Elt F)),
    unary main_v16 main_v18 (broadcastInDim S8192x1x1 ![0, 1] bcast_S8192x1_S8192x1x1_0_1 : (⟨S8192x1, .f32⟩ : BufTy).Contents (Elt F) → (⟨S8192x1x1, .f32⟩ : BufTy).Contents (Elt F)),
    binary main_v17 main_v18 main_v19 ((fun a b => concatenate S8192x1x2 2 [⟨S8192x1x1, a⟩, ⟨S8192x1x1, b⟩] concatenates_S8192x1x1_S8192x1x1_S8192x1x2_d2) : (⟨S8192x1x1, .f32⟩ : BufTy).Contents (Elt F) → (⟨S8192x1x1, .f32⟩ : BufTy).Contents (Elt F) → (⟨S8192x1x2, .f32⟩ : BufTy).Contents (Elt F)),
    reshape main_v19 main_v20 rfl shapeCasts_S8192x1x2_S8192x2 ]

/-- Level 2: the slice of the gate matrix at offset 1, one minus it, the two products with level 1, and their interleaving. -/
abbrev seg2 : List (HloOp τ sig (Elt F)) :=
  [ unary main_v10 main_v21 ((extractStridedSlice S8192x2 ![0, 1] · slices_S8192x1023_S8192x2_0_1) : (⟨S8192x1023, .f32⟩ : BufTy).Contents (Elt F) → (⟨S8192x2, .f32⟩ : BufTy).Contents (Elt F)),
    nullary main_cst_3 (constant S_ .f32 0x3F800000#32),
    unary main_cst_3 main_v22 (broadcastInDim S8192x2 ![] bcast_S_S8192x2 : (⟨S_, .f32⟩ : BufTy).Contents (Elt F) → (⟨S8192x2, .f32⟩ : BufTy).Contents (Elt F)),
    binary main_v22 main_v21 main_v23 (subf : (⟨S8192x2, .f32⟩ : BufTy).Contents (Elt F) → (⟨S8192x2, .f32⟩ : BufTy).Contents (Elt F) → (⟨S8192x2, .f32⟩ : BufTy).Contents (Elt F)),
    binary main_v23 main_v20 main_v24 (mulf : (⟨S8192x2, .f32⟩ : BufTy).Contents (Elt F) → (⟨S8192x2, .f32⟩ : BufTy).Contents (Elt F) → (⟨S8192x2, .f32⟩ : BufTy).Contents (Elt F)),
    binary main_v21 main_v20 main_v25 (mulf : (⟨S8192x2, .f32⟩ : BufTy).Contents (Elt F) → (⟨S8192x2, .f32⟩ : BufTy).Contents (Elt F) → (⟨S8192x2, .f32⟩ : BufTy).Contents (Elt F)),
    unary main_v24 main_v26 (broadcastInDim S8192x2x1 ![0, 1] bcast_S8192x2_S8192x2x1_0_1 : (⟨S8192x2, .f32⟩ : BufTy).Contents (Elt F) → (⟨S8192x2x1, .f32⟩ : BufTy).Contents (Elt F)),
    unary main_v25 main_v27 (broadcastInDim S8192x2x1 ![0, 1] bcast_S8192x2_S8192x2x1_0_1 : (⟨S8192x2, .f32⟩ : BufTy).Contents (Elt F) → (⟨S8192x2x1, .f32⟩ : BufTy).Contents (Elt F)),
    binary main_v26 main_v27 main_v28 ((fun a b => concatenate S8192x2x2 2 [⟨S8192x2x1, a⟩, ⟨S8192x2x1, b⟩] concatenates_S8192x2x1_S8192x2x1_S8192x2x2_d2) : (⟨S8192x2x1, .f32⟩ : BufTy).Contents (Elt F) → (⟨S8192x2x1, .f32⟩ : BufTy).Contents (Elt F) → (⟨S8192x2x2, .f32⟩ : BufTy).Contents (Elt F)),
    reshape main_v28 main_v29 rfl shapeCasts_S8192x2x2_S8192x4 ]

/-- Level 3: the slice of the gate matrix at offset 3, one minus it, the two products with level 2, and their interleaving. -/
abbrev seg3 : List (HloOp τ sig (Elt F)) :=
  [ unary main_v10 main_v30 ((extractStridedSlice S8192x4 ![0, 3] · slices_S8192x1023_S8192x4_0_3) : (⟨S8192x1023, .f32⟩ : BufTy).Contents (Elt F) → (⟨S8192x4, .f32⟩ : BufTy).Contents (Elt F)),
    nullary main_cst_4 (constant S_ .f32 0x3F800000#32),
    unary main_cst_4 main_v31 (broadcastInDim S8192x4 ![] bcast_S_S8192x4 : (⟨S_, .f32⟩ : BufTy).Contents (Elt F) → (⟨S8192x4, .f32⟩ : BufTy).Contents (Elt F)),
    binary main_v31 main_v30 main_v32 (subf : (⟨S8192x4, .f32⟩ : BufTy).Contents (Elt F) → (⟨S8192x4, .f32⟩ : BufTy).Contents (Elt F) → (⟨S8192x4, .f32⟩ : BufTy).Contents (Elt F)),
    binary main_v32 main_v29 main_v33 (mulf : (⟨S8192x4, .f32⟩ : BufTy).Contents (Elt F) → (⟨S8192x4, .f32⟩ : BufTy).Contents (Elt F) → (⟨S8192x4, .f32⟩ : BufTy).Contents (Elt F)),
    binary main_v30 main_v29 main_v34 (mulf : (⟨S8192x4, .f32⟩ : BufTy).Contents (Elt F) → (⟨S8192x4, .f32⟩ : BufTy).Contents (Elt F) → (⟨S8192x4, .f32⟩ : BufTy).Contents (Elt F)),
    unary main_v33 main_v35 (broadcastInDim S8192x4x1 ![0, 1] bcast_S8192x4_S8192x4x1_0_1 : (⟨S8192x4, .f32⟩ : BufTy).Contents (Elt F) → (⟨S8192x4x1, .f32⟩ : BufTy).Contents (Elt F)),
    unary main_v34 main_v36 (broadcastInDim S8192x4x1 ![0, 1] bcast_S8192x4_S8192x4x1_0_1 : (⟨S8192x4, .f32⟩ : BufTy).Contents (Elt F) → (⟨S8192x4x1, .f32⟩ : BufTy).Contents (Elt F)),
    binary main_v35 main_v36 main_v37 ((fun a b => concatenate S8192x4x2 2 [⟨S8192x4x1, a⟩, ⟨S8192x4x1, b⟩] concatenates_S8192x4x1_S8192x4x1_S8192x4x2_d2) : (⟨S8192x4x1, .f32⟩ : BufTy).Contents (Elt F) → (⟨S8192x4x1, .f32⟩ : BufTy).Contents (Elt F) → (⟨S8192x4x2, .f32⟩ : BufTy).Contents (Elt F)),
    reshape main_v37 main_v38 rfl shapeCasts_S8192x4x2_S8192x8 ]

/-- Level 4: the slice of the gate matrix at offset 7, one minus it, the two products with level 3, and their interleaving. -/
abbrev seg4 : List (HloOp τ sig (Elt F)) :=
  [ unary main_v10 main_v39 ((extractStridedSlice S8192x8 ![0, 7] · slices_S8192x1023_S8192x8_0_7) : (⟨S8192x1023, .f32⟩ : BufTy).Contents (Elt F) → (⟨S8192x8, .f32⟩ : BufTy).Contents (Elt F)),
    nullary main_cst_5 (constant S_ .f32 0x3F800000#32),
    unary main_cst_5 main_v40 (broadcastInDim S8192x8 ![] bcast_S_S8192x8 : (⟨S_, .f32⟩ : BufTy).Contents (Elt F) → (⟨S8192x8, .f32⟩ : BufTy).Contents (Elt F)),
    binary main_v40 main_v39 main_v41 (subf : (⟨S8192x8, .f32⟩ : BufTy).Contents (Elt F) → (⟨S8192x8, .f32⟩ : BufTy).Contents (Elt F) → (⟨S8192x8, .f32⟩ : BufTy).Contents (Elt F)),
    binary main_v41 main_v38 main_v42 (mulf : (⟨S8192x8, .f32⟩ : BufTy).Contents (Elt F) → (⟨S8192x8, .f32⟩ : BufTy).Contents (Elt F) → (⟨S8192x8, .f32⟩ : BufTy).Contents (Elt F)),
    binary main_v39 main_v38 main_v43 (mulf : (⟨S8192x8, .f32⟩ : BufTy).Contents (Elt F) → (⟨S8192x8, .f32⟩ : BufTy).Contents (Elt F) → (⟨S8192x8, .f32⟩ : BufTy).Contents (Elt F)),
    unary main_v42 main_v44 (broadcastInDim S8192x8x1 ![0, 1] bcast_S8192x8_S8192x8x1_0_1 : (⟨S8192x8, .f32⟩ : BufTy).Contents (Elt F) → (⟨S8192x8x1, .f32⟩ : BufTy).Contents (Elt F)),
    unary main_v43 main_v45 (broadcastInDim S8192x8x1 ![0, 1] bcast_S8192x8_S8192x8x1_0_1 : (⟨S8192x8, .f32⟩ : BufTy).Contents (Elt F) → (⟨S8192x8x1, .f32⟩ : BufTy).Contents (Elt F)),
    binary main_v44 main_v45 main_v46 ((fun a b => concatenate S8192x8x2 2 [⟨S8192x8x1, a⟩, ⟨S8192x8x1, b⟩] concatenates_S8192x8x1_S8192x8x1_S8192x8x2_d2) : (⟨S8192x8x1, .f32⟩ : BufTy).Contents (Elt F) → (⟨S8192x8x1, .f32⟩ : BufTy).Contents (Elt F) → (⟨S8192x8x2, .f32⟩ : BufTy).Contents (Elt F)),
    reshape main_v46 main_v47 rfl shapeCasts_S8192x8x2_S8192x16 ]

/-- Level 5: the slice of the gate matrix at offset 15, one minus it, the two products with level 4, and their interleaving. -/
abbrev seg5 : List (HloOp τ sig (Elt F)) :=
  [ unary main_v10 main_v48 ((extractStridedSlice S8192x16 ![0, 15] · slices_S8192x1023_S8192x16_0_15) : (⟨S8192x1023, .f32⟩ : BufTy).Contents (Elt F) → (⟨S8192x16, .f32⟩ : BufTy).Contents (Elt F)),
    nullary main_cst_6 (constant S_ .f32 0x3F800000#32),
    unary main_cst_6 main_v49 (broadcastInDim S8192x16 ![] bcast_S_S8192x16 : (⟨S_, .f32⟩ : BufTy).Contents (Elt F) → (⟨S8192x16, .f32⟩ : BufTy).Contents (Elt F)),
    binary main_v49 main_v48 main_v50 (subf : (⟨S8192x16, .f32⟩ : BufTy).Contents (Elt F) → (⟨S8192x16, .f32⟩ : BufTy).Contents (Elt F) → (⟨S8192x16, .f32⟩ : BufTy).Contents (Elt F)),
    binary main_v50 main_v47 main_v51 (mulf : (⟨S8192x16, .f32⟩ : BufTy).Contents (Elt F) → (⟨S8192x16, .f32⟩ : BufTy).Contents (Elt F) → (⟨S8192x16, .f32⟩ : BufTy).Contents (Elt F)),
    binary main_v48 main_v47 main_v52 (mulf : (⟨S8192x16, .f32⟩ : BufTy).Contents (Elt F) → (⟨S8192x16, .f32⟩ : BufTy).Contents (Elt F) → (⟨S8192x16, .f32⟩ : BufTy).Contents (Elt F)),
    unary main_v51 main_v53 (broadcastInDim S8192x16x1 ![0, 1] bcast_S8192x16_S8192x16x1_0_1 : (⟨S8192x16, .f32⟩ : BufTy).Contents (Elt F) → (⟨S8192x16x1, .f32⟩ : BufTy).Contents (Elt F)),
    unary main_v52 main_v54 (broadcastInDim S8192x16x1 ![0, 1] bcast_S8192x16_S8192x16x1_0_1 : (⟨S8192x16, .f32⟩ : BufTy).Contents (Elt F) → (⟨S8192x16x1, .f32⟩ : BufTy).Contents (Elt F)),
    binary main_v53 main_v54 main_v55 ((fun a b => concatenate S8192x16x2 2 [⟨S8192x16x1, a⟩, ⟨S8192x16x1, b⟩] concatenates_S8192x16x1_S8192x16x1_S8192x16x2_d2) : (⟨S8192x16x1, .f32⟩ : BufTy).Contents (Elt F) → (⟨S8192x16x1, .f32⟩ : BufTy).Contents (Elt F) → (⟨S8192x16x2, .f32⟩ : BufTy).Contents (Elt F)),
    reshape main_v55 main_v56 rfl shapeCasts_S8192x16x2_S8192x32 ]

/-- Level 6: the slice of the gate matrix at offset 31, one minus it, the two products with level 5, and their interleaving. -/
abbrev seg6 : List (HloOp τ sig (Elt F)) :=
  [ unary main_v10 main_v57 ((extractStridedSlice S8192x32 ![0, 31] · slices_S8192x1023_S8192x32_0_31) : (⟨S8192x1023, .f32⟩ : BufTy).Contents (Elt F) → (⟨S8192x32, .f32⟩ : BufTy).Contents (Elt F)),
    nullary main_cst_7 (constant S_ .f32 0x3F800000#32),
    unary main_cst_7 main_v58 (broadcastInDim S8192x32 ![] bcast_S_S8192x32 : (⟨S_, .f32⟩ : BufTy).Contents (Elt F) → (⟨S8192x32, .f32⟩ : BufTy).Contents (Elt F)),
    binary main_v58 main_v57 main_v59 (subf : (⟨S8192x32, .f32⟩ : BufTy).Contents (Elt F) → (⟨S8192x32, .f32⟩ : BufTy).Contents (Elt F) → (⟨S8192x32, .f32⟩ : BufTy).Contents (Elt F)),
    binary main_v59 main_v56 main_v60 (mulf : (⟨S8192x32, .f32⟩ : BufTy).Contents (Elt F) → (⟨S8192x32, .f32⟩ : BufTy).Contents (Elt F) → (⟨S8192x32, .f32⟩ : BufTy).Contents (Elt F)),
    binary main_v57 main_v56 main_v61 (mulf : (⟨S8192x32, .f32⟩ : BufTy).Contents (Elt F) → (⟨S8192x32, .f32⟩ : BufTy).Contents (Elt F) → (⟨S8192x32, .f32⟩ : BufTy).Contents (Elt F)),
    unary main_v60 main_v62 (broadcastInDim S8192x32x1 ![0, 1] bcast_S8192x32_S8192x32x1_0_1 : (⟨S8192x32, .f32⟩ : BufTy).Contents (Elt F) → (⟨S8192x32x1, .f32⟩ : BufTy).Contents (Elt F)),
    unary main_v61 main_v63 (broadcastInDim S8192x32x1 ![0, 1] bcast_S8192x32_S8192x32x1_0_1 : (⟨S8192x32, .f32⟩ : BufTy).Contents (Elt F) → (⟨S8192x32x1, .f32⟩ : BufTy).Contents (Elt F)),
    binary main_v62 main_v63 main_v64 ((fun a b => concatenate S8192x32x2 2 [⟨S8192x32x1, a⟩, ⟨S8192x32x1, b⟩] concatenates_S8192x32x1_S8192x32x1_S8192x32x2_d2) : (⟨S8192x32x1, .f32⟩ : BufTy).Contents (Elt F) → (⟨S8192x32x1, .f32⟩ : BufTy).Contents (Elt F) → (⟨S8192x32x2, .f32⟩ : BufTy).Contents (Elt F)),
    reshape main_v64 main_v65 rfl shapeCasts_S8192x32x2_S8192x64 ]

/-- Level 7: the slice of the gate matrix at offset 63, one minus it, the two products with level 6, and their interleaving. -/
abbrev seg7 : List (HloOp τ sig (Elt F)) :=
  [ unary main_v10 main_v66 ((extractStridedSlice S8192x64 ![0, 63] · slices_S8192x1023_S8192x64_0_63) : (⟨S8192x1023, .f32⟩ : BufTy).Contents (Elt F) → (⟨S8192x64, .f32⟩ : BufTy).Contents (Elt F)),
    nullary main_cst_8 (constant S_ .f32 0x3F800000#32),
    unary main_cst_8 main_v67 (broadcastInDim S8192x64 ![] bcast_S_S8192x64 : (⟨S_, .f32⟩ : BufTy).Contents (Elt F) → (⟨S8192x64, .f32⟩ : BufTy).Contents (Elt F)),
    binary main_v67 main_v66 main_v68 (subf : (⟨S8192x64, .f32⟩ : BufTy).Contents (Elt F) → (⟨S8192x64, .f32⟩ : BufTy).Contents (Elt F) → (⟨S8192x64, .f32⟩ : BufTy).Contents (Elt F)),
    binary main_v68 main_v65 main_v69 (mulf : (⟨S8192x64, .f32⟩ : BufTy).Contents (Elt F) → (⟨S8192x64, .f32⟩ : BufTy).Contents (Elt F) → (⟨S8192x64, .f32⟩ : BufTy).Contents (Elt F)),
    binary main_v66 main_v65 main_v70 (mulf : (⟨S8192x64, .f32⟩ : BufTy).Contents (Elt F) → (⟨S8192x64, .f32⟩ : BufTy).Contents (Elt F) → (⟨S8192x64, .f32⟩ : BufTy).Contents (Elt F)),
    unary main_v69 main_v71 (broadcastInDim S8192x64x1 ![0, 1] bcast_S8192x64_S8192x64x1_0_1 : (⟨S8192x64, .f32⟩ : BufTy).Contents (Elt F) → (⟨S8192x64x1, .f32⟩ : BufTy).Contents (Elt F)),
    unary main_v70 main_v72 (broadcastInDim S8192x64x1 ![0, 1] bcast_S8192x64_S8192x64x1_0_1 : (⟨S8192x64, .f32⟩ : BufTy).Contents (Elt F) → (⟨S8192x64x1, .f32⟩ : BufTy).Contents (Elt F)),
    binary main_v71 main_v72 main_v73 ((fun a b => concatenate S8192x64x2 2 [⟨S8192x64x1, a⟩, ⟨S8192x64x1, b⟩] concatenates_S8192x64x1_S8192x64x1_S8192x64x2_d2) : (⟨S8192x64x1, .f32⟩ : BufTy).Contents (Elt F) → (⟨S8192x64x1, .f32⟩ : BufTy).Contents (Elt F) → (⟨S8192x64x2, .f32⟩ : BufTy).Contents (Elt F)),
    reshape main_v73 main_v74 rfl shapeCasts_S8192x64x2_S8192x128 ]

/-- Level 8: the slice of the gate matrix at offset 127, one minus it, the two products with level 7, and their interleaving. -/
abbrev seg8 : List (HloOp τ sig (Elt F)) :=
  [ unary main_v10 main_v75 ((extractStridedSlice S8192x128 ![0, 127] · slices_S8192x1023_S8192x128_0_127) : (⟨S8192x1023, .f32⟩ : BufTy).Contents (Elt F) → (⟨S8192x128, .f32⟩ : BufTy).Contents (Elt F)),
    nullary main_cst_9 (constant S_ .f32 0x3F800000#32),
    unary main_cst_9 main_v76 (broadcastInDim S8192x128 ![] bcast_S_S8192x128 : (⟨S_, .f32⟩ : BufTy).Contents (Elt F) → (⟨S8192x128, .f32⟩ : BufTy).Contents (Elt F)),
    binary main_v76 main_v75 main_v77 (subf : (⟨S8192x128, .f32⟩ : BufTy).Contents (Elt F) → (⟨S8192x128, .f32⟩ : BufTy).Contents (Elt F) → (⟨S8192x128, .f32⟩ : BufTy).Contents (Elt F)),
    binary main_v77 main_v74 main_v78 (mulf : (⟨S8192x128, .f32⟩ : BufTy).Contents (Elt F) → (⟨S8192x128, .f32⟩ : BufTy).Contents (Elt F) → (⟨S8192x128, .f32⟩ : BufTy).Contents (Elt F)),
    binary main_v75 main_v74 main_v79 (mulf : (⟨S8192x128, .f32⟩ : BufTy).Contents (Elt F) → (⟨S8192x128, .f32⟩ : BufTy).Contents (Elt F) → (⟨S8192x128, .f32⟩ : BufTy).Contents (Elt F)),
    unary main_v78 main_v80 (broadcastInDim S8192x128x1 ![0, 1] bcast_S8192x128_S8192x128x1_0_1 : (⟨S8192x128, .f32⟩ : BufTy).Contents (Elt F) → (⟨S8192x128x1, .f32⟩ : BufTy).Contents (Elt F)),
    unary main_v79 main_v81 (broadcastInDim S8192x128x1 ![0, 1] bcast_S8192x128_S8192x128x1_0_1 : (⟨S8192x128, .f32⟩ : BufTy).Contents (Elt F) → (⟨S8192x128x1, .f32⟩ : BufTy).Contents (Elt F)),
    binary main_v80 main_v81 main_v82 ((fun a b => concatenate S8192x128x2 2 [⟨S8192x128x1, a⟩, ⟨S8192x128x1, b⟩] concatenates_S8192x128x1_S8192x128x1_S8192x128x2_d2) : (⟨S8192x128x1, .f32⟩ : BufTy).Contents (Elt F) → (⟨S8192x128x1, .f32⟩ : BufTy).Contents (Elt F) → (⟨S8192x128x2, .f32⟩ : BufTy).Contents (Elt F)),
    reshape main_v82 main_v83 rfl shapeCasts_S8192x128x2_S8192x256 ]

/-- Level 9: the slice of the gate matrix at offset 255, one minus it, the two products with level 8, and their interleaving. -/
abbrev seg9 : List (HloOp τ sig (Elt F)) :=
  [ unary main_v10 main_v84 ((extractStridedSlice S8192x256 ![0, 255] · slices_S8192x1023_S8192x256_0_255) : (⟨S8192x1023, .f32⟩ : BufTy).Contents (Elt F) → (⟨S8192x256, .f32⟩ : BufTy).Contents (Elt F)),
    nullary main_cst_10 (constant S_ .f32 0x3F800000#32),
    unary main_cst_10 main_v85 (broadcastInDim S8192x256 ![] bcast_S_S8192x256 : (⟨S_, .f32⟩ : BufTy).Contents (Elt F) → (⟨S8192x256, .f32⟩ : BufTy).Contents (Elt F)),
    binary main_v85 main_v84 main_v86 (subf : (⟨S8192x256, .f32⟩ : BufTy).Contents (Elt F) → (⟨S8192x256, .f32⟩ : BufTy).Contents (Elt F) → (⟨S8192x256, .f32⟩ : BufTy).Contents (Elt F)),
    binary main_v86 main_v83 main_v87 (mulf : (⟨S8192x256, .f32⟩ : BufTy).Contents (Elt F) → (⟨S8192x256, .f32⟩ : BufTy).Contents (Elt F) → (⟨S8192x256, .f32⟩ : BufTy).Contents (Elt F)),
    binary main_v84 main_v83 main_v88 (mulf : (⟨S8192x256, .f32⟩ : BufTy).Contents (Elt F) → (⟨S8192x256, .f32⟩ : BufTy).Contents (Elt F) → (⟨S8192x256, .f32⟩ : BufTy).Contents (Elt F)),
    unary main_v87 main_v89 (broadcastInDim S8192x256x1 ![0, 1] bcast_S8192x256_S8192x256x1_0_1 : (⟨S8192x256, .f32⟩ : BufTy).Contents (Elt F) → (⟨S8192x256x1, .f32⟩ : BufTy).Contents (Elt F)),
    unary main_v88 main_v90 (broadcastInDim S8192x256x1 ![0, 1] bcast_S8192x256_S8192x256x1_0_1 : (⟨S8192x256, .f32⟩ : BufTy).Contents (Elt F) → (⟨S8192x256x1, .f32⟩ : BufTy).Contents (Elt F)),
    binary main_v89 main_v90 main_v91 ((fun a b => concatenate S8192x256x2 2 [⟨S8192x256x1, a⟩, ⟨S8192x256x1, b⟩] concatenates_S8192x256x1_S8192x256x1_S8192x256x2_d2) : (⟨S8192x256x1, .f32⟩ : BufTy).Contents (Elt F) → (⟨S8192x256x1, .f32⟩ : BufTy).Contents (Elt F) → (⟨S8192x256x2, .f32⟩ : BufTy).Contents (Elt F)),
    reshape main_v91 main_v92 rfl shapeCasts_S8192x256x2_S8192x512 ]

/-- Level 10: the slice of the gate matrix at offset 511, one minus it, the two products with level 9, and their interleaving. -/
abbrev seg10 : List (HloOp τ sig (Elt F)) :=
  [ unary main_v10 main_v93 ((extractStridedSlice S8192x512 ![0, 511] · slices_S8192x1023_S8192x512_0_511) : (⟨S8192x1023, .f32⟩ : BufTy).Contents (Elt F) → (⟨S8192x512, .f32⟩ : BufTy).Contents (Elt F)),
    nullary main_cst_11 (constant S_ .f32 0x3F800000#32),
    unary main_cst_11 main_v94 (broadcastInDim S8192x512 ![] bcast_S_S8192x512 : (⟨S_, .f32⟩ : BufTy).Contents (Elt F) → (⟨S8192x512, .f32⟩ : BufTy).Contents (Elt F)),
    binary main_v94 main_v93 main_v95 (subf : (⟨S8192x512, .f32⟩ : BufTy).Contents (Elt F) → (⟨S8192x512, .f32⟩ : BufTy).Contents (Elt F) → (⟨S8192x512, .f32⟩ : BufTy).Contents (Elt F)),
    binary main_v95 main_v92 main_v96 (mulf : (⟨S8192x512, .f32⟩ : BufTy).Contents (Elt F) → (⟨S8192x512, .f32⟩ : BufTy).Contents (Elt F) → (⟨S8192x512, .f32⟩ : BufTy).Contents (Elt F)),
    binary main_v93 main_v92 main_v97 (mulf : (⟨S8192x512, .f32⟩ : BufTy).Contents (Elt F) → (⟨S8192x512, .f32⟩ : BufTy).Contents (Elt F) → (⟨S8192x512, .f32⟩ : BufTy).Contents (Elt F)),
    unary main_v96 main_v98 (broadcastInDim S8192x512x1 ![0, 1] bcast_S8192x512_S8192x512x1_0_1 : (⟨S8192x512, .f32⟩ : BufTy).Contents (Elt F) → (⟨S8192x512x1, .f32⟩ : BufTy).Contents (Elt F)),
    unary main_v97 main_v99 (broadcastInDim S8192x512x1 ![0, 1] bcast_S8192x512_S8192x512x1_0_1 : (⟨S8192x512, .f32⟩ : BufTy).Contents (Elt F) → (⟨S8192x512x1, .f32⟩ : BufTy).Contents (Elt F)),
    binary main_v98 main_v99 main_v100 ((fun a b => concatenate S8192x512x2 2 [⟨S8192x512x1, a⟩, ⟨S8192x512x1, b⟩] concatenates_S8192x512x1_S8192x512x1_S8192x512x2_d2) : (⟨S8192x512x1, .f32⟩ : BufTy).Contents (Elt F) → (⟨S8192x512x1, .f32⟩ : BufTy).Contents (Elt F) → (⟨S8192x512x2, .f32⟩ : BufTy).Contents (Elt F)),
    reshape main_v100 main_v101 rfl shapeCasts_S8192x512x2_S8192x1024 ]

/-- The softmax of the leaf logits: fourteen operations. -/
abbrev seg11 : List (HloOp τ sig (Elt F)) :=
  [ nullary main_cst_12 (constant S_ .f32 0xFF800000#32),
    binary main_arg3 main_cst_12 main_v102 ((fun x v => Host.reduce FloatOps.maximumf x v reducesTo_S1024x1000_S1024_d1 h_S_) : (⟨S1024x1000, .f32⟩ : BufTy).Contents (Elt F) → (⟨S_, .f32⟩ : BufTy).Contents (Elt F) → (⟨S1024, .f32⟩ : BufTy).Contents (Elt F)),
    nullary main_cst_13 (constant S_ .f32 0xFF800000#32),
    unary main_cst_13 main_v103 (broadcastInDim S1024 ![] bcast_S_S1024 : (⟨S_, .f32⟩ : BufTy).Contents (Elt F) → (⟨S1024, .f32⟩ : BufTy).Contents (Elt F)),
    binary main_v103 main_v102 main_v104 (maximumf : (⟨S1024, .f32⟩ : BufTy).Contents (Elt F) → (⟨S1024, .f32⟩ : BufTy).Contents (Elt F) → (⟨S1024, .f32⟩ : BufTy).Contents (Elt F)),
    unary main_v104 main_v105 (broadcastInDim S1024x1 ![0] bcast_S1024_S1024x1_0 : (⟨S1024, .f32⟩ : BufTy).Contents (Elt F) → (⟨S1024x1, .f32⟩ : BufTy).Contents (Elt F)),
    unary main_v105 main_v106 (broadcastInDim S1024x1000 ![0, 1] bcast_S1024x1_S1024x1000_0_1 : (⟨S1024x1, .f32⟩ : BufTy).Contents (Elt F) → (⟨S1024x1000, .f32⟩ : BufTy).Contents (Elt F)),
    binary main_arg3 main_v106 main_v107 (subf : (⟨S1024x1000, .f32⟩ : BufTy).Contents (Elt F) → (⟨S1024x1000, .f32⟩ : BufTy).Contents (Elt F) → (⟨S1024x1000, .f32⟩ : BufTy).Contents (Elt F)),
    unary main_v107 main_v108 (Host.exp : (⟨S1024x1000, .f32⟩ : BufTy).Contents (Elt F) → (⟨S1024x1000, .f32⟩ : BufTy).Contents (Elt F)),
    nullary main_cst_14 (constant S_ .f32 0x00000000#32),
    binary main_v108 main_cst_14 main_v109 ((fun x v => Host.reduceAdd x v reducesTo_S1024x1000_S1024_d1 h_S_) : (⟨S1024x1000, .f32⟩ : BufTy).Contents (Elt F) → (⟨S_, .f32⟩ : BufTy).Contents (Elt F) → (⟨S1024, .f32⟩ : BufTy).Contents (Elt F)),
    unary main_v109 main_v110 (broadcastInDim S1024x1 ![0] bcast_S1024_S1024x1_0 : (⟨S1024, .f32⟩ : BufTy).Contents (Elt F) → (⟨S1024x1, .f32⟩ : BufTy).Contents (Elt F)),
    unary main_v110 main_v111 (broadcastInDim S1024x1000 ![0, 1] bcast_S1024x1_S1024x1000_0_1 : (⟨S1024x1, .f32⟩ : BufTy).Contents (Elt F) → (⟨S1024x1000, .f32⟩ : BufTy).Contents (Elt F)),
    binary main_v108 main_v111 main_v112 (Host.divf : (⟨S1024x1000, .f32⟩ : BufTy).Contents (Elt F) → (⟨S1024x1000, .f32⟩ : BufTy).Contents (Elt F) → (⟨S1024x1000, .f32⟩ : BufTy).Contents (Elt F)) ]

/-- The final contraction of the leaves' probabilities with the leaf distributions. -/
abbrev seg12 : List (HloOp τ sig (Elt F)) :=
  [ binary main_v101 main_v112 main_v113 ((fun l r => Host.dotGeneral dot_S8192x1024_S1024x1000_S8192x1000_1_0_0_1_n_n none l r) : (⟨S8192x1024, .f32⟩ : BufTy).Contents (Elt F) → (⟨S1024x1000, .f32⟩ : BufTy).Contents (Elt F) → (⟨S8192x1000, .f32⟩ : BufTy).Contents (Elt F)) ]

set_option maxRecDepth 8192 in
/-- The line is its segments end to end. -/
theorem ops_eq : (ops : List (HloOp τ sig (Elt F)))
    = seg0 ++ seg1 ++ seg2 ++ seg3 ++ seg4 ++ seg5 ++ seg6 ++ seg7 ++ seg8 ++ seg9 ++ seg10 ++ seg11 ++ seg12 := rfl

/-- Running two lines end to end is running the second from where the first ends. -/
theorem after_append : ∀ (l₁ l₂ : List (HloOp τ sig (Elt F))) (V : Valuation τ sig (Elt F)),
    after (l₁ ++ l₂) V = after l₂ (after l₁ V)
  | [], _, _ => rfl
  | op :: l, l₂, V => after_append l l₂ (op.result V)

/-- The buffers after segment 0, from contents V. -/
def W0 (V : Valuation τ sig (Elt F)) : Valuation τ sig (Elt F) := after seg0 V
/-- The buffers after segments 0 to 1. -/
def W1 (V : Valuation τ sig (Elt F)) : Valuation τ sig (Elt F) := after seg1 (W0 V)
/-- The buffers after segments 0 to 2. -/
def W2 (V : Valuation τ sig (Elt F)) : Valuation τ sig (Elt F) := after seg2 (W1 V)
/-- The buffers after segments 0 to 3. -/
def W3 (V : Valuation τ sig (Elt F)) : Valuation τ sig (Elt F) := after seg3 (W2 V)
/-- The buffers after segments 0 to 4. -/
def W4 (V : Valuation τ sig (Elt F)) : Valuation τ sig (Elt F) := after seg4 (W3 V)
/-- The buffers after segments 0 to 5. -/
def W5 (V : Valuation τ sig (Elt F)) : Valuation τ sig (Elt F) := after seg5 (W4 V)
/-- The buffers after segments 0 to 6. -/
def W6 (V : Valuation τ sig (Elt F)) : Valuation τ sig (Elt F) := after seg6 (W5 V)
/-- The buffers after segments 0 to 7. -/
def W7 (V : Valuation τ sig (Elt F)) : Valuation τ sig (Elt F) := after seg7 (W6 V)
/-- The buffers after segments 0 to 8. -/
def W8 (V : Valuation τ sig (Elt F)) : Valuation τ sig (Elt F) := after seg8 (W7 V)
/-- The buffers after segments 0 to 9. -/
def W9 (V : Valuation τ sig (Elt F)) : Valuation τ sig (Elt F) := after seg9 (W8 V)
/-- The buffers after segments 0 to 10. -/
def W10 (V : Valuation τ sig (Elt F)) : Valuation τ sig (Elt F) := after seg10 (W9 V)
/-- The buffers after segments 0 to 11. -/
def W11 (V : Valuation τ sig (Elt F)) : Valuation τ sig (Elt F) := after seg11 (W10 V)
/-- The buffers after segments 0 to 12. -/
def W12 (V : Valuation τ sig (Elt F)) : Valuation τ sig (Elt F) := after seg12 (W11 V)

/-- Running the program is running its thirteen segments in turn. -/
theorem after_ops (V : Valuation τ sig (Elt F)) : after ops V = W12 V := by
  rw [ops_eq]
  simp only [after_append]
  rfl

/-! ## What passes through -/

/-- The buffers segment 0 writes. -/
abbrev wl0 : List (Ref sig .tc) := [main_v0, main_v1, main_v2, main_v3, main_v4, main_v5, main_v6, main_cst, main_v7, main_v8, main_cst_0, main_v9, main_v10, main_cst_1, main_v11]
/-- The buffers segment 1 writes. -/
abbrev wl1 : List (Ref sig .tc) := [main_v12, main_cst_2, main_v13, main_v14, main_v15, main_v16, main_v17, main_v18, main_v19, main_v20]
/-- The buffers segment 2 writes. -/
abbrev wl2 : List (Ref sig .tc) := [main_v21, main_cst_3, main_v22, main_v23, main_v24, main_v25, main_v26, main_v27, main_v28, main_v29]
/-- The buffers segment 3 writes. -/
abbrev wl3 : List (Ref sig .tc) := [main_v30, main_cst_4, main_v31, main_v32, main_v33, main_v34, main_v35, main_v36, main_v37, main_v38]
/-- The buffers segment 4 writes. -/
abbrev wl4 : List (Ref sig .tc) := [main_v39, main_cst_5, main_v40, main_v41, main_v42, main_v43, main_v44, main_v45, main_v46, main_v47]
/-- The buffers segment 5 writes. -/
abbrev wl5 : List (Ref sig .tc) := [main_v48, main_cst_6, main_v49, main_v50, main_v51, main_v52, main_v53, main_v54, main_v55, main_v56]
/-- The buffers segment 6 writes. -/
abbrev wl6 : List (Ref sig .tc) := [main_v57, main_cst_7, main_v58, main_v59, main_v60, main_v61, main_v62, main_v63, main_v64, main_v65]
/-- The buffers segment 7 writes. -/
abbrev wl7 : List (Ref sig .tc) := [main_v66, main_cst_8, main_v67, main_v68, main_v69, main_v70, main_v71, main_v72, main_v73, main_v74]
/-- The buffers segment 8 writes. -/
abbrev wl8 : List (Ref sig .tc) := [main_v75, main_cst_9, main_v76, main_v77, main_v78, main_v79, main_v80, main_v81, main_v82, main_v83]
/-- The buffers segment 9 writes. -/
abbrev wl9 : List (Ref sig .tc) := [main_v84, main_cst_10, main_v85, main_v86, main_v87, main_v88, main_v89, main_v90, main_v91, main_v92]
/-- The buffers segment 10 writes. -/
abbrev wl10 : List (Ref sig .tc) := [main_v93, main_cst_11, main_v94, main_v95, main_v96, main_v97, main_v98, main_v99, main_v100, main_v101]
/-- The buffers segment 11 writes. -/
abbrev wl11 : List (Ref sig .tc) := [main_cst_12, main_v102, main_cst_13, main_v103, main_v104, main_v105, main_v106, main_v107, main_v108, main_cst_14, main_v109, main_v110, main_v111, main_v112]
/-- The buffers segment 12 writes. -/
abbrev wl12 : List (Ref sig .tc) := [main_v113]

/-- The buffers written up to and including a segment. -/
abbrev cl0 : List (Ref sig .tc) := wl0
abbrev cl1 : List (Ref sig .tc) := cl0 ++ wl1
abbrev cl2 : List (Ref sig .tc) := cl1 ++ wl2
abbrev cl3 : List (Ref sig .tc) := cl2 ++ wl3
abbrev cl4 : List (Ref sig .tc) := cl3 ++ wl4
abbrev cl5 : List (Ref sig .tc) := cl4 ++ wl5
abbrev cl6 : List (Ref sig .tc) := cl5 ++ wl6
abbrev cl7 : List (Ref sig .tc) := cl6 ++ wl7
abbrev cl8 : List (Ref sig .tc) := cl7 ++ wl8
abbrev cl9 : List (Ref sig .tc) := cl8 ++ wl9
abbrev cl10 : List (Ref sig .tc) := cl9 ++ wl10
abbrev cl11 : List (Ref sig .tc) := cl10 ++ wl11
abbrev cl12 : List (Ref sig .tc) := cl11 ++ wl12

/-- An operation that writes one buffer of a list writes inside the list. -/
theorem wsub {Wl : List (Ref sig .tc)} {y : Ref sig .tc} (hy : y ∈ Wl) :
    ({Proc.devRef .tc y} : Finset (DevRef τ sig)) ⊆ (Wl.map (Proc.devRef (τ := τ) .tc)).toFinset :=
  Finset.singleton_subset_iff.mpr (List.mem_toFinset.mpr (List.mem_map.mpr ⟨y, hy, rfl⟩))

/-- A buffer segment 0 does not write passes through it. -/
theorem seg0_pass (W : Valuation τ sig (Elt F)) (b : Ref sig .tc) (hb : b ∉ wl0) :
    after (seg0 (F := F)) W (Proc.devRef .tc b) = W (Proc.devRef .tc b) :=
  after_of_writes_sub seg0 W (W := wl0)
    ⟨wsub (y := main_v0) (by decide),
      wsub (y := main_v1) (by decide),
      wsub (y := main_v2) (by decide),
      wsub (y := main_v3) (by decide),
      wsub (y := main_v4) (by decide),
      wsub (y := main_v5) (by decide),
      wsub (y := main_v6) (by decide),
      wsub (y := main_cst) (by decide),
      wsub (y := main_v7) (by decide),
      wsub (y := main_v8) (by decide),
      wsub (y := main_cst_0) (by decide),
      wsub (y := main_v9) (by decide),
      wsub (y := main_v10) (by decide),
      wsub (y := main_cst_1) (by decide),
      wsub (y := main_v11) (by decide)⟩ hb

/-- A buffer segment 1 does not write passes through it. -/
theorem seg1_pass (W : Valuation τ sig (Elt F)) (b : Ref sig .tc) (hb : b ∉ wl1) :
    after (seg1 (F := F)) W (Proc.devRef .tc b) = W (Proc.devRef .tc b) :=
  after_of_writes_sub seg1 W (W := wl1)
    ⟨wsub (y := main_v12) (by decide),
      wsub (y := main_cst_2) (by decide),
      wsub (y := main_v13) (by decide),
      wsub (y := main_v14) (by decide),
      wsub (y := main_v15) (by decide),
      wsub (y := main_v16) (by decide),
      wsub (y := main_v17) (by decide),
      wsub (y := main_v18) (by decide),
      wsub (y := main_v19) (by decide),
      wsub (y := main_v20) (by decide)⟩ hb

/-- A buffer segment 2 does not write passes through it. -/
theorem seg2_pass (W : Valuation τ sig (Elt F)) (b : Ref sig .tc) (hb : b ∉ wl2) :
    after (seg2 (F := F)) W (Proc.devRef .tc b) = W (Proc.devRef .tc b) :=
  after_of_writes_sub seg2 W (W := wl2)
    ⟨wsub (y := main_v21) (by decide),
      wsub (y := main_cst_3) (by decide),
      wsub (y := main_v22) (by decide),
      wsub (y := main_v23) (by decide),
      wsub (y := main_v24) (by decide),
      wsub (y := main_v25) (by decide),
      wsub (y := main_v26) (by decide),
      wsub (y := main_v27) (by decide),
      wsub (y := main_v28) (by decide),
      wsub (y := main_v29) (by decide)⟩ hb

/-- A buffer segment 3 does not write passes through it. -/
theorem seg3_pass (W : Valuation τ sig (Elt F)) (b : Ref sig .tc) (hb : b ∉ wl3) :
    after (seg3 (F := F)) W (Proc.devRef .tc b) = W (Proc.devRef .tc b) :=
  after_of_writes_sub seg3 W (W := wl3)
    ⟨wsub (y := main_v30) (by decide),
      wsub (y := main_cst_4) (by decide),
      wsub (y := main_v31) (by decide),
      wsub (y := main_v32) (by decide),
      wsub (y := main_v33) (by decide),
      wsub (y := main_v34) (by decide),
      wsub (y := main_v35) (by decide),
      wsub (y := main_v36) (by decide),
      wsub (y := main_v37) (by decide),
      wsub (y := main_v38) (by decide)⟩ hb

/-- A buffer segment 4 does not write passes through it. -/
theorem seg4_pass (W : Valuation τ sig (Elt F)) (b : Ref sig .tc) (hb : b ∉ wl4) :
    after (seg4 (F := F)) W (Proc.devRef .tc b) = W (Proc.devRef .tc b) :=
  after_of_writes_sub seg4 W (W := wl4)
    ⟨wsub (y := main_v39) (by decide),
      wsub (y := main_cst_5) (by decide),
      wsub (y := main_v40) (by decide),
      wsub (y := main_v41) (by decide),
      wsub (y := main_v42) (by decide),
      wsub (y := main_v43) (by decide),
      wsub (y := main_v44) (by decide),
      wsub (y := main_v45) (by decide),
      wsub (y := main_v46) (by decide),
      wsub (y := main_v47) (by decide)⟩ hb

/-- A buffer segment 5 does not write passes through it. -/
theorem seg5_pass (W : Valuation τ sig (Elt F)) (b : Ref sig .tc) (hb : b ∉ wl5) :
    after (seg5 (F := F)) W (Proc.devRef .tc b) = W (Proc.devRef .tc b) :=
  after_of_writes_sub seg5 W (W := wl5)
    ⟨wsub (y := main_v48) (by decide),
      wsub (y := main_cst_6) (by decide),
      wsub (y := main_v49) (by decide),
      wsub (y := main_v50) (by decide),
      wsub (y := main_v51) (by decide),
      wsub (y := main_v52) (by decide),
      wsub (y := main_v53) (by decide),
      wsub (y := main_v54) (by decide),
      wsub (y := main_v55) (by decide),
      wsub (y := main_v56) (by decide)⟩ hb

/-- A buffer segment 6 does not write passes through it. -/
theorem seg6_pass (W : Valuation τ sig (Elt F)) (b : Ref sig .tc) (hb : b ∉ wl6) :
    after (seg6 (F := F)) W (Proc.devRef .tc b) = W (Proc.devRef .tc b) :=
  after_of_writes_sub seg6 W (W := wl6)
    ⟨wsub (y := main_v57) (by decide),
      wsub (y := main_cst_7) (by decide),
      wsub (y := main_v58) (by decide),
      wsub (y := main_v59) (by decide),
      wsub (y := main_v60) (by decide),
      wsub (y := main_v61) (by decide),
      wsub (y := main_v62) (by decide),
      wsub (y := main_v63) (by decide),
      wsub (y := main_v64) (by decide),
      wsub (y := main_v65) (by decide)⟩ hb

/-- A buffer segment 7 does not write passes through it. -/
theorem seg7_pass (W : Valuation τ sig (Elt F)) (b : Ref sig .tc) (hb : b ∉ wl7) :
    after (seg7 (F := F)) W (Proc.devRef .tc b) = W (Proc.devRef .tc b) :=
  after_of_writes_sub seg7 W (W := wl7)
    ⟨wsub (y := main_v66) (by decide),
      wsub (y := main_cst_8) (by decide),
      wsub (y := main_v67) (by decide),
      wsub (y := main_v68) (by decide),
      wsub (y := main_v69) (by decide),
      wsub (y := main_v70) (by decide),
      wsub (y := main_v71) (by decide),
      wsub (y := main_v72) (by decide),
      wsub (y := main_v73) (by decide),
      wsub (y := main_v74) (by decide)⟩ hb

/-- A buffer segment 8 does not write passes through it. -/
theorem seg8_pass (W : Valuation τ sig (Elt F)) (b : Ref sig .tc) (hb : b ∉ wl8) :
    after (seg8 (F := F)) W (Proc.devRef .tc b) = W (Proc.devRef .tc b) :=
  after_of_writes_sub seg8 W (W := wl8)
    ⟨wsub (y := main_v75) (by decide),
      wsub (y := main_cst_9) (by decide),
      wsub (y := main_v76) (by decide),
      wsub (y := main_v77) (by decide),
      wsub (y := main_v78) (by decide),
      wsub (y := main_v79) (by decide),
      wsub (y := main_v80) (by decide),
      wsub (y := main_v81) (by decide),
      wsub (y := main_v82) (by decide),
      wsub (y := main_v83) (by decide)⟩ hb

/-- A buffer segment 9 does not write passes through it. -/
theorem seg9_pass (W : Valuation τ sig (Elt F)) (b : Ref sig .tc) (hb : b ∉ wl9) :
    after (seg9 (F := F)) W (Proc.devRef .tc b) = W (Proc.devRef .tc b) :=
  after_of_writes_sub seg9 W (W := wl9)
    ⟨wsub (y := main_v84) (by decide),
      wsub (y := main_cst_10) (by decide),
      wsub (y := main_v85) (by decide),
      wsub (y := main_v86) (by decide),
      wsub (y := main_v87) (by decide),
      wsub (y := main_v88) (by decide),
      wsub (y := main_v89) (by decide),
      wsub (y := main_v90) (by decide),
      wsub (y := main_v91) (by decide),
      wsub (y := main_v92) (by decide)⟩ hb

/-- A buffer segment 10 does not write passes through it. -/
theorem seg10_pass (W : Valuation τ sig (Elt F)) (b : Ref sig .tc) (hb : b ∉ wl10) :
    after (seg10 (F := F)) W (Proc.devRef .tc b) = W (Proc.devRef .tc b) :=
  after_of_writes_sub seg10 W (W := wl10)
    ⟨wsub (y := main_v93) (by decide),
      wsub (y := main_cst_11) (by decide),
      wsub (y := main_v94) (by decide),
      wsub (y := main_v95) (by decide),
      wsub (y := main_v96) (by decide),
      wsub (y := main_v97) (by decide),
      wsub (y := main_v98) (by decide),
      wsub (y := main_v99) (by decide),
      wsub (y := main_v100) (by decide),
      wsub (y := main_v101) (by decide)⟩ hb

/-- A buffer segment 11 does not write passes through it. -/
theorem seg11_pass (W : Valuation τ sig (Elt F)) (b : Ref sig .tc) (hb : b ∉ wl11) :
    after (seg11 (F := F)) W (Proc.devRef .tc b) = W (Proc.devRef .tc b) :=
  after_of_writes_sub seg11 W (W := wl11)
    ⟨wsub (y := main_cst_12) (by decide),
      wsub (y := main_v102) (by decide),
      wsub (y := main_cst_13) (by decide),
      wsub (y := main_v103) (by decide),
      wsub (y := main_v104) (by decide),
      wsub (y := main_v105) (by decide),
      wsub (y := main_v106) (by decide),
      wsub (y := main_v107) (by decide),
      wsub (y := main_v108) (by decide),
      wsub (y := main_cst_14) (by decide),
      wsub (y := main_v109) (by decide),
      wsub (y := main_v110) (by decide),
      wsub (y := main_v111) (by decide),
      wsub (y := main_v112) (by decide)⟩ hb

/-- A buffer segment 12 does not write passes through it. -/
theorem seg12_pass (W : Valuation τ sig (Elt F)) (b : Ref sig .tc) (hb : b ∉ wl12) :
    after (seg12 (F := F)) W (Proc.devRef .tc b) = W (Proc.devRef .tc b) :=
  after_of_writes_sub seg12 W (W := wl12)
    (wsub (y := main_v113) (by decide)) hb

/-- A buffer none of segments 0 to k writes holds, after them, what it held at the start. -/
theorem W0_pass (V : Valuation τ sig (Elt F)) (b : Ref sig .tc) (hb : b ∉ cl0) : W0 V (Proc.devRef .tc b) = V (Proc.devRef .tc b) :=
  seg0_pass V b hb
theorem W1_pass (V : Valuation τ sig (Elt F)) (b : Ref sig .tc) (hb : b ∉ cl1) : W1 V (Proc.devRef .tc b) = V (Proc.devRef .tc b) :=
  (seg1_pass (W0 V) b (fun hm => hb (List.mem_append_right _ hm))).trans (W0_pass V b (fun hm => hb (List.mem_append_left _ hm)))
theorem W2_pass (V : Valuation τ sig (Elt F)) (b : Ref sig .tc) (hb : b ∉ cl2) : W2 V (Proc.devRef .tc b) = V (Proc.devRef .tc b) :=
  (seg2_pass (W1 V) b (fun hm => hb (List.mem_append_right _ hm))).trans (W1_pass V b (fun hm => hb (List.mem_append_left _ hm)))
theorem W3_pass (V : Valuation τ sig (Elt F)) (b : Ref sig .tc) (hb : b ∉ cl3) : W3 V (Proc.devRef .tc b) = V (Proc.devRef .tc b) :=
  (seg3_pass (W2 V) b (fun hm => hb (List.mem_append_right _ hm))).trans (W2_pass V b (fun hm => hb (List.mem_append_left _ hm)))
theorem W4_pass (V : Valuation τ sig (Elt F)) (b : Ref sig .tc) (hb : b ∉ cl4) : W4 V (Proc.devRef .tc b) = V (Proc.devRef .tc b) :=
  (seg4_pass (W3 V) b (fun hm => hb (List.mem_append_right _ hm))).trans (W3_pass V b (fun hm => hb (List.mem_append_left _ hm)))
theorem W5_pass (V : Valuation τ sig (Elt F)) (b : Ref sig .tc) (hb : b ∉ cl5) : W5 V (Proc.devRef .tc b) = V (Proc.devRef .tc b) :=
  (seg5_pass (W4 V) b (fun hm => hb (List.mem_append_right _ hm))).trans (W4_pass V b (fun hm => hb (List.mem_append_left _ hm)))
theorem W6_pass (V : Valuation τ sig (Elt F)) (b : Ref sig .tc) (hb : b ∉ cl6) : W6 V (Proc.devRef .tc b) = V (Proc.devRef .tc b) :=
  (seg6_pass (W5 V) b (fun hm => hb (List.mem_append_right _ hm))).trans (W5_pass V b (fun hm => hb (List.mem_append_left _ hm)))
theorem W7_pass (V : Valuation τ sig (Elt F)) (b : Ref sig .tc) (hb : b ∉ cl7) : W7 V (Proc.devRef .tc b) = V (Proc.devRef .tc b) :=
  (seg7_pass (W6 V) b (fun hm => hb (List.mem_append_right _ hm))).trans (W6_pass V b (fun hm => hb (List.mem_append_left _ hm)))
theorem W8_pass (V : Valuation τ sig (Elt F)) (b : Ref sig .tc) (hb : b ∉ cl8) : W8 V (Proc.devRef .tc b) = V (Proc.devRef .tc b) :=
  (seg8_pass (W7 V) b (fun hm => hb (List.mem_append_right _ hm))).trans (W7_pass V b (fun hm => hb (List.mem_append_left _ hm)))
theorem W9_pass (V : Valuation τ sig (Elt F)) (b : Ref sig .tc) (hb : b ∉ cl9) : W9 V (Proc.devRef .tc b) = V (Proc.devRef .tc b) :=
  (seg9_pass (W8 V) b (fun hm => hb (List.mem_append_right _ hm))).trans (W8_pass V b (fun hm => hb (List.mem_append_left _ hm)))
theorem W10_pass (V : Valuation τ sig (Elt F)) (b : Ref sig .tc) (hb : b ∉ cl10) : W10 V (Proc.devRef .tc b) = V (Proc.devRef .tc b) :=
  (seg10_pass (W9 V) b (fun hm => hb (List.mem_append_right _ hm))).trans (W9_pass V b (fun hm => hb (List.mem_append_left _ hm)))
theorem W11_pass (V : Valuation τ sig (Elt F)) (b : Ref sig .tc) (hb : b ∉ cl11) : W11 V (Proc.devRef .tc b) = V (Proc.devRef .tc b) :=
  (seg11_pass (W10 V) b (fun hm => hb (List.mem_append_right _ hm))).trans (W10_pass V b (fun hm => hb (List.mem_append_left _ hm)))
theorem W12_pass (V : Valuation τ sig (Elt F)) (b : Ref sig .tc) (hb : b ∉ cl12) : W12 V (Proc.devRef .tc b) = V (Proc.devRef .tc b) :=
  (seg12_pass (W11 V) b (fun hm => hb (List.mem_append_right _ hm))).trans (W11_pass V b (fun hm => hb (List.mem_append_left _ hm)))

/-! ## What each segment leaves, over any starting contents -/

/-- Segment 0 leaves, in the gate matrix at (r, n), gate n of input row r. -/
theorem seg0_gates (V : Valuation τ sig (Elt Ideal)) (r : Fin 8192) (n : Fin 1023) :
    after (seg0 (F := Ideal)) V (Proc.devRef .tc main_v10) (ix2 r n) = gatesOf (V (Proc.devRef .tc main_arg0)) (V (Proc.devRef .tc main_arg1)) (V (Proc.devRef .tc main_arg2)) r n.val := by
  unfold gatesOf
  rw [atNat_of_lt _ n.val n.isLt]
  unfold seg0
  after_results
  exact logistic_gates_apply (R := 8192) (K := 3072) (N := 1023) dot_S8192x3072_S3072x1023_S8192x1023_1_0_0_1_n_n.wf
    (V (Proc.devRef .tc main_arg0)) (V (Proc.devRef .tc main_arg1)) (V (Proc.devRef .tc main_arg2)) _ _ _ _ r n

/-- Segment 0 leaves level 0: the root is reached with probability one. -/
theorem seg0_root (V : Valuation τ sig (Elt Ideal)) (r : Fin 8192) (i : Fin 1) :
    after (seg0 (F := Ideal)) V (Proc.devRef .tc main_v11) (ix2 r i) = pathI (gatesOf (V (Proc.devRef .tc main_arg0)) (V (Proc.devRef .tc main_arg1)) (V (Proc.devRef .tc main_arg2)) r) 0 i.val := by
  unfold seg0
  after_results
  exact scalar_fill_apply _ _ _

/-- Level 1 from level 0, over any contents W of the buffers: if W lists row r's gates in the gate matrix and level 0
    of its path probabilities in the previous level's buffer, segment 1 leaves level 1 in its result buffer. -/
theorem seg1_path (W : Valuation τ sig (Elt Ideal)) (g : ℕ → EReal) (r : Fin 8192)
    (hG : ∀ n : Fin 1023, W (Proc.devRef .tc main_v10) (ix2 r n) = g n.val)
    (hpa : ∀ i : Fin 1, W (Proc.devRef .tc main_v11) (ix2 r i) = pathI g 0 i.val) (j : Fin 2) :
    after (seg1 (F := Ideal)) W (Proc.devRef .tc main_v20) (ix2 r j) = pathI g 1 j.val := by
  unfold seg1
  after_results
  exact level_path (R := 8192) (N := 1023) (w := 1) (W := 2) 0 0 rfl rfl rfl (W (Proc.devRef .tc main_v10))
    (W (Proc.devRef .tc main_v11)) _ _ _ _ _ g r hG hpa j

/-- Level 2 from level 1, over any contents W of the buffers: if W lists row r's gates in the gate matrix and level 1
    of its path probabilities in the previous level's buffer, segment 2 leaves level 2 in its result buffer. -/
theorem seg2_path (W : Valuation τ sig (Elt Ideal)) (g : ℕ → EReal) (r : Fin 8192)
    (hG : ∀ n : Fin 1023, W (Proc.devRef .tc main_v10) (ix2 r n) = g n.val)
    (hpa : ∀ i : Fin 2, W (Proc.devRef .tc main_v20) (ix2 r i) = pathI g 1 i.val) (j : Fin 4) :
    after (seg2 (F := Ideal)) W (Proc.devRef .tc main_v29) (ix2 r j) = pathI g 2 j.val := by
  unfold seg2
  after_results
  exact level_path (R := 8192) (N := 1023) (w := 2) (W := 4) 1 1 rfl rfl rfl (W (Proc.devRef .tc main_v10))
    (W (Proc.devRef .tc main_v20)) _ _ _ _ _ g r hG hpa j

/-- Level 3 from level 2, over any contents W of the buffers: if W lists row r's gates in the gate matrix and level 2
    of its path probabilities in the previous level's buffer, segment 3 leaves level 3 in its result buffer. -/
theorem seg3_path (W : Valuation τ sig (Elt Ideal)) (g : ℕ → EReal) (r : Fin 8192)
    (hG : ∀ n : Fin 1023, W (Proc.devRef .tc main_v10) (ix2 r n) = g n.val)
    (hpa : ∀ i : Fin 4, W (Proc.devRef .tc main_v29) (ix2 r i) = pathI g 2 i.val) (j : Fin 8) :
    after (seg3 (F := Ideal)) W (Proc.devRef .tc main_v38) (ix2 r j) = pathI g 3 j.val := by
  unfold seg3
  after_results
  exact level_path (R := 8192) (N := 1023) (w := 4) (W := 8) 2 3 rfl rfl rfl (W (Proc.devRef .tc main_v10))
    (W (Proc.devRef .tc main_v29)) _ _ _ _ _ g r hG hpa j

/-- Level 4 from level 3, over any contents W of the buffers: if W lists row r's gates in the gate matrix and level 3
    of its path probabilities in the previous level's buffer, segment 4 leaves level 4 in its result buffer. -/
theorem seg4_path (W : Valuation τ sig (Elt Ideal)) (g : ℕ → EReal) (r : Fin 8192)
    (hG : ∀ n : Fin 1023, W (Proc.devRef .tc main_v10) (ix2 r n) = g n.val)
    (hpa : ∀ i : Fin 8, W (Proc.devRef .tc main_v38) (ix2 r i) = pathI g 3 i.val) (j : Fin 16) :
    after (seg4 (F := Ideal)) W (Proc.devRef .tc main_v47) (ix2 r j) = pathI g 4 j.val := by
  unfold seg4
  after_results
  exact level_path (R := 8192) (N := 1023) (w := 8) (W := 16) 3 7 rfl rfl rfl (W (Proc.devRef .tc main_v10))
    (W (Proc.devRef .tc main_v38)) _ _ _ _ _ g r hG hpa j

/-- Level 5 from level 4, over any contents W of the buffers: if W lists row r's gates in the gate matrix and level 4
    of its path probabilities in the previous level's buffer, segment 5 leaves level 5 in its result buffer. -/
theorem seg5_path (W : Valuation τ sig (Elt Ideal)) (g : ℕ → EReal) (r : Fin 8192)
    (hG : ∀ n : Fin 1023, W (Proc.devRef .tc main_v10) (ix2 r n) = g n.val)
    (hpa : ∀ i : Fin 16, W (Proc.devRef .tc main_v47) (ix2 r i) = pathI g 4 i.val) (j : Fin 32) :
    after (seg5 (F := Ideal)) W (Proc.devRef .tc main_v56) (ix2 r j) = pathI g 5 j.val := by
  unfold seg5
  after_results
  exact level_path (R := 8192) (N := 1023) (w := 16) (W := 32) 4 15 rfl rfl rfl (W (Proc.devRef .tc main_v10))
    (W (Proc.devRef .tc main_v47)) _ _ _ _ _ g r hG hpa j

/-- Level 6 from level 5, over any contents W of the buffers: if W lists row r's gates in the gate matrix and level 5
    of its path probabilities in the previous level's buffer, segment 6 leaves level 6 in its result buffer. -/
theorem seg6_path (W : Valuation τ sig (Elt Ideal)) (g : ℕ → EReal) (r : Fin 8192)
    (hG : ∀ n : Fin 1023, W (Proc.devRef .tc main_v10) (ix2 r n) = g n.val)
    (hpa : ∀ i : Fin 32, W (Proc.devRef .tc main_v56) (ix2 r i) = pathI g 5 i.val) (j : Fin 64) :
    after (seg6 (F := Ideal)) W (Proc.devRef .tc main_v65) (ix2 r j) = pathI g 6 j.val := by
  unfold seg6
  after_results
  exact level_path (R := 8192) (N := 1023) (w := 32) (W := 64) 5 31 rfl rfl rfl (W (Proc.devRef .tc main_v10))
    (W (Proc.devRef .tc main_v56)) _ _ _ _ _ g r hG hpa j

/-- Level 7 from level 6, over any contents W of the buffers: if W lists row r's gates in the gate matrix and level 6
    of its path probabilities in the previous level's buffer, segment 7 leaves level 7 in its result buffer. -/
theorem seg7_path (W : Valuation τ sig (Elt Ideal)) (g : ℕ → EReal) (r : Fin 8192)
    (hG : ∀ n : Fin 1023, W (Proc.devRef .tc main_v10) (ix2 r n) = g n.val)
    (hpa : ∀ i : Fin 64, W (Proc.devRef .tc main_v65) (ix2 r i) = pathI g 6 i.val) (j : Fin 128) :
    after (seg7 (F := Ideal)) W (Proc.devRef .tc main_v74) (ix2 r j) = pathI g 7 j.val := by
  unfold seg7
  after_results
  exact level_path (R := 8192) (N := 1023) (w := 64) (W := 128) 6 63 rfl rfl rfl (W (Proc.devRef .tc main_v10))
    (W (Proc.devRef .tc main_v65)) _ _ _ _ _ g r hG hpa j

/-- Level 8 from level 7, over any contents W of the buffers: if W lists row r's gates in the gate matrix and level 7
    of its path probabilities in the previous level's buffer, segment 8 leaves level 8 in its result buffer. -/
theorem seg8_path (W : Valuation τ sig (Elt Ideal)) (g : ℕ → EReal) (r : Fin 8192)
    (hG : ∀ n : Fin 1023, W (Proc.devRef .tc main_v10) (ix2 r n) = g n.val)
    (hpa : ∀ i : Fin 128, W (Proc.devRef .tc main_v74) (ix2 r i) = pathI g 7 i.val) (j : Fin 256) :
    after (seg8 (F := Ideal)) W (Proc.devRef .tc main_v83) (ix2 r j) = pathI g 8 j.val := by
  unfold seg8
  after_results
  exact level_path (R := 8192) (N := 1023) (w := 128) (W := 256) 7 127 rfl rfl rfl (W (Proc.devRef .tc main_v10))
    (W (Proc.devRef .tc main_v74)) _ _ _ _ _ g r hG hpa j

/-- Level 9 from level 8, over any contents W of the buffers: if W lists row r's gates in the gate matrix and level 8
    of its path probabilities in the previous level's buffer, segment 9 leaves level 9 in its result buffer. -/
theorem seg9_path (W : Valuation τ sig (Elt Ideal)) (g : ℕ → EReal) (r : Fin 8192)
    (hG : ∀ n : Fin 1023, W (Proc.devRef .tc main_v10) (ix2 r n) = g n.val)
    (hpa : ∀ i : Fin 256, W (Proc.devRef .tc main_v83) (ix2 r i) = pathI g 8 i.val) (j : Fin 512) :
    after (seg9 (F := Ideal)) W (Proc.devRef .tc main_v92) (ix2 r j) = pathI g 9 j.val := by
  unfold seg9
  after_results
  exact level_path (R := 8192) (N := 1023) (w := 256) (W := 512) 8 255 rfl rfl rfl (W (Proc.devRef .tc main_v10))
    (W (Proc.devRef .tc main_v83)) _ _ _ _ _ g r hG hpa j

/-- Level 10 from level 9, over any contents W of the buffers: if W lists row r's gates in the gate matrix and level 9
    of its path probabilities in the previous level's buffer, segment 10 leaves level 10 in its result buffer. -/
theorem seg10_path (W : Valuation τ sig (Elt Ideal)) (g : ℕ → EReal) (r : Fin 8192)
    (hG : ∀ n : Fin 1023, W (Proc.devRef .tc main_v10) (ix2 r n) = g n.val)
    (hpa : ∀ i : Fin 512, W (Proc.devRef .tc main_v92) (ix2 r i) = pathI g 9 i.val) (j : Fin 1024) :
    after (seg10 (F := Ideal)) W (Proc.devRef .tc main_v101) (ix2 r j) = pathI g 10 j.val := by
  unfold seg10
  after_results
  exact level_path (R := 8192) (N := 1023) (w := 512) (W := 1024) 9 511 rfl rfl rfl (W (Proc.devRef .tc main_v10))
    (W (Proc.devRef .tc main_v92)) _ _ _ _ _ g r hG hpa j

/-- The softmax segment leaves the softmax chain of the leaf logits it finds. -/
theorem seg11_dists (W : Valuation τ sig (Elt Ideal)) :
    after (seg11 (F := Ideal)) W (Proc.devRef .tc main_v112)
      = Cert.Softmax.chain bcast_S1024x1_S1024x1000_0_1 bcast_S1024_S1024x1_0 bcast_S_S1024 reducesTo_S1024x1000_S1024_d1 h_S_ (W (Proc.devRef .tc main_arg3)) := by
  unfold seg11
  after_results <;> rfl

/-- The last segment leaves the contraction of the last level with the leaf distributions. -/
theorem seg12_out (W : Valuation τ sig (Elt Ideal)) :
    after (seg12 (F := Ideal)) W (Proc.devRef .tc main_v113)
      = Host.dotGeneral (F := Ideal) (φ₁ := .f32) (φ₂ := .f32) dot_S8192x1024_S1024x1000_S8192x1000_1_0_0_1_n_n none (W (Proc.devRef .tc main_v101)) (W (Proc.devRef .tc main_v112)) := by
  unfold seg12
  after_results <;> rfl

/-! ## The segments chained -/

/-- The gate matrix after segment 0 lists the gates of every input row. -/
theorem W0_gates (V : Valuation τ sig (Elt Ideal)) (r : Fin 8192) (n : Fin 1023) :
    W0 V (Proc.devRef .tc main_v10) (ix2 r n) = gatesOf (V (Proc.devRef .tc main_arg0)) (V (Proc.devRef .tc main_arg1)) (V (Proc.devRef .tc main_arg2)) r n.val := seg0_gates V r n

/-- The gate matrix is written once: it still lists the gates after each level's segment. -/
theorem gates_pass1 (V : Valuation τ sig (Elt Ideal)) : W1 V (Proc.devRef .tc main_v10) = W0 V (Proc.devRef .tc main_v10) :=
  seg1_pass (W0 V) main_v10 (by decide)
theorem gates_pass2 (V : Valuation τ sig (Elt Ideal)) : W2 V (Proc.devRef .tc main_v10) = W0 V (Proc.devRef .tc main_v10) :=
  (seg2_pass (W1 V) main_v10 (by decide)).trans (gates_pass1 V)
theorem gates_pass3 (V : Valuation τ sig (Elt Ideal)) : W3 V (Proc.devRef .tc main_v10) = W0 V (Proc.devRef .tc main_v10) :=
  (seg3_pass (W2 V) main_v10 (by decide)).trans (gates_pass2 V)
theorem gates_pass4 (V : Valuation τ sig (Elt Ideal)) : W4 V (Proc.devRef .tc main_v10) = W0 V (Proc.devRef .tc main_v10) :=
  (seg4_pass (W3 V) main_v10 (by decide)).trans (gates_pass3 V)
theorem gates_pass5 (V : Valuation τ sig (Elt Ideal)) : W5 V (Proc.devRef .tc main_v10) = W0 V (Proc.devRef .tc main_v10) :=
  (seg5_pass (W4 V) main_v10 (by decide)).trans (gates_pass4 V)
theorem gates_pass6 (V : Valuation τ sig (Elt Ideal)) : W6 V (Proc.devRef .tc main_v10) = W0 V (Proc.devRef .tc main_v10) :=
  (seg6_pass (W5 V) main_v10 (by decide)).trans (gates_pass5 V)
theorem gates_pass7 (V : Valuation τ sig (Elt Ideal)) : W7 V (Proc.devRef .tc main_v10) = W0 V (Proc.devRef .tc main_v10) :=
  (seg7_pass (W6 V) main_v10 (by decide)).trans (gates_pass6 V)
theorem gates_pass8 (V : Valuation τ sig (Elt Ideal)) : W8 V (Proc.devRef .tc main_v10) = W0 V (Proc.devRef .tc main_v10) :=
  (seg8_pass (W7 V) main_v10 (by decide)).trans (gates_pass7 V)
theorem gates_pass9 (V : Valuation τ sig (Elt Ideal)) : W9 V (Proc.devRef .tc main_v10) = W0 V (Proc.devRef .tc main_v10) :=
  (seg9_pass (W8 V) main_v10 (by decide)).trans (gates_pass8 V)

/-- Level 1 of the path probabilities of input row r, children side by side. -/
theorem lev1 (V : Valuation τ sig (Elt Ideal)) (r : Fin 8192) (j : Fin 2) :
    W1 V (Proc.devRef .tc main_v20) (ix2 r j) = pathI (gatesOf (V (Proc.devRef .tc main_arg0)) (V (Proc.devRef .tc main_arg1)) (V (Proc.devRef .tc main_arg2)) r) 1 j.val :=
  seg1_path (W0 V) (gatesOf (V (Proc.devRef .tc main_arg0)) (V (Proc.devRef .tc main_arg1)) (V (Proc.devRef .tc main_arg2)) r) r (W0_gates V r) (seg0_root V r) j
/-- Level 2. -/
theorem lev2 (V : Valuation τ sig (Elt Ideal)) (r : Fin 8192) (j : Fin 4) :
    W2 V (Proc.devRef .tc main_v29) (ix2 r j) = pathI (gatesOf (V (Proc.devRef .tc main_arg0)) (V (Proc.devRef .tc main_arg1)) (V (Proc.devRef .tc main_arg2)) r) 2 j.val :=
  seg2_path (W1 V) (gatesOf (V (Proc.devRef .tc main_arg0)) (V (Proc.devRef .tc main_arg1)) (V (Proc.devRef .tc main_arg2)) r) r
    (fun n => (congrFun (gates_pass1 V) (ix2 r n)).trans (W0_gates V r n)) (lev1 V r) j
/-- Level 3. -/
theorem lev3 (V : Valuation τ sig (Elt Ideal)) (r : Fin 8192) (j : Fin 8) :
    W3 V (Proc.devRef .tc main_v38) (ix2 r j) = pathI (gatesOf (V (Proc.devRef .tc main_arg0)) (V (Proc.devRef .tc main_arg1)) (V (Proc.devRef .tc main_arg2)) r) 3 j.val :=
  seg3_path (W2 V) (gatesOf (V (Proc.devRef .tc main_arg0)) (V (Proc.devRef .tc main_arg1)) (V (Proc.devRef .tc main_arg2)) r) r
    (fun n => (congrFun (gates_pass2 V) (ix2 r n)).trans (W0_gates V r n)) (lev2 V r) j
/-- Level 4. -/
theorem lev4 (V : Valuation τ sig (Elt Ideal)) (r : Fin 8192) (j : Fin 16) :
    W4 V (Proc.devRef .tc main_v47) (ix2 r j) = pathI (gatesOf (V (Proc.devRef .tc main_arg0)) (V (Proc.devRef .tc main_arg1)) (V (Proc.devRef .tc main_arg2)) r) 4 j.val :=
  seg4_path (W3 V) (gatesOf (V (Proc.devRef .tc main_arg0)) (V (Proc.devRef .tc main_arg1)) (V (Proc.devRef .tc main_arg2)) r) r
    (fun n => (congrFun (gates_pass3 V) (ix2 r n)).trans (W0_gates V r n)) (lev3 V r) j
/-- Level 5. -/
theorem lev5 (V : Valuation τ sig (Elt Ideal)) (r : Fin 8192) (j : Fin 32) :
    W5 V (Proc.devRef .tc main_v56) (ix2 r j) = pathI (gatesOf (V (Proc.devRef .tc main_arg0)) (V (Proc.devRef .tc main_arg1)) (V (Proc.devRef .tc main_arg2)) r) 5 j.val :=
  seg5_path (W4 V) (gatesOf (V (Proc.devRef .tc main_arg0)) (V (Proc.devRef .tc main_arg1)) (V (Proc.devRef .tc main_arg2)) r) r
    (fun n => (congrFun (gates_pass4 V) (ix2 r n)).trans (W0_gates V r n)) (lev4 V r) j
/-- Level 6. -/
theorem lev6 (V : Valuation τ sig (Elt Ideal)) (r : Fin 8192) (j : Fin 64) :
    W6 V (Proc.devRef .tc main_v65) (ix2 r j) = pathI (gatesOf (V (Proc.devRef .tc main_arg0)) (V (Proc.devRef .tc main_arg1)) (V (Proc.devRef .tc main_arg2)) r) 6 j.val :=
  seg6_path (W5 V) (gatesOf (V (Proc.devRef .tc main_arg0)) (V (Proc.devRef .tc main_arg1)) (V (Proc.devRef .tc main_arg2)) r) r
    (fun n => (congrFun (gates_pass5 V) (ix2 r n)).trans (W0_gates V r n)) (lev5 V r) j
/-- Level 7. -/
theorem lev7 (V : Valuation τ sig (Elt Ideal)) (r : Fin 8192) (j : Fin 128) :
    W7 V (Proc.devRef .tc main_v74) (ix2 r j) = pathI (gatesOf (V (Proc.devRef .tc main_arg0)) (V (Proc.devRef .tc main_arg1)) (V (Proc.devRef .tc main_arg2)) r) 7 j.val :=
  seg7_path (W6 V) (gatesOf (V (Proc.devRef .tc main_arg0)) (V (Proc.devRef .tc main_arg1)) (V (Proc.devRef .tc main_arg2)) r) r
    (fun n => (congrFun (gates_pass6 V) (ix2 r n)).trans (W0_gates V r n)) (lev6 V r) j
/-- Level 8. -/
theorem lev8 (V : Valuation τ sig (Elt Ideal)) (r : Fin 8192) (j : Fin 256) :
    W8 V (Proc.devRef .tc main_v83) (ix2 r j) = pathI (gatesOf (V (Proc.devRef .tc main_arg0)) (V (Proc.devRef .tc main_arg1)) (V (Proc.devRef .tc main_arg2)) r) 8 j.val :=
  seg8_path (W7 V) (gatesOf (V (Proc.devRef .tc main_arg0)) (V (Proc.devRef .tc main_arg1)) (V (Proc.devRef .tc main_arg2)) r) r
    (fun n => (congrFun (gates_pass7 V) (ix2 r n)).trans (W0_gates V r n)) (lev7 V r) j
/-- Level 9. -/
theorem lev9 (V : Valuation τ sig (Elt Ideal)) (r : Fin 8192) (j : Fin 512) :
    W9 V (Proc.devRef .tc main_v92) (ix2 r j) = pathI (gatesOf (V (Proc.devRef .tc main_arg0)) (V (Proc.devRef .tc main_arg1)) (V (Proc.devRef .tc main_arg2)) r) 9 j.val :=
  seg9_path (W8 V) (gatesOf (V (Proc.devRef .tc main_arg0)) (V (Proc.devRef .tc main_arg1)) (V (Proc.devRef .tc main_arg2)) r) r
    (fun n => (congrFun (gates_pass8 V) (ix2 r n)).trans (W0_gates V r n)) (lev8 V r) j
/-- Level 10. -/
theorem lev10 (V : Valuation τ sig (Elt Ideal)) (r : Fin 8192) (j : Fin 1024) :
    W10 V (Proc.devRef .tc main_v101) (ix2 r j) = pathI (gatesOf (V (Proc.devRef .tc main_arg0)) (V (Proc.devRef .tc main_arg1)) (V (Proc.devRef .tc main_arg2)) r) 10 j.val :=
  seg10_path (W9 V) (gatesOf (V (Proc.devRef .tc main_arg0)) (V (Proc.devRef .tc main_arg1)) (V (Proc.devRef .tc main_arg2)) r) r
    (fun n => (congrFun (gates_pass9 V) (ix2 r n)).trans (W0_gates V r n)) (lev9 V r) j

/-- The last level is carried past the softmax segment. -/
theorem W11_leaves (V : Valuation τ sig (Elt Ideal)) :
    W11 V (Proc.devRef .tc main_v101) = W10 V (Proc.devRef .tc main_v101) :=
  seg11_pass (W10 V) main_v101 (by decide)

/-- The leaf logits reach the softmax segment as they were launched, so it leaves their softmax chain. -/
theorem W11_dists (V : Valuation τ sig (Elt Ideal)) :
    W11 V (Proc.devRef .tc main_v112) = Cert.Softmax.chain bcast_S1024x1_S1024x1000_0_1 bcast_S1024_S1024x1_0 bcast_S_S1024 reducesTo_S1024x1000_S1024_d1 h_S_ (V (Proc.devRef .tc main_arg3)) :=
  (seg11_dists (W10 V)).trans (congrArg (Cert.Softmax.chain bcast_S1024x1_S1024x1000_0_1 bcast_S1024_S1024x1_0 bcast_S_S1024 reducesTo_S1024x1000_S1024_d1 h_S_) (W10_pass V main_arg3 (by decide)))

/-- The result buffer after the whole line: the contraction of the last level with the softmax chain of the leaf logits. -/
theorem W12_out (V : Valuation τ sig (Elt Ideal)) :
    W12 V (Proc.devRef .tc main_v113)
      = Host.dotGeneral (F := Ideal) (φ₁ := .f32) (φ₂ := .f32) dot_S8192x1024_S1024x1000_S8192x1000_1_0_0_1_n_n none (W10 V (Proc.devRef .tc main_v101)) (Cert.Softmax.chain bcast_S1024x1_S1024x1000_0_1 bcast_S1024_S1024x1_0 bcast_S_S1024 reducesTo_S1024x1000_S1024_d1 h_S_ (V (Proc.devRef .tc main_arg3))) := by
  refine (seg12_out (W11 V)).trans ?_
  rw [W11_leaves, W11_dists]

/-- THE RESULT BUFFER after the whole line holds the common result G of the four arguments. -/
theorem out_eq (V : Valuation τ sig (Elt Ideal)) :
    W12 V (Proc.devRef .tc main_v113) = G (V (Proc.devRef .tc main_arg0)) (V (Proc.devRef .tc main_arg1)) (V (Proc.devRef .tc main_arg2)) (V (Proc.devRef .tc main_arg3)) := by
  funext i
  rw [W12_out]
  show _ = resultOf (V (Proc.devRef .tc main_arg0)) (V (Proc.devRef .tc main_arg1)) (V (Proc.devRef .tc main_arg2)) (distsOf (V (Proc.devRef .tc main_arg3))) (i 0) (i 1)
  refine (congrArg (Host.dotGeneral (F := Ideal) (φ₁ := .f32) (φ₂ := .f32) dot_S8192x1024_S1024x1000_S8192x1000_1_0_0_1_n_n none (W10 V (Proc.devRef .tc main_v101)) (Cert.Softmax.chain bcast_S1024x1_S1024x1000_0_1 bcast_S1024_S1024x1_0 bcast_S_S1024 reducesTo_S1024x1000_S1024_d1 h_S_ (V (Proc.devRef .tc main_arg3)))) (eq_ix2 i)).trans ?_
  refine (hostdot_apply (M := 8192) (K := 1024) (N := 1000) dot_S8192x1024_S1024x1000_S8192x1000_1_0_0_1_n_n.wf none _ _ (i 0) (i 1)).trans ?_
  unfold resultOf
  refine Finset.sum_congr rfl fun k _ => ?_
  rw [lev10 V (i 0) k]
  exact congrArg (pathI (gatesOf (V (Proc.devRef .tc main_arg0)) (V (Proc.devRef .tc main_arg1)) (V (Proc.devRef .tc main_arg2)) (i 0)) 10 k.val * ·) (Cert.Softmax.chain_apply _ _ _ _ _ _ k (i 1))

/-! ## The run -/

/-- THE REFERENCE'S RUN: every weakly fair execution terminates with the result buffer at G of the four arguments'
    launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v113).trans ((congrFun (after_ops (launchContents m c)) _).trans (out_eq (launchContents m c))),
        (h c main_arg0).trans ((congrFun (after_ops (launchContents m c)) _).trans (W12_pass (launchContents m c) main_arg0 (by decide))),
        (h c main_arg1).trans ((congrFun (after_ops (launchContents m c)) _).trans (W12_pass (launchContents m c) main_arg1 (by decide))),
        (h c main_arg2).trans ((congrFun (after_ops (launchContents m c)) _).trans (W12_pass (launchContents m c) main_arg2 (by decide))),
        (h c main_arg3).trans ((congrFun (after_ops (launchContents m c)) _).trans (W12_pass (launchContents m c) main_arg3 (by decide)))⟩)
    (run_seq scopedRefs_eq scopedSems_eq defs main (fun _ => ops) main_eq (fun _ => ops_sub) m ρ)

/-- The same run, keeping only that the arguments are unchanged. -/
theorem ref_frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (ref_run m ρ)

end Cert.RefRun

end
-- ==== Proof.lean ====
/-
  A depth-10 soft decision tree on 8192 input rows: the kernel program and its reference compute the same [8192, 1000]
  array at the ideal values, and all three printed programs run without fault leaving their arguments unchanged.

  Both programs compute, for input row r, the gates g_n = logistic (x_r . w_n + b_n) of the 1023 inner nodes, the
  probability of reaching each of the 1024 leaves as a product of g or 1 - g along the path from the root, and the mixture
  of the leaf distributions (softmax rows of the leaf logits) by those probabilities: the function G of the four argument
  arrays (Result). The reference lists each level's children side by side (RefRun, over RefLevel's readings). The kernel lists each level by halves
  — all left children, then all right children —, which bit-reverses every level; its host code hands the region the node
  weights and biases bit-reversed level by level and the leaf distributions' rows bit-reversed (KHost), the body's
  arithmetic at an index is the halves listing mixed with those rows (KBody), the 32 row blocks make up the whole array
  (KValue), the host slices off the padding lanes (KRun), and the halves listing with bit-reversed gates and rows mixes to
  the same sum as the interleaved listing, a finite sum being independent of the order of its terms (Spec, KMath, KOutEq).
  No step divides, cancels or distributes, so the inputs' finiteness is never used. The ideal pass rewrote nothing,
  so the idealization claim is trivial; the frames of the two kernel programs are the generated ones, and the reference's
  frame is its run with the result forgotten.
-/
import proofs.«120453_j90039694393610_2_alg».proof.Defs
import proofs.«120453_j90039694393610_2_alg».proof.Proof.Gen.Kernel
import proofs.«120453_j90039694393610_2_alg».proof.Proof.Gen.Kernel.Skeleton
import proofs.«120453_j90039694393610_2_alg».proof.Proof.Gen.Kernel.Launch
import proofs.«120453_j90039694393610_2_alg».proof.Proof.Gen.Kernel.Points
import proofs.«120453_j90039694393610_2_alg».proof.Proof.Gen.Kernel.Frame
import proofs.«120453_j90039694393610_2_alg».proof.Proof.Gen.KernelIdeal
import proofs.«120453_j90039694393610_2_alg».proof.Proof.Gen.KernelIdeal.Skeleton
import proofs.«120453_j90039694393610_2_alg».proof.Proof.Gen.KernelIdeal.Launch
import proofs.«120453_j90039694393610_2_alg».proof.Proof.Gen.KernelIdeal.Points
import proofs.«120453_j90039694393610_2_alg».proof.Proof.Gen.KernelIdeal.Frame
import proofs.«120453_j90039694393610_2_alg».proof.Proof.Gen.ReferenceIdeal
import proofs.«120453_j90039694393610_2_alg».proof.Proof.Gen.Pre_finite_inputs
import proofs.«120453_j90039694393610_2_alg».proof.Proof.KOutEq
import proofs.«120453_j90039694393610_2_alg».proof.Proof.RefRun
import Idealize.ShloMosaic.Adequacy
import Idealize.ShloMosaic.Init

noncomputable section

namespace Cert.Proof

open Idealize.ShloMosaic Idealize.ShloMosaic.TcCoe Idealize.SL.Sem Cert.Tree

/-- At the ideal values both programs end with the common result G of arguments that agree. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KOutEq.run m ρ, ?_⟩
  refine (θ_run Cert.ReferenceIdeal.defs _ _).mono (fun _ h c => ⟨(h c).1.trans ?_, (h c).2⟩) (Cert.RefRun.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.RefRun.ref_frame m ρ,
    trivial,
    algebraic⟩

end Cert.Proof

end
